-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v100)) (v2 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_v107) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_v183) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S2000000 : Shape := ⟨1, ![2000000]⟩
abbrev S8192 : Shape := ⟨1, ![8192]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S200000x64 .f32) (main_arg1 : FVec F S100000x64 .f32) (main_arg2 : IVec S2000000 32) (main_arg3 : IVec S2000000 32) (main_arg4 : IVec S8192 32) (main_arg5 : IVec S8192 32) (main_arg6 : IVec S8192 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S200000x64 : Shape := ⟨2, ![200000, 64]⟩
abbrev S100000x64 : Shape := ⟨2, ![100000, 64]⟩
abbrev S2000000 : Shape := ⟨1, ![2000000]⟩
abbrev S8192 : Shape := ⟨1, ![8192]⟩
abbrev S_ : Shape := ⟨0, ![]⟩
abbrev S200000 : Shape := ⟨1, ![200000]⟩
abbrev S2000000x1 : Shape := ⟨2, ![2000000, 1]⟩
abbrev S100000 : Shape := ⟨1, ![100000]⟩
abbrev S200000x1 : Shape := ⟨2, ![200000, 1]⟩
abbrev S100000x1 : Shape := ⟨2, ![100000, 1]⟩
abbrev S2000x64 : Shape := ⟨2, ![2000, 64]⟩
abbrev S2000x1 : Shape := ⟨2, ![2000, 1]⟩
abbrev S2000000x64 : Shape := ⟨2, ![2000000, 64]⟩
abbrev S2000 : Shape := ⟨1, ![2000]⟩
abbrev S8192x1 : Shape := ⟨2, ![8192, 1]⟩
abbrev S8192x64 : Shape := ⟨2, ![8192, 64]⟩

abbrev nBuf : Space → Nat
  | .hbm => 158
  | .vmem => 72
  | .smem => 0
  | _ => 0

abbrev hbmTy0_0 (i : Nat) : BufTy := match i % 128 with
  | 0 => ⟨S200000x64, .f32⟩
  | 1 => ⟨S100000x64, .f32⟩
  | 2 => ⟨S2000000, .i32⟩
  | 3 => ⟨S2000000, .i32⟩
  | 4 => ⟨S8192, .i32⟩
  | 5 => ⟨S8192, .i32⟩
  | 6 => ⟨S8192, .i32⟩
  | 7 => ⟨S_, .f32⟩
  | 8 => ⟨S2000000, .f32⟩
  | 9 => ⟨S_, .f32⟩
  | 10 => ⟨S200000, .f32⟩
  | 11 => ⟨S2000000x1, .i32⟩
  | 12 => ⟨S200000, .f32⟩
  | 13 => ⟨S_, .f32⟩
  | 14 => ⟨S100000, .f32⟩
  | 15 => ⟨S2000000x1, .i32⟩
  | 16 => ⟨S100000, .f32⟩
  | 17 => ⟨S_, .f32⟩
  | 18 => ⟨S200000, .f32⟩
  | 19 => ⟨S200000, .i1⟩
  | 20 => ⟨S_, .f32⟩
  | 21 => ⟨S200000, .f32⟩
  | 22 => ⟨S200000, .f32⟩
  | 23 => ⟨S_, .f32⟩
  | 24 => ⟨S_, .f32⟩
  | 25 => ⟨S200000, .f32⟩
  | 26 => ⟨S200000, .f32⟩
  | 27 => ⟨S200000x1, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S100000x1, .f32⟩
  | 39 => ⟨S200000x64, .f32⟩
  | 40 => ⟨S100000x64, .f32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i32⟩
  | 47 => ⟨S2000000, .i32⟩
  | 48 => ⟨S2000000x1, .i32⟩
  | 49 => ⟨S2000000x64, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x64, .f32⟩
  | 59 => ⟨S_, .f32⟩
  | 60 => ⟨S200000x64, .f32⟩
  | 61 => ⟨S2000000x1, .i32⟩
  | 62 => ⟨S200000x64, .f32⟩
  | 63 => ⟨S_, .f32⟩
  | 64 => ⟨S100000x64, .f32⟩
  | 65 => ⟨S2000000x1, .i32⟩
  | 66 => ⟨S100000x64, .f32⟩
  | 67 => ⟨S200000x64, .f32⟩
  | 68 => ⟨S200000x64, .f32⟩
  | 69 => ⟨S100000x64, .f32⟩
  | 70 => ⟨S100000x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x64, .f32⟩
  | 89 => ⟨S_, .f32⟩
  | 90 => ⟨S200000x64, .f32⟩
  | 91 => ⟨S2000000x1, .i32⟩
  | 92 => ⟨S200000x64, .f32⟩
  | 93 => ⟨S_, .f32⟩
  | 94 => ⟨S100000x64, .f32⟩
  | 95 => ⟨S2000000x1, .i32⟩
  | 96 => ⟨S100000x64, .f32⟩
  | 97 => ⟨S200000x64, .f32⟩
  | 98 => ⟨S200000x64, .f32⟩
  | 99 => ⟨S100000x64, .f32⟩
  | 100 => ⟨S100000x64, .f32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x64, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x64, .f32⟩
  | 119 => ⟨S_, .f32⟩
  | 120 => ⟨S200000x64, .f32⟩
  | 121 => ⟨S2000000x1, .i32⟩
  | 122 => ⟨S200000x64, .f32⟩
  | 123 => ⟨S_, .f32⟩
  | 124 => ⟨S100000x64, .f32⟩
  | 125 => ⟨S2000000x1, .i32⟩
  | 126 => ⟨S100000x64, .f32⟩
  | 127 => ⟨S200000x64, .f32⟩
  | _ => ⟨S200000x64, .f32⟩

abbrev hbmTy0_1 (i : Nat) : BufTy := match i % 128 with
  | 0 => ⟨S200000x64, .f32⟩
  | 1 => ⟨S100000x64, .f32⟩
  | 2 => ⟨S100000x64, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x64, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x64, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x1, .f32⟩
  | .local _ .vmem, ⟨15, _⟩ => ⟨S2000x1, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x1, .f32⟩
  | .local _ .vmem, ⟨35, _⟩ => ⟨S2000x1, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x1, .f32⟩
  | .local _ .vmem, ⟨45, _⟩ => ⟨S2000x1, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x1, .f32⟩
  | .local _ .vmem, ⟨55, _⟩ => ⟨S2000x1, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x1, .f32⟩
  | .local _ .vmem, ⟨65, _⟩ => ⟨S2000x1, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v42_0 : Ref sig .tc := ⟨.hbm, 69, rfl⟩
abbrev main_v42_1 : Ref sig .tc := ⟨.hbm, 70, rfl⟩
abbrev main_c_13 : Ref sig .tc := ⟨.hbm, 71, rfl⟩
abbrev main_v43 : Ref sig .tc := ⟨.hbm, 72, rfl⟩
abbrev main_v44 : Ref sig .tc := ⟨.hbm, 73, rfl⟩
abbrev main_c_14 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_15 : Ref sig .tc := ⟨.hbm, 80, rfl⟩
abbrev main_v50 : Ref sig .tc := ⟨.hbm, 81, rfl⟩
abbrev main_v51 : Ref sig .tc := ⟨.hbm, 82, rfl⟩
abbrev main_c_16 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_17 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_18 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63_0 : Ref sig .tc := ⟨.hbm, 97, rfl⟩
abbrev main_v63_1 : Ref sig .tc := ⟨.hbm, 98, rfl⟩
abbrev main_v64_0 : Ref sig .tc := ⟨.hbm, 99, rfl⟩
abbrev main_v64_1 : Ref sig .tc := ⟨.hbm, 100, rfl⟩
abbrev main_c_19 : Ref sig .tc := ⟨.hbm, 101, rfl⟩
abbrev main_v65 : Ref sig .tc := ⟨.hbm, 102, rfl⟩
abbrev main_v66 : Ref sig .tc := ⟨.hbm, 103, rfl⟩
abbrev main_c_20 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_21 : Ref sig .tc := ⟨.hbm, 110, rfl⟩
abbrev main_v72 : Ref sig .tc := ⟨.hbm, 111, rfl⟩
abbrev main_v73 : Ref sig .tc := ⟨.hbm, 112, rfl⟩
abbrev main_c_22 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_23 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_24 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85_0 : Ref sig .tc := ⟨.hbm, 127, rfl⟩
abbrev main_v85_1 : Ref sig .tc := ⟨.hbm, 128, rfl⟩
abbrev main_v86_0 : Ref sig .tc := ⟨.hbm, 129, rfl⟩
abbrev main_v86_1 : Ref sig .tc := ⟨.hbm, 130, rfl⟩
abbrev main_c_25 : Ref sig .tc := ⟨.hbm, 131, rfl⟩
abbrev main_v87 : Ref sig .tc := ⟨.hbm, 132, rfl⟩
abbrev main_v88 : Ref sig .tc := ⟨.hbm, 133, rfl⟩
abbrev main_c_26 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_27 : Ref sig .tc := ⟨.hbm, 140, rfl⟩
abbrev main_v94 : Ref sig .tc := ⟨.hbm, 141, rfl⟩
abbrev main_v95 : Ref sig .tc := ⟨.hbm, 142, rfl⟩
abbrev main_c_28 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_29 : Ref sig .tc := ⟨.hbm, 149, rfl⟩
abbrev main_v101 : Ref sig .tc := ⟨.hbm, 150, rfl⟩
abbrev main_v102 : Ref sig .tc := ⟨.hbm, 151, rfl⟩
abbrev main_c_30 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem3_1 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem3_1 : DmaSem sig := 69
abbrev cc7_sem4_0 : DmaSem sig := 70
abbrev cc7_sem4_1 : DmaSem sig := 71

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S100000 : S_.BroadcastsInDim S100000 (![] : Fin 0 → Fin S100000.rank)
  shapeCasts_S200000_S200000x1 : S200000.ShapeCasts S200000x1
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S200000x64 : S_.BroadcastsInDim S200000x64 (![] : Fin 0 → Fin S200000x64.rank)
  bcast_S_S100000x64 : S_.BroadcastsInDim S100000x64 (![] : Fin 0 → Fin S100000x64.rank)
  shapeCasts_S2000x64_S2000x64 : S2000x64.ShapeCasts S2000x64
  reduces_S2000x64_S2000 : S2000x64.Reduces [1] S2000
  shapeCasts_S2000_S2000x1 : S2000.ShapeCasts S2000x1
  bcast_S_S8192 : S_.BroadcastsInDim S8192 (![] : Fin 0 → Fin S8192.rank)
  bcast_S8192_S8192x1_0 : S8192.BroadcastsInDim S8192x1 (![0] : Fin 1 → Fin S8192x1.rank)
  scatter_S200000_S2000000x1_S2000000_n_0_0_1_wf : ScatterDims.WF S200000 S2000000x1 S2000000 [] [0] [0] 1
  scatter_S100000_S2000000x1_S2000000_n_0_0_1_wf : ScatterDims.WF S100000 S2000000x1 S2000000 [] [0] [0] 1
  gather_S200000x64_S2000000x1_S2000000x64_1_0_n_n_0_1_164_wf : GatherDims.WF S200000x64 S2000000x1 S2000000x64 [1] [0] [] [0] [] 1 ![1, 64]
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S100000x64_S2000000x1_S2000000x64_1_0_0_1_wf : ScatterDims.WF S100000x64 S2000000x1 S2000000x64 [1] [0] [0] 1
  gather_S200000x64_S8192x1_S8192x64_1_0_n_n_0_1_164_wf : GatherDims.WF S200000x64 S8192x1 S8192x64 [1] [0] [] [0] [] 1 ![1, 64]
  gather_S100000x64_S8192x1_S8192x64_1_0_n_n_0_1_164_wf : GatherDims.WF S100000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .f32 = 32 ∨ (Rect.block (s := S200000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S200000x64.size a
  hwx0_2 : ∀ i : grid0.Coords, EltTy.bits .f32 = 32 ∨ (Rect.block (s := S200000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S200000x64.size a
  hwx2_0 : ∀ i : grid2.Coords, EltTy.bits .f32 = 32 ∨ (Rect.block (s := S200000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S200000x1.size a
  hwx2_1 : ∀ i : grid2.Coords, EltTy.bits .f32 = 32 ∨ (Rect.block (s := S200000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S200000x64.size a
  hwx2_2 : ∀ i : grid2.Coords, EltTy.bits .f32 = 32 ∨ (Rect.block (s := S200000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S200000x64.size a
  hwx2_3 : ∀ i : grid2.Coords, EltTy.bits .f32 = 32 ∨ (Rect.block (s := S200000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S200000x64.size a
  hwx2_4 : ∀ i : grid2.Coords, EltTy.bits .f32 = 32 ∨ (Rect.block (s := S200000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S200000x64.size a
  hwx4_0 : ∀ i : grid4.Coords, EltTy.bits .f32 = 32 ∨ (Rect.block (s := S200000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S200000x1.size a
  hwx4_1 : ∀ i : grid4.Coords, EltTy.bits .f32 = 32 ∨ (Rect.block (s := S200000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S200000x64.size a
  hwx4_2 : ∀ i : grid4.Coords, EltTy.bits .f32 = 32 ∨ (Rect.block (s := S200000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S200000x64.size a
  hwx4_3 : ∀ i : grid4.Coords, EltTy.bits .f32 = 32 ∨ (Rect.block (s := S200000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S200000x64.size a
  hwx4_4 : ∀ i : grid4.Coords, EltTy.bits .f32 = 32 ∨ (Rect.block (s := S200000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S200000x64.size a
  hwx6_0 : ∀ i : grid6.Coords, EltTy.bits .f32 = 32 ∨ (Rect.block (s := S200000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S200000x1.size a
  hwx6_1 : ∀ i : grid6.Coords, EltTy.bits .f32 = 32 ∨ (Rect.block (s := S200000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S200000x64.size a
  hwx6_2 : ∀ i : grid6.Coords, EltTy.bits .f32 = 32 ∨ (Rect.block (s := S200000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S200000x64.size a
  hwx6_3 : ∀ i : grid6.Coords, EltTy.bits .f32 = 32 ∨ (Rect.block (s := S200000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S200000x64.size a
  hwx6_4 : ∀ i : grid6.Coords, EltTy.bits .f32 = 32 ∨ (Rect.block (s := S200000x64) S2000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S100000x1.size a
  hwx7_1 : ∀ i : grid7.Coords, EltTy.bits .f32 = 32 ∨ (Rect.block (s := S100000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S100000x64.size a
  hwx7_2 : ∀ i : grid7.Coords, EltTy.bits .f32 = 32 ∨ (Rect.block (s := S100000x64) S2000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S100000x64.size a
  hwx7_3 : ∀ i : grid7.Coords, EltTy.bits .f32 = 32 ∨ (Rect.block (s := S100000x64) S2000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S100000x64.size a
  hwx7_4 : ∀ i : grid7.Coords, EltTy.bits .f32 = 32 ∨ (Rect.block (s := S100000x64) S2000x64.size (cc7_transform_4 i) (hinb7_4 i)).WholeWords (EltTy.packing .f32)

variable [Facts₀]

def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42_0) S2000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v42_1) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41_0) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v63_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v63_1) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v62) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42_0) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v64_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v64_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v81) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v63_0) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v85_0) S2000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v85_1) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v84) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v18) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v64_0) S2000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v86_0) S2000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v86_1) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S2000000 : Shape := ⟨1, ![2000000]⟩
abbrev S8192 : Shape := ⟨1, ![8192]⟩
abbrev S_ : Shape := ⟨0, ![]⟩
abbrev S200000 : Shape := ⟨1, ![200000]⟩
abbrev S2000000x1 : Shape := ⟨2, ![2000000, 1]⟩
abbrev S100000 : Shape := ⟨1, ![100000]⟩
abbrev S2000000x64 : Shape := ⟨2, ![2000000, 64]⟩
abbrev S200000x1 : Shape := ⟨2, ![200000, 1]⟩
abbrev S100000x1 : Shape := ⟨2, ![100000, 1]⟩
abbrev S8192x1 : Shape := ⟨2, ![8192, 1]⟩
abbrev S8192x64 : Shape := ⟨2, ![8192, 64]⟩

abbrev nBuf : Space → Nat
  | .hbm => 241
  | .vmem => 0
  | .smem => 0
  | _ => 0

abbrev hbmTy0_0 (i : Nat) : BufTy := match i % 128 with
  | 0 => ⟨S200000x64, .f32⟩
  | 1 => ⟨S100000x64, .f32⟩
  | 2 => ⟨S2000000, .i32⟩
  | 3 => ⟨S2000000, .i32⟩
  | 4 => ⟨S8192, .i32⟩
  | 5 => ⟨S8192, .i32⟩
  | 6 => ⟨S8192, .i32⟩
  | 7 => ⟨S_, .f32⟩
  | 8 => ⟨S2000000, .f32⟩
  | 9 => ⟨S_, .f32⟩
  | 10 => ⟨S200000, .f32⟩
  | 11 => ⟨S2000000x1, .i32⟩
  | 12 => ⟨S200000, .f32⟩
  | 13 => ⟨S_, .f32⟩
  | 14 => ⟨S100000, .f32⟩
  | 15 => ⟨S2000000x1, .i32⟩
  | 16 => ⟨S100000, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000x1, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x64, .f32⟩
  | 49 => ⟨S2000000x64, .f32⟩
  | 50 => ⟨S2000000x64, .f32⟩
  | 51 => ⟨S_, .f32⟩
  | 52 => ⟨S100000x64, .f32⟩
  | 53 => ⟨S2000000x1, .i32⟩
  | 54 => ⟨S100000x64, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S2000000x64, .f32⟩
  | 66 => ⟨S_, .f32⟩
  | 67 => ⟨S200000x64, .f32⟩
  | 68 => ⟨S2000000x1, .i32⟩
  | 69 => ⟨S200000x64, .f32⟩
  | 70 => ⟨S200000x64, .f32⟩
  | 71 => ⟨S_, .f32⟩
  | 72 => ⟨S200000, .f32⟩
  | 73 => ⟨S200000x1, .f32⟩
  | 74 => ⟨S200000x1, .f32⟩
  | 75 => ⟨S_, .f32⟩
  | 76 => ⟨S200000x1, .f32⟩
  | 77 => ⟨S200000x1, .f32⟩
  | 78 => ⟨S200000x64, .f32⟩
  | 79 => ⟨S200000x64, .f32⟩
  | 80 => ⟨S100000x64, .f32⟩
  | 81 => ⟨S_, .f32⟩
  | 82 => ⟨S100000, .f32⟩
  | 83 => ⟨S100000x1, .f32⟩
  | 84 => ⟨S100000x1, .f32⟩
  | 85 => ⟨S_, .f32⟩
  | 86 => ⟨S100000x1, .f32⟩
  | 87 => ⟨S100000x1, .f32⟩
  | 88 => ⟨S100000x64, .f32⟩
  | 89 => ⟨S100000x64, .f32⟩
  | 90 => ⟨S_, .f32⟩
  | 91 => ⟨S200000x64, .f32⟩
  | 92 => ⟨S200000x64, .f32⟩
  | 93 => ⟨S200000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x64, .f32⟩
  | 107 => ⟨S2000000x64, .f32⟩
  | 108 => ⟨S2000000x64, .f32⟩
  | 109 => ⟨S_, .f32⟩
  | 110 => ⟨S100000x64, .f32⟩
  | 111 => ⟨S2000000x1, .i32⟩
  | 112 => ⟨S100000x64, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x64, .f32⟩
  | 122 => ⟨S2000000x64, .f32⟩
  | 123 => ⟨S2000000x64, .f32⟩
  | 124 => ⟨S_, .f32⟩
  | 125 => ⟨S200000x64, .f32⟩
  | 126 => ⟨S2000000x1, .i32⟩
  | 127 => ⟨S200000x64, .f32⟩
  | _ => ⟨S200000x64, .f32⟩

abbrev hbmTy0_1 (i : Nat) : BufTy := match i % 128 with
  | 0 => ⟨S200000x64, .f32⟩
  | 1 => ⟨S_, .f32⟩
  | 2 => ⟨S200000, .f32⟩
  | 3 => ⟨S200000x1, .f32⟩
  | 4 => ⟨S200000x1, .f32⟩
  | 5 => ⟨S_, .f32⟩
  | 6 => ⟨S200000x1, .f32⟩
  | 7 => ⟨S200000x1, .f32⟩
  | 8 => ⟨S200000x64, .f32⟩
  | 9 => ⟨S200000x64, .f32⟩
  | 10 => ⟨S100000x64, .f32⟩
  | 11 => ⟨S_, .f32⟩
  | 12 => ⟨S100000, .f32⟩
  | 13 => ⟨S100000x1, .f32⟩
  | 14 => ⟨S100000x1, .f32⟩
  | 15 => ⟨S_, .f32⟩
  | 16 => ⟨S100000x1, .f32⟩
  | 17 => ⟨S100000x1, .f32⟩
  | 18 => ⟨S100000x64, .f32⟩
  | 19 => ⟨S100000x64, .f32⟩
  | 20 => ⟨S_, .f32⟩
  | 21 => ⟨S200000x64, .f32⟩
  | 22 => ⟨S200000x64, .f32⟩
  | 23 => ⟨S200000x64, .f32⟩
  | 24 => ⟨S_, .f32⟩
  | 25 => ⟨S100000x64, .f32⟩
  | 26 => ⟨S100000x64, .f32⟩
  | 27 => ⟨S100000x64, .f32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000x64, .f32⟩
  | 37 => ⟨S2000000x64, .f32⟩
  | 38 => ⟨S2000000x64, .f32⟩
  | 39 => ⟨S_, .f32⟩
  | 40 => ⟨S100000x64, .f32⟩
  | 41 => ⟨S2000000x1, .i32⟩
  | 42 => ⟨S100000x64, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S2000000x64, .f32⟩
  | 53 => ⟨S2000000x64, .f32⟩
  | 54 => ⟨S_, .f32⟩
  | 55 => ⟨S200000x64, .f32⟩
  | 56 => ⟨S2000000x1, .i32⟩
  | 57 => ⟨S200000x64, .f32⟩
  | 58 => ⟨S200000x64, .f32⟩
  | 59 => ⟨S_, .f32⟩
  | 60 => ⟨S200000, .f32⟩
  | 61 => ⟨S200000x1, .f32⟩
  | 62 => ⟨S200000x1, .f32⟩
  | 63 => ⟨S_, .f32⟩
  | 64 => ⟨S200000x1, .f32⟩
  | 65 => ⟨S200000x1, .f32⟩
  | 66 => ⟨S200000x64, .f32⟩
  | 67 => ⟨S200000x64, .f32⟩
  | 68 => ⟨S100000x64, .f32⟩
  | 69 => ⟨S_, .f32⟩
  | 70 => ⟨S100000, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x64, .f32⟩
  | 77 => ⟨S100000x64, .f32⟩
  | 78 => ⟨S_, .f32⟩
  | 79 => ⟨S200000x64, .f32⟩
  | 80 => ⟨S200000x64, .f32⟩
  | 81 => ⟨S200000x64, .f32⟩
  | 82 => ⟨S_, .f32⟩
  | 83 => ⟨S100000x64, .f32⟩
  | 84 => ⟨S100000x64, .f32⟩
  | 85 => ⟨S100000x64, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x64, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x64, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_18 : Ref sig .tc := ⟨.hbm, 98, rfl⟩
abbrev main_v71 : Ref sig .tc := ⟨.hbm, 99, rfl⟩
abbrev main_v72 : Ref sig .tc := ⟨.hbm, 100, rfl⟩
abbrev main_c_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_21 : Ref sig .tc := ⟨.hbm, 113, rfl⟩
abbrev main_v83 : Ref sig .tc := ⟨.hbm, 114, rfl⟩
abbrev main_v84 : Ref sig .tc := ⟨.hbm, 115, rfl⟩
abbrev main_c_22 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_24 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_25 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_26 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_27 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_28 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_29 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_30 : Ref sig .tc := ⟨.hbm, 156, rfl⟩
abbrev main_v117 : Ref sig .tc := ⟨.hbm, 157, rfl⟩
abbrev main_v118 : Ref sig .tc := ⟨.hbm, 158, rfl⟩
abbrev main_c_31 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_32 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_33 : Ref sig .tc := ⟨.hbm, 171, rfl⟩
abbrev main_v129 : Ref sig .tc := ⟨.hbm, 172, rfl⟩
abbrev main_v130 : Ref sig .tc := ⟨.hbm, 173, rfl⟩
abbrev main_c_34 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_35 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_36 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_37 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_38 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_39 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_40 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_41 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_c_42 : Ref sig .tc := ⟨.hbm, 214, rfl⟩
abbrev main_v163 : Ref sig .tc := ⟨.hbm, 215, rfl⟩
abbrev main_v164 : Ref sig .tc := ⟨.hbm, 216, rfl⟩
abbrev main_c_43 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_c_44 : Ref sig .tc := ⟨.hbm, 223, rfl⟩
abbrev main_v170 : Ref sig .tc := ⟨.hbm, 224, rfl⟩
abbrev main_v171 : Ref sig .tc := ⟨.hbm, 225, rfl⟩
abbrev main_c_45 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_c_46 : Ref sig .tc := ⟨.hbm, 232, rfl⟩
abbrev main_v177 : Ref sig .tc := ⟨.hbm, 233, rfl⟩
abbrev main_v178 : Ref sig .tc := ⟨.hbm, 234, rfl⟩
abbrev main_c_47 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S200000x64 : S_.BroadcastsInDim S200000x64 (![] : Fin 0 → Fin S200000x64.rank)
  reducesTo_S200000x64_S200000_d1 : S200000x64.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S8192 : S_.BroadcastsInDim S8192 (![] : Fin 0 → Fin S8192.rank)
  bcast_S8192_S8192x1_0 : S8192.BroadcastsInDim S8192x1 (![0] : Fin 1 → Fin S8192x1.rank)
  scatter_S200000_S2000000x1_S2000000_n_0_0_1_wf : ScatterDims.WF S200000 S2000000x1 S2000000 [] [0] [0] 1
  scatter_S100000_S2000000x1_S2000000_n_0_0_1_wf : ScatterDims.WF S100000 S2000000x1 S2000000 [] [0] [0] 1
  gather_S200000_S2000000x1_S2000000_n_0_n_n_0_1_1_wf : GatherDims.WF S200000 S2000000x1 S2000000 [] [0] [] [0] [] 1 ![1]
  gather_S100000_S2000000x1_S2000000_n_0_n_n_0_1_1_wf : GatherDims.WF S100000 S2000000x1 S2000000 [] [0] [] [0] [] 1 ![1]
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  gather_S200000x64_S8192x1_S8192x64_1_0_n_n_0_1_164_wf : GatherDims.WF S200000x64 S8192x1 S8192x64 [1] [0] [] [0] [] 1 ![1, 64]
  gather_S100000x64_S8192x1_S8192x64_1_0_n_n_0_1_164_wf : GatherDims.WF S100000x64 S8192x1 S8192x64 [1] [0] [] [0] [] 1 ![1, 64]

variable [Facts₀]

def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S200000_S2000000x1_S2000000_n_0_n_n_0_1_1 : GatherDims S200000 S2000000x1 S2000000 where
  offsetDims := []
  collapsedSliceDims := [0]
  operandBatchingDims := []
  startIndicesBatchingDims := []
  startIndexMap := [0]
  indexVectorDim := 1
  sliceSizes := ![1]
  wf := gather_S200000_S2000000x1_S2000000_n_0_n_n_0_1_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf

class Facts : Prop extends Facts₀ where

variable [Facts]
-- ==== Proof.RunValues.lean ====
/-
  The idealized kernel's run with its three results named.

  The program is seventeen segments in a row: stretches of host operations and eight launches. The buffer contents at the
  end of the run are the fold of all of them over the launch memory; every unscoped buffer can be read off that fold, the
  three results among them and the seven arguments (which no segment writes).
-/
import proofs.«158156_j83751862272173_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, each of the three results holding what the
    fold of the segments leaves in its buffer, and each argument as launched. -/
theorem run : θ_run defs (onTc (τ := τ) (main (F := F))) ⟨m, fun _ => 0, ρ⟩ (fun r => ∀ c : Dev nD,
      r.2.mem ((c.tc : Thread nD τ).loc main_v93) = W17 m ρ c (Proc.devRef .tc main_v93)
      ∧ r.2.mem ((c.tc : Thread nD τ).loc main_v100) = W17 m ρ c (Proc.devRef .tc main_v100)
      ∧ r.2.mem ((c.tc : Thread nD τ).loc main_v107) = W17 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v93 (by decide)),
       h c _ (mem_uc main_v100 (by decide)),
       h c _ (mem_uc main_v107 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c)⟩)

end Cert.KernelIdeal.RunValues

end
-- ==== Proof.LibHostRowSum.lean ====
/-
  The host's float sum over the second axis of a matrix, read at a row, over arbitrary extents and at the ideal values:
  the sum over axis 1 of an `[a, b]` matrix from an initial value reads, at row `e`, the initial value plus the sum of
  the row's `b` entries. (Nothing here mentions a program.)
-/
import Idealize.ShloMosaic.Lib.ValueIdx
import Idealize.ShloMosaic.Lib.IdealHost
import Idealize.ShloMosaic.PureOps.Ideal.Laws

noncomputable section

open scoped BigOperators

namespace Cert.Lib.HostRowSum

open Idealize.ShloMosaic Idealize.ShloMosaic.ValueIdx

/-- Row `e` of an `[a, b]` matrix with column `k` put back is `(e, k)`. -/
theorem lift_row_eq {a b : ℕ} (h : (⟨2, ![a, b]⟩ : Shape).Reduces [1] (⟨1, ![a]⟩ : Shape)) (e : Fin a) (k : Fin b) :
    h.lift (ix1 e) k = ix2 e k := by
  funext c; apply Fin.ext
  fin_cases c <;> rfl

/-- The host's sum of each row of an `[a, b]` matrix: at `e` the initial value plus the sum of the row's entries. -/
theorem hostReduceAdd_rows_apply {φ : FTy} {a b : ℕ} {u : Shape} (x : FVec Ideal ⟨2, ![a, b]⟩ φ) (init : u.Idx → Ideal φ)
    (h' : (⟨2, ![a, b]⟩ : Shape).ReducesTo [1] ⟨1, ![a]⟩) (hu : 0 < u.numel) (e : Fin a) :
    Host.reduceAdd x init h' hu (ix1 e) = init (Shape.Idx.first hu) + ∑ k : Fin b, x (ix2 e k) := by
  have h : (⟨2, ![a, b]⟩ : Shape).Reduces [1] ⟨1, ![a]⟩ := ⟨h'.1, Nat.one_pos, h'.2⟩
  rw [hostReduceAdd_apply, Ideal.hostReduceAdd_single h' h]
  show init (Shape.Idx.first hu) + ∑ k : Fin b, x (h.lift (ix1 e) k) = _
  exact congrArg (init (Shape.Idx.first hu) + ·) (Finset.sum_congr rfl fun k _ => congrArg x (lift_row_eq h e k))

end Cert.Lib.HostRowSum

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibRowNormalize.lean ====
/-
  NORMALISING EACH ROW OF A MATRIX BY ITS EUCLIDEAN LENGTH, read at an element, over arbitrary extents and at the ideal
  values (nothing here mentions a program).

  For a row r = (r_0, …, r_{C-1}) of extended reals and a floor eps, write
      den eps r  = max (sqrt (Σ_k r_k · r_k)) eps        and        unit eps r q = r_q / den eps r .
  Two spellings of "divide every row of a matrix by its length, the length kept at least eps" are read here at an
  element (n, f), and both give unit eps (row n) f:

  * the host spelling: multiply the matrix by itself, sum over the second axis from the zero word, make the vector a
    column, take the root, take the maximum with a broadcast scalar eps, broadcast the column along the rows, divide;
  * the vector spelling, where the matrix is itself a product x0 ⊙ x1 of a matrix and a broadcast column: the same steps
    with a vector reduction, a cast of the vector to a column and vector broadcasts. Its row is k ↦ x0 (p, k) · x1 (p, 0).

  Each step is elementwise or a layout operation, so the proofs only walk the term: the quotient at (n, f) is the
  quotient of the elements; a column broadcast along the rows reads the column at (n, 0); a vector made a column reads the
  vector at n; the row sum at n is the initial value, zero, plus the sum of the row's entries.

  Also the small reads of a matrix scaled by a broadcast column, and of a scalar word splat to any shape.
-/
import proofs.«158156_j83751862272173_2_alg».proof.Proof.LibHostRowSum
import proofs.«158156_j83751862272173_2_alg».proof.Proof.LibEdgeReads
import proofs.«158156_j83751862272173_2_alg».proof.Proof.LibColumnReads
import proofs.«158156_j83751862272173_2_alg».proof.Proof.LibRowReads
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.RowNormalize

open Idealize.ShloMosaic Idealize.ShloMosaic.ValueIdx
open Cert.Lib.HostRowSum Cert.Lib.EdgeReads Cert.LibColumnReads Cert.LibRowReads

/-- The divisor of a row: its Euclidean length, kept at least `eps`. -/
def den {C : ℕ} (eps : EReal) (r : Fin C → EReal) : EReal := max (Ideal.sqrt (∑ k, r k * r k)) eps

/-- Entry `q` of a row divided by the row's divisor. -/
def unit {C : ℕ} (eps : EReal) (r : Fin C → EReal) (q : Fin C) : EReal := Ideal.div (r q) (den eps r)

/-! ## Small reads -/

/-- A matrix times a column broadcast along the rows (host spelling): at `(n, f)` the element times the column's entry
    of row `n`. -/
theorem host_scaled_apply {N C : ℕ} (X : FVec Ideal ⟨2, ![N, C]⟩ .f32) (D : FVec Ideal ⟨2, ![N, 1]⟩ .f32)
    (hb1 : (⟨2, ![N, 1]⟩ : Shape).BroadcastsInDim ⟨2, ![N, C]⟩ ![0, 1]) (n : Fin N) (f : Fin C) :
    mulf X (broadcastInDim ⟨2, ![N, C]⟩ ![0, 1] hb1 D) (ix2 n f) = X (ix2 n f) * D (ix2 n 0) := by
  show X (ix2 n f) * broadcastInDim (s := ⟨2, ![N, 1]⟩) ⟨2, ![N, C]⟩ ![0, 1] hb1 D (ix2 n f) = _
  rw [column_broadcast_apply]

/-- A matrix times a column broadcast along the rows (vector spelling): at `(p, q)` the element times the column's
    entry of row `p`. -/
theorem vector_scaled_apply {a b : ℕ} (x0 : FVec Ideal ⟨2, ![a, b]⟩ .f32) (x1 : FVec Ideal ⟨2, ![a, 1]⟩ .f32)
    (hbt : (⟨2, ![a, 1]⟩ : Shape).Broadcasts ⟨2, ![a, b]⟩) (p : Fin a) (q : Fin b) :
    mulf x0 (broadcastTo ⟨2, ![a, b]⟩ x1 hbt) (ix2 p q) = x0 (ix2 p q) * x1 (ix2 p 0) := by
  show x0 (ix2 p q) * broadcastTo ⟨2, ![a, b]⟩ x1 hbt (ix2 p q) = _
  rw [broadcastTo_a1_ab_apply]

/-- A scalar word splat to any shape by the host's broadcast reads the value of the word. -/
theorem host_splat_apply {S : Shape} (hb : (⟨0, ![]⟩ : Shape).BroadcastsInDim S ![]) (w : BitVec 32) (i : S.Idx) :
    broadcastInDim S ![] hb (constant (F := Ideal) ⟨0, ![]⟩ .f32 w) i = Ideal.ofBits .f32 w := by
  rw [broadcastInDim_scalar_apply]; rfl

/-- A scalar word splat to any shape by the vector broadcast reads the value of the word. -/
theorem vector_splat_apply {S : Shape} (w : BitVec 32) (i : S.Idx) :
    broadcast S (Scalar.ofBits (F := Ideal) .f32 w) i = Ideal.ofBits .f32 w := rfl

/-! ## The host spelling -/

/-- The host's row normalisation of a matrix `X` with floor word `epsb`. -/
def hostNormalize {N C : ℕ} (X : FVec Ideal ⟨2, ![N, C]⟩ .f32) (epsb : BitVec 32)
    (h' : (⟨2, ![N, C]⟩ : Shape).ReducesTo [1] ⟨1, ![N]⟩) (hu : 0 < (⟨0, ![]⟩ : Shape).numel)
    (hb0 : (⟨1, ![N]⟩ : Shape).BroadcastsInDim ⟨2, ![N, 1]⟩ ![0])
    (hbs : (⟨0, ![]⟩ : Shape).BroadcastsInDim ⟨2, ![N, 1]⟩ ![])
    (hb1 : (⟨2, ![N, 1]⟩ : Shape).BroadcastsInDim ⟨2, ![N, C]⟩ ![0, 1]) : FVec Ideal ⟨2, ![N, C]⟩ .f32 :=
  Host.divf X (broadcastInDim ⟨2, ![N, C]⟩ ![0, 1] hb1 (maximumf (Host.sqrt (broadcastInDim ⟨2, ![N, 1]⟩ ![0] hb0 (Host.reduceAdd (mulf X X) (constant (F := Ideal) ⟨0, ![]⟩ .f32 0x00000000#32) h' hu))) (broadcastInDim ⟨2, ![N, 1]⟩ ![] hbs (constant (F := Ideal) ⟨0, ![]⟩ .f32 epsb))))

/-- THE HOST'S ROW NORMALISATION READ AT `(n, f)`: entry `f` of row `n` divided by that row's length, the length kept
    at least the floor. -/
theorem hostNormalize_apply {N C : ℕ} (X : FVec Ideal ⟨2, ![N, C]⟩ .f32) (epsb : BitVec 32)
    (h' : (⟨2, ![N, C]⟩ : Shape).ReducesTo [1] ⟨1, ![N]⟩) (hu : 0 < (⟨0, ![]⟩ : Shape).numel)
    (hb0 : (⟨1, ![N]⟩ : Shape).BroadcastsInDim ⟨2, ![N, 1]⟩ ![0])
    (hbs : (⟨0, ![]⟩ : Shape).BroadcastsInDim ⟨2, ![N, 1]⟩ ![])
    (hb1 : (⟨2, ![N, 1]⟩ : Shape).BroadcastsInDim ⟨2, ![N, C]⟩ ![0, 1]) (n : Fin N) (f : Fin C) :
    hostNormalize X epsb h' hu hb0 hbs hb1 (ix2 n f)
      = unit (Ideal.ofBits .f32 epsb) (fun k => X (ix2 n k)) f := by
  unfold hostNormalize
  rw [hostDivf_apply, column_broadcast_apply]
  show Ideal.div (X (ix2 n f))
      (max (Ideal.sqrt (broadcastInDim (s := ⟨1, ![N]⟩) ⟨2, ![N, 1]⟩ ![0] hb0 _ (ix2 n (0 : Fin 1))))
        (broadcastInDim (s := ⟨0, ![]⟩) ⟨2, ![N, 1]⟩ ![] hbs _ (ix2 n (0 : Fin 1)))) = _
  rw [column_of_vector_apply, host_splat_apply, hostReduceAdd_rows_apply]
  show Ideal.div (X (ix2 n f)) (max (Ideal.sqrt (Ideal.ofBits .f32 0x00000000#32 + ∑ k : Fin C, X (ix2 n k) * X (ix2 n k)))
      (Ideal.ofBits .f32 epsb)) = _
  rw [Ideal.ofBits_zero_f32, zero_add]
  rfl

/-! ## The vector spelling -/

/-- THE VECTOR ROW NORMALISATION OF A MATRIX SCALED BY A COLUMN, READ AT `(p, q)`: the row is
    `k ↦ x0 (p, k) · x1 (p, 0)`, and the result is its entry `q` divided by its length, the length kept at least
    the floor. -/
theorem vectorNormalize_apply {a b : ℕ} (x0 : FVec Ideal ⟨2, ![a, b]⟩ .f32) (x1 : FVec Ideal ⟨2, ![a, 1]⟩ .f32)
    (epsb : BitVec 32) (hbt hbt' : (⟨2, ![a, 1]⟩ : Shape).Broadcasts ⟨2, ![a, b]⟩)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (q : Fin b) :
    divf (mulf x0 (broadcastTo ⟨2, ![a, b]⟩ x1 hbt)) (broadcastTo ⟨2, ![a, b]⟩ (maximumf (sqrt (shapeCast ⟨2, ![a, 1]⟩ (multiReduction .add [1] ⟨1, ![a]⟩ (mulf (mulf x0 (broadcastTo ⟨2, ![a, b]⟩ x1 hbt)) (mulf x0 (broadcastTo ⟨2, ![a, b]⟩ x1 hbt))) 0x00000000#32 hr hφ hacc) hc)) (broadcast ⟨2, ![a, 1]⟩ (Scalar.ofBits .f32 epsb))) hbt') (ix2 p q)
      = unit (Ideal.ofBits .f32 epsb) (fun k => x0 (ix2 p k) * x1 (ix2 p 0)) q := by
  show Ideal.div (mulf x0 (broadcastTo ⟨2, ![a, b]⟩ x1 hbt) (ix2 p q))
      (broadcastTo (s := ⟨2, ![a, 1]⟩) ⟨2, ![a, b]⟩ _ hbt' (ix2 p q)) = _
  rw [broadcastTo_a1_ab_apply, vector_scaled_apply]
  show Ideal.div (x0 (ix2 p q) * x1 (ix2 p 0))
      (max (Ideal.sqrt (shapeCast (s := ⟨1, ![a]⟩) ⟨2, ![a, 1]⟩ _ hc (ix2 p (0 : Fin 1)))) (Ideal.ofBits .f32 epsb)) = _
  rw [shapeCast_a_a1_apply, rowSum_apply]
  have hs : ∀ k : Fin b, mulf (mulf x0 (broadcastTo ⟨2, ![a, b]⟩ x1 hbt)) (mulf x0 (broadcastTo ⟨2, ![a, b]⟩ x1 hbt)) (ix2 p k)
      = x0 (ix2 p k) * x1 (ix2 p 0) * (x0 (ix2 p k) * x1 (ix2 p 0)) := fun k => by
    show mulf x0 (broadcastTo ⟨2, ![a, b]⟩ x1 hbt) (ix2 p k) * mulf x0 (broadcastTo ⟨2, ![a, b]⟩ x1 hbt) (ix2 p k) = _
    rw [vector_scaled_apply]
  rw [Finset.sum_congr rfl fun k _ => hs k]
  rfl

end Cert.Lib.RowNormalize

end
-- ==== Proof.KernelSpec.lean ====
/-
  The idealized kernel's arrangement of the computation, as functions of the argument arrays.

  Degrees are counted by a scatter-add of ones; a node's factor is its degree to the power −1/2 where the degree is
  positive and zero elsewhere. The node tables are scaled by the factors once; then, three times, each side gathers the
  other side's scaled rows along the edges and sums them onto its own nodes, scales the sums by its own factors, divides
  every row by the larger of its Euclidean length and a small floor, adds the unit rows times the layer's weight
  (1, 1/2, the float nearest 1/3) onto the running embeddings, and scales the unit rows by the factors for the next
  round. Three batches of rows of the final embeddings are gathered as results. Every step is written in the host's
  own operations, so that it can be compared with the reference program operation by operation.
-/
import proofs.«158156_j83751862272173_2_alg».proof.KernelIdeal
import proofs.«158156_j83751862272173_2_alg».proof.Proof.Gen.KernelIdeal
import proofs.«158156_j83751862272173_2_alg».proof.Proof.LibRowNormalize

noncomputable section

namespace Cert.KernelIdeal.Spec

open Cert.KernelIdeal Cert.KernelIdeal.Gen Idealize.ShloMosaic Cert.Lib.RowNormalize

/-- The side conditions of the layout operations used below (a row reduction, a vector made a column, a column and a
    scalar broadcast), for both node tables. -/
structure Side : Prop where
  hu : 0 < S_.numel
  rU : S200000x64.ReducesTo [1] S200000
  b0U : S200000.BroadcastsInDim S200000x1 ![0]
  bsU : S_.BroadcastsInDim S200000x1 ![]
  b1U : S200000x1.BroadcastsInDim S200000x64 ![0, 1]
  bcU : S_.BroadcastsInDim S200000x64 ![]
  rI : S100000x64.ReducesTo [1] S100000
  b0I : S100000.BroadcastsInDim S100000x1 ![0]
  bsI : S_.BroadcastsInDim S100000x1 ![]
  b1I : S100000x1.BroadcastsInDim S100000x64 ![0, 1]
  bcI : S_.BroadcastsInDim S100000x64 ![]

/-- The seven argument arrays. -/
structure Args where
  a0 : FVec Ideal S200000x64 .f32
  a1 : FVec Ideal S100000x64 .f32
  a2 : IVec S2000000 32
  a3 : IVec S2000000 32
  a4 : IVec S8192 32
  a5 : IVec S8192 32
  a6 : IVec S8192 32

/-- An edge index vector as a column, as the scatters take it. -/
def rawCol (a : IVec S2000000 32) : IVec S2000000x1 32 := broadcastInDim S2000000x1 ![0] bcast_S2000000_S2000000x1_0 a

/-- An edge index vector with the extent added where negative, as a column, as the gathers take it. -/
def wrapCol (n : BitVec 32) (a : IVec S2000000 32) : IVec S2000000x1 32 :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 n))) a)

/-- The same for a batch of 8192 node indices. -/
def wrapColB (n : BitVec 32) (a : IVec S8192 32) : IVec S8192x1 32 :=
  broadcastInDim S8192x1 ![0] bcast_S8192_S8192x1_0
    (select (cmpi .slt a (broadcastInDim S8192 ![] bcast_S_S8192 (constantI S_ 32 0#32)))
      (addi a (broadcastInDim S8192 ![] bcast_S_S8192 (constantI S_ 32 n))) a)

/-- One per edge. -/
def onesE : FVec Ideal S2000000 .f32 := broadcastInDim S2000000 ![] bcast_S_S2000000 (constant (F := Ideal) S_ .f32 0x3F800000#32)

/-- The degrees: ones summed onto the nodes the edges name. -/
def degU (a2 : IVec S2000000 32) : FVec Ideal S200000 .f32 :=
  Host.scatterAdd (F := Ideal) (φ := .f32) scatter_S200000_S2000000x1_S2000000_n_0_0_1
    (broadcastInDim S200000 ![] bcast_S_S200000 (constant (F := Ideal) S_ .f32 0x00000000#32)) (rawCol a2) onesE
def degI (a3 : IVec S2000000 32) : FVec Ideal S100000 .f32 :=
  Host.scatterAdd (F := Ideal) (φ := .f32) scatter_S100000_S2000000x1_S2000000_n_0_0_1
    (broadcastInDim S100000 ![] bcast_S_S100000 (constant (F := Ideal) S_ .f32 0x00000000#32)) (rawCol a3) onesE

/-- The factor columns: degree to the power −1/2 where the degree is positive, zero elsewhere. -/
def facU (a2 : IVec S2000000 32) : FVec Ideal S200000x1 .f32 :=
  shapeCast S200000x1 (select (cmpf .ogt (degU a2) (broadcastInDim S200000 ![] bcast_S_S200000 (constant (F := Ideal) S_ .f32 0x00000000#32)))
    (Host.powf (F := Ideal) (φ := .f32) (degU a2) (broadcastInDim S200000 ![] bcast_S_S200000 (constant (F := Ideal) S_ .f32 0xBF000000#32)))
    (broadcastInDim S200000 ![] bcast_S_S200000 (constant (F := Ideal) S_ .f32 0x00000000#32))) shapeCasts_S200000_S200000x1
def facI (a3 : IVec S2000000 32) : FVec Ideal S100000x1 .f32 :=
  shapeCast S100000x1 (select (cmpf .ogt (degI a3) (broadcastInDim S100000 ![] bcast_S_S100000 (constant (F := Ideal) S_ .f32 0x00000000#32)))
    (Host.powf (F := Ideal) (φ := .f32) (degI a3) (broadcastInDim S100000 ![] bcast_S_S100000 (constant (F := Ideal) S_ .f32 0xBF000000#32)))
    (broadcastInDim S100000 ![] bcast_S_S100000 (constant (F := Ideal) S_ .f32 0x00000000#32))) shapeCasts_S100000_S100000x1

variable (sd : Side)

/-- A table with each row multiplied by its node's factor. -/
def scaleU (X : FVec Ideal S200000x64 .f32) (D : FVec Ideal S200000x1 .f32) : FVec Ideal S200000x64 .f32 :=
  mulf (F := Ideal) (φ := .f32) X (broadcastInDim S200000x64 ![0, 1] sd.b1U D)
def scaleI (X : FVec Ideal S100000x64 .f32) (D : FVec Ideal S100000x1 .f32) : FVec Ideal S100000x64 .f32 :=
  mulf (F := Ideal) (φ := .f32) X (broadcastInDim S100000x64 ![0, 1] sd.b1I D)

/-- The unit rows: the scaled sums, each row divided by the larger of its length and the floor. -/
def unitU (RAW : FVec Ideal S200000x64 .f32) (D : FVec Ideal S200000x1 .f32) : FVec Ideal S200000x64 .f32 :=
  hostNormalize (scaleU sd RAW D) 0x2B8CBCCC#32 sd.rU sd.hu sd.b0U sd.bsU sd.b1U
def unitI (RAW : FVec Ideal S100000x64 .f32) (D : FVec Ideal S100000x1 .f32) : FVec Ideal S100000x64 .f32 :=
  hostNormalize (scaleI sd RAW D) 0x2B8CBCCC#32 sd.rI sd.hu sd.b0I sd.bsI sd.b1I

/-- The running embedding plus the unit rows times the layer's weight. -/
def accU (s : BitVec 32) (RAW : FVec Ideal S200000x64 .f32) (D : FVec Ideal S200000x1 .f32) (ACC : FVec Ideal S200000x64 .f32) :
    FVec Ideal S200000x64 .f32 :=
  addf (F := Ideal) (φ := .f32) ACC (mulf (F := Ideal) (φ := .f32) (unitU sd RAW D)
    (broadcastInDim S200000x64 ![] sd.bcU (constant (F := Ideal) S_ .f32 s)))
def accI (s : BitVec 32) (RAW : FVec Ideal S100000x64 .f32) (D : FVec Ideal S100000x1 .f32) (ACC : FVec Ideal S100000x64 .f32) :
    FVec Ideal S100000x64 .f32 :=
  addf (F := Ideal) (φ := .f32) ACC (mulf (F := Ideal) (φ := .f32) (unitI sd RAW D)
    (broadcastInDim S100000x64 ![] sd.bcI (constant (F := Ideal) S_ .f32 s)))

/-- The unit rows scaled by the factors, for the next round's gather. -/
def nextU (RAW : FVec Ideal S200000x64 .f32) (D : FVec Ideal S200000x1 .f32) : FVec Ideal S200000x64 .f32 :=
  scaleU sd (unitU sd RAW D) D
def nextI (RAW : FVec Ideal S100000x64 .f32) (D : FVec Ideal S100000x1 .f32) : FVec Ideal S100000x64 .f32 :=
  scaleI sd (unitI sd RAW D) D

/-- Neighbour sums onto the users: the item rows the edges name, summed onto the users the edges name. -/
def aggU (SRC : FVec Ideal S100000x64 .f32) (a2 a3 : IVec S2000000 32) : FVec Ideal S200000x64 .f32 :=
  Host.scatterAdd (F := Ideal) (φ := .f32) scatter_S200000x64_S2000000x1_S2000000x64_1_0_0_1
    (broadcastInDim S200000x64 ![] bcast_S_S200000x64 (constant (F := Ideal) S_ .f32 0x00000000#32)) (rawCol a2)
    (Host.gather gather_S100000x64_S2000000x1_S2000000x64_1_0_n_n_0_1_164 SRC (wrapCol 100000#32 a3))
/-- Neighbour sums onto the items. -/
def aggI (SRC : FVec Ideal S200000x64 .f32) (a2 a3 : IVec S2000000 32) : FVec Ideal S100000x64 .f32 :=
  Host.scatterAdd (F := Ideal) (φ := .f32) scatter_S100000x64_S2000000x1_S2000000x64_1_0_0_1
    (broadcastInDim S100000x64 ![] bcast_S_S100000x64 (constant (F := Ideal) S_ .f32 0x00000000#32)) (rawCol a3)
    (Host.gather gather_S200000x64_S2000000x1_S2000000x64_1_0_n_n_0_1_164 SRC (wrapCol 200000#32 a2))

variable (A : Args)

/-! The rounds. `us k`, `is k`: the scaled tables going into round `k + 1`; `ru k`, `ri k`: round `k`'s raw sums;
    `ue k`, `ie k`: the running embeddings after round `k`. -/
def us0 := scaleU sd A.a0 (facU A.a2)
def is0 := scaleI sd A.a1 (facI A.a3)
def ru1 := aggU (is0 sd A) A.a2 A.a3
def ri1 := aggI (us0 sd A) A.a2 A.a3
def ue1 := accU sd 0x3F800000#32 (ru1 sd A) (facU A.a2) A.a0
def us1 := nextU sd (ru1 sd A) (facU A.a2)
def ie1 := accI sd 0x3F800000#32 (ri1 sd A) (facI A.a3) A.a1
def is1 := nextI sd (ri1 sd A) (facI A.a3)
def ru2 := aggU (is1 sd A) A.a2 A.a3
def ri2 := aggI (us1 sd A) A.a2 A.a3
def ue2 := accU sd 0x3F000000#32 (ru2 sd A) (facU A.a2) (ue1 sd A)
def us2 := nextU sd (ru2 sd A) (facU A.a2)
def ie2 := accI sd 0x3F000000#32 (ri2 sd A) (facI A.a3) (ie1 sd A)
def is2 := nextI sd (ri2 sd A) (facI A.a3)
def ru3 := aggU (is2 sd A) A.a2 A.a3
def ri3 := aggI (us2 sd A) A.a2 A.a3
def ue3 := accU sd 0x3EAAAAAB#32 (ru3 sd A) (facU A.a2) (ue2 sd A)
def ie3 := accI sd 0x3EAAAAAB#32 (ri3 sd A) (facI A.a3) (ie2 sd A)

/-- The three results: rows of the final embeddings. -/
def out0 : FVec Ideal S8192x64 .f32 := Host.gather gather_S200000x64_S8192x1_S8192x64_1_0_n_n_0_1_164 (ue3 sd A) (wrapColB 200000#32 A.a4)
def out1 : FVec Ideal S8192x64 .f32 := Host.gather gather_S100000x64_S8192x1_S8192x64_1_0_n_n_0_1_164 (ie3 sd A) (wrapColB 100000#32 A.a5)
def out2 : FVec Ideal S8192x64 .f32 := Host.gather gather_S100000x64_S8192x1_S8192x64_1_0_n_n_0_1_164 (ie3 sd A) (wrapColB 100000#32 A.a6)

end Cert.KernelIdeal.Spec

end
-- ==== Proof.LibTypedRefs.lean ====
/-
  Transport along a typed reference's type equation, removed.

  A typed reference carries an equation "the buffer's type is T", and a value at type T is moved to the buffer's own
  type, and back, along that equation. Whatever the equation's proof, the two transports undo each other; and a
  transported value equals any value it is heterogeneously equal to, so once the reference is a literal whose type
  computes to T the transport can be dropped on both the reading and the writing side. Proved for an arbitrary typed
  reference by replacing T with the buffer's type.
-/
import Idealize.ShloMosaic.Lib.StableHlo

namespace Cert.Lib.TypedRefs

open Idealize.ShloMosaic Idealize.ShloMosaic.StableHlo

variable {sig : RefSig} {Val : EltTy → Type} {T : BufTy}

/-- Moving a value to the buffer's type and back gives the value. -/
theorem ofBuf_toBuf (x : TRef sig T) (v : T.Contents Val) : x.ofBuf (x.toBuf v) = v := by
  obtain ⟨r, e, hd, hu⟩ := x
  subst e
  rfl

/-- Buffer contents read at the value's type are any value they are heterogeneously equal to. -/
theorem ofBuf_eq (x : TRef sig T) (w : x.ref.ty.Contents Val) (v : T.Contents Val) (h : HEq w v) : x.ofBuf w = v := by
  obtain ⟨r, e, hd, hu⟩ := x
  subst e
  exact eq_of_heq h

/-- A value moved to the buffer's type is any buffer contents it is heterogeneously equal to. -/
theorem toBuf_eq (x : TRef sig T) (v : T.Contents Val) (w : x.ref.ty.Contents Val) (h : HEq v w) : x.toBuf v = w := by
  obtain ⟨r, e, hd, hu⟩ := x
  subst e
  exact eq_of_heq h

end Cert.Lib.TypedRefs
-- ==== Proof.ChainFront.lean ====
/-
  The host operations before the first launch: the degrees and the factor columns.

  Over any buffer contents `W`: the first stretch counts the degrees (a scatter-add of ones along each edge index
  vector), compares the user degrees with zero and raises them to the power −1/2; the outlined select keeps the power
  where the comparison holds and zero elsewhere; a reshape makes the result a column. The same three steps follow for
  the item degrees. Composed over the launch memory they leave the two factor columns of the specification, and leave
  the arguments alone.
-/
import proofs.«158156_j83751862272173_2_alg».proof.Proof.Gen.KernelIdeal.Frame
import proofs.«158156_j83751862272173_2_alg».proof.Proof.KernelSpec
import proofs.«158156_j83751862272173_2_alg».proof.Proof.LibTypedRefs
import Idealize.ShloMosaic.Lib.StableHlo.Run
import Idealize.ShloMosaic.PureOps.Ideal

set_option maxRecDepth 16384

noncomputable section

namespace Cert.KernelIdeal.Front

open Cert.KernelIdeal Cert.KernelIdeal.Gen Idealize.ShloMosaic Idealize.ShloMosaic.TcCoe Idealize.SL.Sem Idealize.ShloMosaic.StableHlo
open Cert.Lib.TypedRefs

/-- The seven arguments of core `c` in the launch memory. -/
def argsOf (m : (ℓ : Loc nD τ sig) → Buf (Elt Ideal) ℓ) (c : Dev nD) : Spec.Args :=
  ⟨m ((c : Thread nD τ).loc main_arg0), m ((c : Thread nD τ).loc main_arg1), m ((c : Thread nD τ).loc main_arg2), m ((c : Thread nD τ).loc main_arg3),
   m ((c : Thread nD τ).loc main_arg4), m ((c : Thread nD τ).loc main_arg5), m ((c : Thread nD τ).loc main_arg6)⟩

variable (W : Valuation τ sig (Elt Ideal))

/-! ## The first stretch: degrees, comparison, power -/

set_option maxHeartbeats 2000000 in
theorem cmpU : StableHlo.after hostOps0 W (Proc.devRef .tc main_v8)
    = cmpf .ogt (Spec.degU (W (Proc.devRef .tc main_arg2))) (broadcastInDim S200000 ![] bcast_S_S200000 (constant (F := Ideal) S_ .f32 0x00000000#32)) := by
  simp only [hostOps0]
  after_results_simp
  try rfl
set_option maxHeartbeats 2000000 in
theorem powU : StableHlo.after hostOps0 W (Proc.devRef .tc main_v10)
    = Host.powf (F := Ideal) (φ := .f32) (Spec.degU (W (Proc.devRef .tc main_arg2))) (broadcastInDim S200000 ![] bcast_S_S200000 (constant (F := Ideal) S_ .f32 0xBF000000#32)) := by
  simp only [hostOps0]
  after_results_simp
  try rfl
set_option maxHeartbeats 2000000 in
theorem zeroU : StableHlo.after hostOps0 W (Proc.devRef .tc main_cst_4) = constant (F := Ideal) S_ .f32 0x00000000#32 := by
  simp only [hostOps0]
  after_results_simp
  try rfl
set_option maxHeartbeats 2000000 in
theorem degI0 : StableHlo.after hostOps0 W (Proc.devRef .tc main_v6) = Spec.degI (W (Proc.devRef .tc main_arg3)) := by
  simp only [hostOps0]
  after_results_simp
  try rfl

/-! ## The outlined selects -/

/-- The users' select, over any contents of the guard's, the power's and the zero's buffers. -/
theorem whereU : StableHlo.after hostOps0_1 W (Proc.devRef .tc main_v11)
    = select (W (Proc.devRef .tc main_v8) : IVec S200000 1) (W (Proc.devRef .tc main_v10) : FVec Ideal S200000 .f32)
        (broadcastInDim S200000 ![] bcast_S_S200000 (W (Proc.devRef .tc main_cst_4) : FVec Ideal S_ .f32)) := by
  simp only [hostOps0_1]
  after_results
  simp only [ofBuf_toBuf]
  refine toBuf_eq _ _ _ ?_
  rw [ofBuf_eq (T := ⟨S200000, .i1⟩) (TRef.of main_v8 _ _ _) (W (Proc.devRef .tc main_v8)) (W (Proc.devRef .tc main_v8)) HEq.rfl,
    ofBuf_eq (T := ⟨S200000, .f32⟩) (TRef.of main_v10 _ _ _) (W (Proc.devRef .tc main_v10)) (W (Proc.devRef .tc main_v10)) HEq.rfl,
    ofBuf_eq (T := ⟨S_, .f32⟩) (TRef.of main_cst_4 _ _ _) (W (Proc.devRef .tc main_cst_4)) (W (Proc.devRef .tc main_cst_4)) HEq.rfl]
  exact HEq.rfl

/-- The items' select. -/
theorem whereI : StableHlo.after hostOps0_3 W (Proc.devRef .tc main_v17)
    = select (W (Proc.devRef .tc main_v14) : IVec S100000 1) (W (Proc.devRef .tc main_v16) : FVec Ideal S100000 .f32)
        (broadcastInDim S100000 ![] bcast_S_S100000 (W (Proc.devRef .tc main_cst_7) : FVec Ideal S_ .f32)) := by
  simp only [hostOps0_3]
  after_results
  simp only [ofBuf_toBuf]
  refine toBuf_eq _ _ _ ?_
  rw [ofBuf_eq (T := ⟨S100000, .i1⟩) (TRef.of main_v14 _ _ _) (W (Proc.devRef .tc main_v14)) (W (Proc.devRef .tc main_v14)) HEq.rfl,
    ofBuf_eq (T := ⟨S100000, .f32⟩) (TRef.of main_v16 _ _ _) (W (Proc.devRef .tc main_v16)) (W (Proc.devRef .tc main_v16)) HEq.rfl,
    ofBuf_eq (T := ⟨S_, .f32⟩) (TRef.of main_cst_7 _ _ _) (W (Proc.devRef .tc main_cst_7)) (W (Proc.devRef .tc main_cst_7)) HEq.rfl]
  exact HEq.rfl

/-! ## The third stretch: the users' column, and the items' comparison and power -/

theorem colU : StableHlo.after hostOps0_2 W (Proc.devRef .tc main_v12)
    = shapeCast S200000x1 (W (Proc.devRef .tc main_v11) : FVec Ideal S200000 .f32) shapeCasts_S200000_S200000x1 := by
  simp only [hostOps0_2]
  after_results
  rfl
set_option maxHeartbeats 2000000 in
theorem cmpI : StableHlo.after hostOps0_2 W (Proc.devRef .tc main_v14)
    = cmpf .ogt (W (Proc.devRef .tc main_v6) : FVec Ideal S100000 .f32) (broadcastInDim S100000 ![] bcast_S_S100000 (constant (F := Ideal) S_ .f32 0x00000000#32)) := by
  simp only [hostOps0_2]
  after_results_simp
  try rfl
set_option maxHeartbeats 2000000 in
theorem powI : StableHlo.after hostOps0_2 W (Proc.devRef .tc main_v16)
    = Host.powf (F := Ideal) (φ := .f32) (W (Proc.devRef .tc main_v6) : FVec Ideal S100000 .f32) (broadcastInDim S100000 ![] bcast_S_S100000 (constant (F := Ideal) S_ .f32 0xBF000000#32)) := by
  simp only [hostOps0_2]
  after_results_simp
  try rfl
set_option maxHeartbeats 2000000 in
theorem zeroI : StableHlo.after hostOps0_2 W (Proc.devRef .tc main_cst_7) = constant (F := Ideal) S_ .f32 0x00000000#32 := by
  simp only [hostOps0_2]
  after_results_simp
  try rfl

theorem colI : StableHlo.after hostOps0_4 W (Proc.devRef .tc main_v18)
    = shapeCast S100000x1 (W (Proc.devRef .tc main_v17) : FVec Ideal S100000 .f32) shapeCasts_S100000_S100000x1 := by
  simp only [hostOps0_4]
  after_results
  rfl

/-! ## What the later stretches leave alone -/

theorem keep1_v6 : StableHlo.after hostOps0_1 W (Proc.devRef .tc main_v6) = W (Proc.devRef .tc main_v6) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v12 : StableHlo.after hostOps0_3 W (Proc.devRef .tc main_v12) = W (Proc.devRef .tc main_v12) :=
  StableHlo.after_of_forall_not_mem _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_v12 : StableHlo.after hostOps0_4 W (Proc.devRef .tc main_v12) = W (Proc.devRef .tc main_v12) :=
  StableHlo.after_of_forall_not_mem _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Composed over the launch memory -/

variable (m : (ℓ : Loc nD τ sig) → Buf (Elt Ideal) ℓ) (ρ : Dev nD → PrngReg)

/-- The users' factor column at the first launch. -/
theorem w5_v12 (c : Dev nD) : W5 m ρ c (Proc.devRef .tc main_v12) = Spec.facU (argsOf m c).a2 := by
  show StableHlo.after hostOps0_4 (StableHlo.after hostOps0_3 (StableHlo.after hostOps0_2 (StableHlo.after hostOps0_1 (StableHlo.after hostOps0 (W0 m ρ c))))) (Proc.devRef .tc main_v12) = _
  rw [keep4_v12, keep3_v12, colU, whereU, cmpU, powU, zeroU]
  rfl

/-- The items' factor column at the first launch. -/
theorem w5_v18 (c : Dev nD) : W5 m ρ c (Proc.devRef .tc main_v18) = Spec.facI (argsOf m c).a3 := by
  show StableHlo.after hostOps0_4 (StableHlo.after hostOps0_3 (StableHlo.after hostOps0_2 (StableHlo.after hostOps0_1 (StableHlo.after hostOps0 (W0 m ρ c))))) (Proc.devRef .tc main_v18) = _
  rw [colI, whereI, cmpI, powI, zeroI, keep1_v6, degI0]
  rfl

set_option maxHeartbeats 2000000 in
theorem w5_arg0 (c : Dev nD) : W5 m ρ c (Proc.devRef .tc main_arg0) = (argsOf m c).a0 := by
  show StableHlo.after hostOps0_4 (StableHlo.after hostOps0_3 (StableHlo.after hostOps0_2 (StableHlo.after hostOps0_1 (StableHlo.after hostOps0 (W0 m ρ c))))) (Proc.devRef .tc main_arg0) = _
  simp only [hostOps0, hostOps0_1, hostOps0_2, hostOps0_3, hostOps0_4]
  after_results_simp
  try rfl
set_option maxHeartbeats 2000000 in
theorem w5_arg1 (c : Dev nD) : W5 m ρ c (Proc.devRef .tc main_arg1) = (argsOf m c).a1 := by
  show StableHlo.after hostOps0_4 (StableHlo.after hostOps0_3 (StableHlo.after hostOps0_2 (StableHlo.after hostOps0_1 (StableHlo.after hostOps0 (W0 m ρ c))))) (Proc.devRef .tc main_arg1) = _
  simp only [hostOps0, hostOps0_1, hostOps0_2, hostOps0_3, hostOps0_4]
  after_results_simp
  try rfl
set_option maxHeartbeats 2000000 in
theorem w5_arg2 (c : Dev nD) : W5 m ρ c (Proc.devRef .tc main_arg2) = (argsOf m c).a2 := by
  show StableHlo.after hostOps0_4 (StableHlo.after hostOps0_3 (StableHlo.after hostOps0_2 (StableHlo.after hostOps0_1 (StableHlo.after hostOps0 (W0 m ρ c))))) (Proc.devRef .tc main_arg2) = _
  simp only [hostOps0, hostOps0_1, hostOps0_2, hostOps0_3, hostOps0_4]
  after_results_simp
  try rfl
set_option maxHeartbeats 2000000 in
theorem w5_arg3 (c : Dev nD) : W5 m ρ c (Proc.devRef .tc main_arg3) = (argsOf m c).a3 := by
  show StableHlo.after hostOps0_4 (StableHlo.after hostOps0_3 (StableHlo.after hostOps0_2 (StableHlo.after hostOps0_1 (StableHlo.after hostOps0 (W0 m ρ c))))) (Proc.devRef .tc main_arg3) = _
  simp only [hostOps0, hostOps0_1, hostOps0_2, hostOps0_3, hostOps0_4]
  after_results_simp
  try rfl

end Cert.KernelIdeal.Front

end
-- ==== Proof.ChainCarry.lean ====
/-
  Buffers that a stretch of the program leaves alone.

  The contents of the buffers at the boundaries between the program's segments are a fold over the launch memory. A
  stretch of host operations changes only the buffers its operations write; a launch changes only its output arrays (an
  input array is read through its windows and ends as it was). So a buffer that none of the segments between two
  boundaries writes has the same contents at both: one step per segment, below, for each buffer and pair of boundaries
  the value proof needs.
-/
import proofs.«158156_j83751862272173_2_alg».proof.Proof.Gen.KernelIdeal.Frame
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- `main_arg0` holds at boundary 8 what it held at boundary 5. -/
theorem arg0_5_8 (c : Dev nD) : W8 m ρ c (Proc.devRef .tc main_arg0) = W5 m ρ c (Proc.devRef .tc main_arg0) :=
  calc W8 m ρ c (Proc.devRef .tc main_arg0)
    _ = W7 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := W7_of_ne m ρ c main_arg0 (by decide)
    _ = W5 m ρ c (Proc.devRef .tc main_arg0) := (W6_arr m ρ c 0).trans (((dat0 (V5 m ρ) c).arrAt_in 0 rfl _).trans (A_eq0 (V5 m ρ) c 0))

/-- `main_arg1` holds at boundary 6 what it held at boundary 5. -/
theorem arg1_5_6 (c : Dev nD) : W6 m ρ c (Proc.devRef .tc main_arg1) = W5 m ρ c (Proc.devRef .tc main_arg1) :=
  calc W6 m ρ c (Proc.devRef .tc main_arg1)
    _ = W5 m ρ c (Proc.devRef .tc main_arg1) := W6_of_ne m ρ c main_arg1 (by decide)

/-- `main_arg1` holds at boundary 9 what it held at boundary 5. -/
theorem arg1_5_9 (c : Dev nD) : W9 m ρ c (Proc.devRef .tc main_arg1) = W5 m ρ c (Proc.devRef .tc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := (W7_arr m ρ c 0).trans (((dat1 (V6 m ρ) c).arrAt_in 0 rfl _).trans (A_eq1 (V6 m ρ) c 0))
    _ = W5 m ρ c (Proc.devRef .tc main_arg1) := W6_of_ne m ρ c main_arg1 (by decide)

/-- `main_arg2` holds at boundary 7 what it held at boundary 5. -/
theorem arg2_5_7 (c : Dev nD) : W7 m ρ c (Proc.devRef .tc main_arg2) = W5 m ρ c (Proc.devRef .tc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)

/-- `main_arg2` holds at boundary 10 what it held at boundary 5. -/
theorem arg2_5_10 (c : Dev nD) : W10 m ρ c (Proc.devRef .tc main_arg2) = W5 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)

/-- `main_arg2` holds at boundary 13 what it held at boundary 5. -/
theorem arg2_5_13 (c : Dev nD) : W13 m ρ c (Proc.devRef .tc main_arg2) = W5 m ρ c (Proc.devRef .tc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)

/-- `main_arg3` holds at boundary 7 what it held at boundary 5. -/
theorem arg3_5_7 (c : Dev nD) : W7 m ρ c (Proc.devRef .tc main_arg3) = W5 m ρ c (Proc.devRef .tc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)

/-- `main_arg3` holds at boundary 10 what it held at boundary 5. -/
theorem arg3_5_10 (c : Dev nD) : W10 m ρ c (Proc.devRef .tc main_arg3) = W5 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := W7_of_ne m ρ c main_arg3 (by decide)
    _ = W5 m ρ c (Proc.devRef .tc main_arg3) := W6_of_ne m ρ c main_arg3 (by decide)

/-- `main_arg3` holds at boundary 13 what it held at boundary 5. -/
theorem arg3_5_13 (c : Dev nD) : W13 m ρ c (Proc.devRef .tc main_arg3) = W5 m ρ c (Proc.devRef .tc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := W7_of_ne m ρ c main_arg3 (by decide)
    _ = W5 m ρ c (Proc.devRef .tc main_arg3) := W6_of_ne m ρ c main_arg3 (by decide)

/-- `main_v12` holds at boundary 8 what it held at boundary 5. -/
theorem v12_5_8 (c : Dev nD) : W8 m ρ c (Proc.devRef .tc main_v12) = W5 m ρ c (Proc.devRef .tc main_v12) :=
  calc W8 m ρ c (Proc.devRef .tc main_v12)
    _ = W7 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v12) := W7_of_ne m ρ c main_v12 (by decide)
    _ = W5 m ρ c (Proc.devRef .tc main_v12) := (W6_arr m ρ c 1).trans (((dat0 (V5 m ρ) c).arrAt_in 1 rfl _).trans (A_eq0 (V5 m ρ) c 1))

/-- `main_v12` holds at boundary 11 what it held at boundary 5. -/
theorem v12_5_11 (c : Dev nD) : W11 m ρ c (Proc.devRef .tc main_v12) = W5 m ρ c (Proc.devRef .tc main_v12) :=
  calc W11 m ρ c (Proc.devRef .tc main_v12)
    _ = W10 m ρ c (Proc.devRef .tc main_v12) := StableHlo.after_of_forall_not_mem (b := Proc.devRef .tc main_v12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v12) := W10_of_ne m ρ c main_v12 (by decide)
    _ = W8 m ρ c (Proc.devRef .tc main_v12) := (W9_arr m ρ c 1).trans (((dat2 (V8 m ρ) c).arrAt_in 1 rfl _).trans (A_eq2 (V8 m ρ) c 1))
    _ = W7 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v12) := W7_of_ne m ρ c main_v12 (by decide)
    _ = W5 m ρ c (Proc.devRef .tc main_v12) := (W6_arr m ρ c 1).trans (((dat0 (V5 m ρ) c).arrAt_in 1 rfl _).trans (A_eq0 (V5 m ρ) c 1))

/-- `main_v12` holds at boundary 14 what it held at boundary 5. -/
theorem v12_5_14 (c : Dev nD) : W14 m ρ c (Proc.devRef .tc main_v12) = W5 m ρ c (Proc.devRef .tc main_v12) :=
  calc W14 m ρ c (Proc.devRef .tc main_v12)
    _ = W13 m ρ c (Proc.devRef .tc main_v12) := StableHlo.after_of_forall_not_mem (b := Proc.devRef .tc main_v12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v12) := W13_of_ne m ρ c main_v12 (by decide)
    _ = W11 m ρ c (Proc.devRef .tc main_v12) := (W12_arr m ρ c 1).trans (((dat4 (V11 m ρ) c).arrAt_in 1 rfl _).trans (A_eq4 (V11 m ρ) c 1))
    _ = W10 m ρ c (Proc.devRef .tc main_v12) := StableHlo.after_of_forall_not_mem (b := Proc.devRef .tc main_v12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v12) := W10_of_ne m ρ c main_v12 (by decide)
    _ = W8 m ρ c (Proc.devRef .tc main_v12) := (W9_arr m ρ c 1).trans (((dat2 (V8 m ρ) c).arrAt_in 1 rfl _).trans (A_eq2 (V8 m ρ) c 1))
    _ = W7 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v12) := W7_of_ne m ρ c main_v12 (by decide)
    _ = W5 m ρ c (Proc.devRef .tc main_v12) := (W6_arr m ρ c 1).trans (((dat0 (V5 m ρ) c).arrAt_in 1 rfl _).trans (A_eq0 (V5 m ρ) c 1))

/-- `main_v18` holds at boundary 6 what it held at boundary 5. -/
theorem v18_5_6 (c : Dev nD) : W6 m ρ c (Proc.devRef .tc main_v18) = W5 m ρ c (Proc.devRef .tc main_v18) :=
  calc W6 m ρ c (Proc.devRef .tc main_v18)
    _ = W5 m ρ c (Proc.devRef .tc main_v18) := W6_of_ne m ρ c main_v18 (by decide)

/-- `main_v18` holds at boundary 9 what it held at boundary 5. -/
theorem v18_5_9 (c : Dev nD) : W9 m ρ c (Proc.devRef .tc main_v18) = W5 m ρ c (Proc.devRef .tc main_v18) :=
  calc W9 m ρ c (Proc.devRef .tc main_v18)
    _ = W8 m ρ c (Proc.devRef .tc main_v18) := W9_of_ne m ρ c main_v18 (by decide)
    _ = W7 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v18) := (W7_arr m ρ c 1).trans (((dat1 (V6 m ρ) c).arrAt_in 1 rfl _).trans (A_eq1 (V6 m ρ) c 1))
    _ = W5 m ρ c (Proc.devRef .tc main_v18) := W6_of_ne m ρ c main_v18 (by decide)

/-- `main_v18` holds at boundary 12 what it held at boundary 5. -/
theorem v18_5_12 (c : Dev nD) : W12 m ρ c (Proc.devRef .tc main_v18) = W5 m ρ c (Proc.devRef .tc main_v18) :=
  calc W12 m ρ c (Proc.devRef .tc main_v18)
    _ = W11 m ρ c (Proc.devRef .tc main_v18) := W12_of_ne m ρ c main_v18 (by decide)
    _ = W10 m ρ c (Proc.devRef .tc main_v18) := StableHlo.after_of_forall_not_mem (b := Proc.devRef .tc main_v18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v18) := (W10_arr m ρ c 1).trans (((dat3 (V9 m ρ) c).arrAt_in 1 rfl _).trans (A_eq3 (V9 m ρ) c 1))
    _ = W8 m ρ c (Proc.devRef .tc main_v18) := W9_of_ne m ρ c main_v18 (by decide)
    _ = W7 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v18) := (W7_arr m ρ c 1).trans (((dat1 (V6 m ρ) c).arrAt_in 1 rfl _).trans (A_eq1 (V6 m ρ) c 1))
    _ = W5 m ρ c (Proc.devRef .tc main_v18) := W6_of_ne m ρ c main_v18 (by decide)

/-- `main_v18` holds at boundary 15 what it held at boundary 5. -/
theorem v18_5_15 (c : Dev nD) : W15 m ρ c (Proc.devRef .tc main_v18) = W5 m ρ c (Proc.devRef .tc main_v18) :=
  calc W15 m ρ c (Proc.devRef .tc main_v18)
    _ = W14 m ρ c (Proc.devRef .tc main_v18) := W15_of_ne m ρ c main_v18 (by decide)
    _ = W13 m ρ c (Proc.devRef .tc main_v18) := StableHlo.after_of_forall_not_mem (b := Proc.devRef .tc main_v18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v18) := (W13_arr m ρ c 1).trans (((dat5 (V12 m ρ) c).arrAt_in 1 rfl _).trans (A_eq5 (V12 m ρ) c 1))
    _ = W11 m ρ c (Proc.devRef .tc main_v18) := W12_of_ne m ρ c main_v18 (by decide)
    _ = W10 m ρ c (Proc.devRef .tc main_v18) := StableHlo.after_of_forall_not_mem (b := Proc.devRef .tc main_v18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v18) := (W10_arr m ρ c 1).trans (((dat3 (V9 m ρ) c).arrAt_in 1 rfl _).trans (A_eq3 (V9 m ρ) c 1))
    _ = W8 m ρ c (Proc.devRef .tc main_v18) := W9_of_ne m ρ c main_v18 (by decide)
    _ = W7 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v18) := (W7_arr m ρ c 1).trans (((dat1 (V6 m ρ) c).arrAt_in 1 rfl _).trans (A_eq1 (V6 m ρ) c 1))
    _ = W5 m ρ c (Proc.devRef .tc main_v18) := W6_of_ne m ρ c main_v18 (by decide)

/-- `main_v19` holds at boundary 7 what it held at boundary 6. -/
theorem v19_6_7 (c : Dev nD) : W7 m ρ c (Proc.devRef .tc main_v19) = W6 m ρ c (Proc.devRef .tc main_v19) :=
  calc W7 m ρ c (Proc.devRef .tc main_v19)
    _ = W6 m ρ c (Proc.devRef .tc main_v19) := W7_of_ne m ρ c main_v19 (by decide)

/-- `main_v40` holds at boundary 9 what it held at boundary 8. -/
theorem v40_8_9 (c : Dev nD) : W9 m ρ c (Proc.devRef .tc main_v40) = W8 m ρ c (Proc.devRef .tc main_v40) :=
  calc W9 m ρ c (Proc.devRef .tc main_v40)
    _ = W8 m ρ c (Proc.devRef .tc main_v40) := W9_of_ne m ρ c main_v40 (by decide)

/-- `main_v41_0` holds at boundary 11 what it held at boundary 9. -/
theorem v41_0_9_11 (c : Dev nD) : W11 m ρ c (Proc.devRef .tc main_v41_0) = W9 m ρ c (Proc.devRef .tc main_v41_0) :=
  calc W11 m ρ c (Proc.devRef .tc main_v41_0)
    _ = W10 m ρ c (Proc.devRef .tc main_v41_0) := StableHlo.after_of_forall_not_mem (b := Proc.devRef .tc main_v41_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v41_0) := W10_of_ne m ρ c main_v41_0 (by decide)

/-- `main_v41_1` holds at boundary 10 what it held at boundary 9. -/
theorem v41_1_9_10 (c : Dev nD) : W10 m ρ c (Proc.devRef .tc main_v41_1) = W9 m ρ c (Proc.devRef .tc main_v41_1) :=
  calc W10 m ρ c (Proc.devRef .tc main_v41_1)
    _ = W9 m ρ c (Proc.devRef .tc main_v41_1) := W10_of_ne m ρ c main_v41_1 (by decide)

/-- `main_v42_0` holds at boundary 12 what it held at boundary 10. -/
theorem v42_0_10_12 (c : Dev nD) : W12 m ρ c (Proc.devRef .tc main_v42_0) = W10 m ρ c (Proc.devRef .tc main_v42_0) :=
  calc W12 m ρ c (Proc.devRef .tc main_v42_0)
    _ = W11 m ρ c (Proc.devRef .tc main_v42_0) := W12_of_ne m ρ c main_v42_0 (by decide)
    _ = W10 m ρ c (Proc.devRef .tc main_v42_0) := StableHlo.after_of_forall_not_mem (b := Proc.devRef .tc main_v42_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v62` holds at boundary 12 what it held at boundary 11. -/
theorem v62_11_12 (c : Dev nD) : W12 m ρ c (Proc.devRef .tc main_v62) = W11 m ρ c (Proc.devRef .tc main_v62) :=
  calc W12 m ρ c (Proc.devRef .tc main_v62)
    _ = W11 m ρ c (Proc.devRef .tc main_v62) := W12_of_ne m ρ c main_v62 (by decide)

/-- `main_v63_0` holds at boundary 14 what it held at boundary 12. -/
theorem v63_0_12_14 (c : Dev nD) : W14 m ρ c (Proc.devRef .tc main_v63_0) = W12 m ρ c (Proc.devRef .tc main_v63_0) :=
  calc W14 m ρ c (Proc.devRef .tc main_v63_0)
    _ = W13 m ρ c (Proc.devRef .tc main_v63_0) := StableHlo.after_of_forall_not_mem (b := Proc.devRef .tc main_v63_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v63_0) := W13_of_ne m ρ c main_v63_0 (by decide)

/-- `main_v63_1` holds at boundary 13 what it held at boundary 12. -/
theorem v63_1_12_13 (c : Dev nD) : W13 m ρ c (Proc.devRef .tc main_v63_1) = W12 m ρ c (Proc.devRef .tc main_v63_1) :=
  calc W13 m ρ c (Proc.devRef .tc main_v63_1)
    _ = W12 m ρ c (Proc.devRef .tc main_v63_1) := W13_of_ne m ρ c main_v63_1 (by decide)

/-- `main_v64_0` holds at boundary 15 what it held at boundary 13. -/
theorem v64_0_13_15 (c : Dev nD) : W15 m ρ c (Proc.devRef .tc main_v64_0) = W13 m ρ c (Proc.devRef .tc main_v64_0) :=
  calc W15 m ρ c (Proc.devRef .tc main_v64_0)
    _ = W14 m ρ c (Proc.devRef .tc main_v64_0) := W15_of_ne m ρ c main_v64_0 (by decide)
    _ = W13 m ρ c (Proc.devRef .tc main_v64_0) := StableHlo.after_of_forall_not_mem (b := Proc.devRef .tc main_v64_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v84` holds at boundary 15 what it held at boundary 14. -/
theorem v84_14_15 (c : Dev nD) : W15 m ρ c (Proc.devRef .tc main_v84) = W14 m ρ c (Proc.devRef .tc main_v84) :=
  calc W15 m ρ c (Proc.devRef .tc main_v84)
    _ = W14 m ρ c (Proc.devRef .tc main_v84) := W15_of_ne m ρ c main_v84 (by decide)

/-- `main_v85_0` holds at boundary 16 what it held at boundary 15. -/
theorem v85_0_15_16 (c : Dev nD) : W16 m ρ c (Proc.devRef .tc main_v85_0) = W15 m ρ c (Proc.devRef .tc main_v85_0) :=
  calc W16 m ρ c (Proc.devRef .tc main_v85_0)
    _ = W15 m ρ c (Proc.devRef .tc main_v85_0) := W16_of_ne m ρ c main_v85_0 (by decide)

/-- `main_arg4` holds at boundary 17 what it held at boundary 16. -/
theorem arg4_16_17 (c : Dev nD) : W17 m ρ c (Proc.devRef .tc main_arg4) = W16 m ρ c (Proc.devRef .tc main_arg4) :=
  calc W17 m ρ c (Proc.devRef .tc main_arg4)
    _ = W16 m ρ c (Proc.devRef .tc main_arg4) := StableHlo.after_of_forall_not_mem (b := Proc.devRef .tc main_arg4) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg5` holds at boundary 17 what it held at boundary 16. -/
theorem arg5_16_17 (c : Dev nD) : W17 m ρ c (Proc.devRef .tc main_arg5) = W16 m ρ c (Proc.devRef .tc main_arg5) :=
  calc W17 m ρ c (Proc.devRef .tc main_arg5)
    _ = W16 m ρ c (Proc.devRef .tc main_arg5) := StableHlo.after_of_forall_not_mem (b := Proc.devRef .tc main_arg5) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg6` holds at boundary 17 what it held at boundary 16. -/
theorem arg6_16_17 (c : Dev nD) : W17 m ρ c (Proc.devRef .tc main_arg6) = W16 m ρ c (Proc.devRef .tc main_arg6) :=
  calc W17 m ρ c (Proc.devRef .tc main_arg6)
    _ = W16 m ρ c (Proc.devRef .tc main_arg6) := StableHlo.after_of_forall_not_mem (b := Proc.devRef .tc main_arg6) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.Region0.lean ====
/-
  One launch of the scaling kernel, read as a whole array.

  The grid walks the node table in blocks of 2000 rows; at block `t` the body multiplies row `p` of the block, entry
  by entry, by the node's own factor (the one entry of row `p` of the factor column's block). Row `p` of block `t` is
  row `2000 t + p` of the table, for the table, the factor column and the result alike, and the blocks cover the result,
  so the result array is the table with row `n` multiplied by the factor of node `n`: the host's product of the table
  with the factor column broadcast along the features.
-/
import proofs.«158156_j83751862272173_2_alg».proof.Proof.Gen.KernelIdeal.Frame
import proofs.«158156_j83751862272173_2_alg».proof.Proof.LibEdgeReads
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The table and the factor column as the launch finds them. -/
abbrev tbl (c : Dev nD) : FVec Ideal S200000x64 .f32 := V c main_arg0
abbrev fac (c : Dev nD) : FVec Ideal S200000x1 .f32 := V c main_v12

theorem hz : (![0, 0] : Fin 2 → Nat) = fun _ => 0 := funext fun a => by fin_cases a <;> rfl

/-- The three index maps send point `t` to block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The table's block at point `t` is rows `2000 t …` of the table. -/
theorem iblk_table (c : Dev nD) (t : Fin cfg0.N) (x : S2000x64.Idx) (k : S200000x64.Idx)
    (hk0 : (k 0).val = 2000 * t.val + (x 0).val) (hk1 : (k 1).val = (x 1).val) :
    (iblk0 V c 0 t : Vec Ideal S2000x64 .f32) x = (tbl V c) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 64 + 1 * (x 1).val = (k 1).val; rw [e1, hk1]; omega

/-- The factor column's block at point `t` is rows `2000 t …` of the column. -/
theorem iblk_factor (c : Dev nD) (t : Fin cfg0.N) (x : S2000x1.Idx) (k : S200000x1.Idx)
    (hk0 : (k 0).val = 2000 * t.val + (x 0).val) (hk1 : (k 1).val = (x 1).val) :
    (iblk0 V c 1 t : Vec Ideal S2000x1 .f32) x = (fac V c) k := by
  obtain ⟨-, -, e0, e1, -, -⟩ := idx_facts t
  unfold iblk0
  rw [View.read_apply]
  show V c main_v12 _ = V c main_v12 _
  congr 1
  funext a
  apply Fin.ext
  match a with
  | ⟨0, _⟩ => show win0_1.index t 0 * 2000 + 1 * (x 0).val = (k 0).val; rw [e0, hk0]; omega
  | ⟨1, _⟩ => show win0_1.index t 1 * 1 + 1 * (x 1).val = (k 1).val; rw [e1, hk1]; omega

/-- The body's stored value at row `p`, feature `q` of a block: the table's entry times the row's factor. -/
theorem pay_apply (x0 : Vec Ideal S2000x64 .f32) (x1 : Vec Ideal S2000x1 .f32) (p : Fin 2000) (q : Fin 64) :
    k0_pay1 x0 x1 (ix2 p q) = x0 (ix2 p q) * x1 (ix2 p (0 : Fin 1)) := by
  unfold k0_pay1
  rw [shapeCast_self]
  show x0 (ix2 p q) * broadcastTo S2000x64 x1 broadcasts_S2000x1_S2000x64 (ix2 p q) = _
  rw [Cert.LibColumnReads.broadcastTo_a1_ab_apply x1 broadcasts_S2000x1_S2000x64 p q]

/-- The whole result: the table with row `n` multiplied by node `n`'s factor, in the host's spelling. -/
abbrev scaled (hb : S200000x1.BroadcastsInDim S200000x64 ![0, 1]) (c : Dev nD) : S200000x64.Idx → Elt Ideal .f32 :=
  mulf (F := Ideal) (φ := .f32) (tbl V c)
    (broadcastInDim S200000x64 ![0, 1] hb (fac V c))

theorem scaled_apply (hb : S200000x1.BroadcastsInDim S200000x64 ![0, 1]) (c : Dev nD) (n : Fin 200000) (f : Fin 64) :
    scaled V hb c (ix2 n f) = (tbl V c) (ix2 n f) * (fac V c) (ix2 n (0 : Fin 1)) := by
  show (tbl V c) (ix2 n f) * broadcastInDim S200000x64 ![0, 1] hb (fac V c) (ix2 n f) = _
  rw [Cert.Lib.EdgeReads.column_broadcast_apply (fac V c) hb n f]

/-- What point `t` writes back is block `t` of the scaled table. -/
theorem flushed_eq (hb : S200000x1.BroadcastsInDim S200000x64 ![0, 1]) (c : Dev nD) (t : Fin cfg0.N) :
    (dat0 V c).flushed 2 t = ((cfg0.win 2).blk t).view.read (Elt Ideal) (scaled V hb c) := by
  obtain ⟨-, -, -, -, e0, e1⟩ := idx_facts t
  have ht : t.val < 100 := by have := t.isLt; have hN : cfg0.N = 100 := N_0; omega
  show (cfg0.win 2).cut (grid0.coords t) ((dat0 V c).after 2 t) = _
  rw [after0_2]
  unfold out0_2
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg0.win 2).blk t).view.emb (ix2 p q) = (ix2 (⟨2000 * t.val + p.val, by omega⟩ : Fin 200000) q : S200000x64.Idx) := by
    funext a
    apply Fin.ext
    match a with
    | ⟨0, _⟩ => show win0_2.index t 0 * 2000 + 1 * p.val = 2000 * t.val + p.val; rw [e0]; omega
    | ⟨1, _⟩ => show win0_2.index t 1 * 64 + 1 * q.val = q.val; rw [e1]; omega
  rw [hemb, scaled_apply]
  show k0_pay1 (iblk0 V c 0 t) (iblk0 V c 1 t) (ix2 p q)
    = (tbl V c) (ix2 (⟨2000 * t.val + p.val, by omega⟩ : Fin 200000) q) * (fac V c) (ix2 (⟨2000 * t.val + p.val, by omega⟩ : Fin 200000) (0 : Fin 1))
  rw [pay_apply]
  rw [iblk_table V c t (ix2 p q) (ix2 (⟨2000 * t.val + p.val, by omega⟩ : Fin 200000) q) rfl rfl,
    iblk_factor V c t (ix2 p (0 : Fin 1)) (ix2 (⟨2000 * t.val + p.val, by omega⟩ : Fin 200000) (0 : Fin 1)) rfl rfl]

/-- An index of the result is in point `t`'s block iff each coordinate is in the block's range on its axis. -/
theorem mem_blk (c : Dev nD) (t : Fin cfg0.N) (i : S200000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v19).slice (win0_2.rect t)).set ↔ _
  rw [View.set_slice_whole, Rect.mem_set_unit]
  exact Iff.rfl

/-- Row `r` of the result lies in the block of the point `r / 2000`, so the blocks cover the result and it is the
    scaled table. -/
theorem final (hb : S200000x1.BroadcastsInDim S200000x64 ![0, 1]) (c : Dev nD) :
    (dat0 V c).arrAt 2 cfg0.N = scaled V hb c :=
  (dat0 V c).arrAt_eq_of_cover 2 (scaled V hb c) (fun t _ => flushed_eq V hb c t) fun (i : S200000x64.Idx) => by
    have hi0 : (i 0).val < 200000 := (i 0).isLt
    have hi1 : (i 1).val < 64 := (i 1).isLt
    have hN : cfg0.N = 100 := N_0
    have ht0 : (i 0).val / 2000 < cfg0.N := by rw [hN]; omega
    obtain ⟨-, -, -, -, e0, e1⟩ := idx_facts ⟨(i 0).val / 2000, ht0⟩
    refine ⟨⟨(i 0).val / 2000, ht0⟩, flush0_2 _, ?_⟩
    rw [mem_blk c ⟨(i 0).val / 2000, ht0⟩ i]
    intro a
    match a with
    | ⟨0, _⟩ => show win0_2.index ⟨(i 0).val / 2000, ht0⟩ 0 * 2000 ≤ (i 0).val ∧ (i 0).val < win0_2.index ⟨(i 0).val / 2000, ht0⟩ 0 * 2000 + 2000; rw [e0]; show (i 0).val / 2000 * 2000 ≤ (i 0).val ∧ (i 0).val < (i 0).val / 2000 * 2000 + 2000; omega
    | ⟨1, _⟩ => show win0_2.index ⟨(i 0).val / 2000, ht0⟩ 1 * 64 ≤ (i 1).val ∧ (i 1).val < win0_2.index ⟨(i 0).val / 2000, ht0⟩ 1 * 64 + 64; rw [e1]; omega

end Cert.KernelIdeal.Region0

end
-- ==== Proof.Region1.lean ====
/-
  One launch of the scaling kernel, read as a whole array.

  The grid walks the node table in blocks of 2000 rows; at block `t` the body multiplies row `p` of the block, entry
  by entry, by the node's own factor (the one entry of row `p` of the factor column's block). Row `p` of block `t` is
  row `2000 t + p` of the table, for the table, the factor column and the result alike, and the blocks cover the result,
  so the result array is the table with row `n` multiplied by the factor of node `n`: the host's product of the table
  with the factor column broadcast along the features.
-/
import proofs.«158156_j83751862272173_2_alg».proof.Proof.Gen.KernelIdeal.Frame
import proofs.«158156_j83751862272173_2_alg».proof.Proof.LibEdgeReads
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The table and the factor column as the launch finds them. -/
abbrev tbl (c : Dev nD) : FVec Ideal S100000x64 .f32 := V c main_arg1
abbrev fac (c : Dev nD) : FVec Ideal S100000x1 .f32 := V c main_v18

theorem hz : (![0, 0] : Fin 2 → Nat) = fun _ => 0 := funext fun a => by fin_cases a <;> rfl

/-- The three index maps send point `t` to block row `t`, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The table's block at point `t` is rows `2000 t …` of the table. -/
theorem iblk_table (c : Dev nD) (t : Fin cfg1.N) (x : S2000x64.Idx) (k : S100000x64.Idx)
    (hk0 : (k 0).val = 2000 * t.val + (x 0).val) (hk1 : (k 1).val = (x 1).val) :
    (iblk1 V c 0 t : Vec Ideal S2000x64 .f32) x = (tbl V c) k := by
  obtain ⟨e0, e1, -, -, -, -⟩ := idx_facts t
  unfold iblk1
  rw [View.read_apply]
  show V c main_arg1 _ = V c main_arg1 _
  congr 1
  funext a
  apply Fin.ext
  match a with
  | ⟨0, _⟩ => show win1_0.index t 0 * 2000 + 1 * (x 0).val = (k 0).val; rw [e0, hk0]; omega
  | ⟨1, _⟩ => show win1_0.index t 1 * 64 + 1 * (x 1).val = (k 1).val; rw [e1, hk1]; omega

/-- The factor column's block at point `t` is rows `2000 t …` of the column. -/
theorem iblk_factor (c : Dev nD) (t : Fin cfg1.N) (x : S2000x1.Idx) (k : S100000x1.Idx)
    (hk0 : (k 0).val = 2000 * t.val + (x 0).val) (hk1 : (k 1).val = (x 1).val) :
    (iblk1 V c 1 t : Vec Ideal S2000x1 .f32) x = (fac V c) k := by
  obtain ⟨-, -, e0, e1, -, -⟩ := idx_facts t
  unfold iblk1
  rw [View.read_apply]
  show V c main_v18 _ = V c main_v18 _
  congr 1
  funext a
  apply Fin.ext
  match a with
  | ⟨0, _⟩ => show win1_1.index t 0 * 2000 + 1 * (x 0).val = (k 0).val; rw [e0, hk0]; omega
  | ⟨1, _⟩ => show win1_1.index t 1 * 1 + 1 * (x 1).val = (k 1).val; rw [e1, hk1]; omega

/-- The body's stored value at row `p`, feature `q` of a block: the table's entry times the row's factor. -/
theorem pay_apply (x0 : Vec Ideal S2000x64 .f32) (x1 : Vec Ideal S2000x1 .f32) (p : Fin 2000) (q : Fin 64) :
    k1_pay1 x0 x1 (ix2 p q) = x0 (ix2 p q) * x1 (ix2 p (0 : Fin 1)) := by
  unfold k1_pay1
  rw [shapeCast_self]
  show x0 (ix2 p q) * broadcastTo S2000x64 x1 broadcasts_S2000x1_S2000x64 (ix2 p q) = _
  rw [Cert.LibColumnReads.broadcastTo_a1_ab_apply x1 broadcasts_S2000x1_S2000x64 p q]

/-- The whole result: the table with row `n` multiplied by node `n`'s factor, in the host's spelling. -/
abbrev scaled (hb : S100000x1.BroadcastsInDim S100000x64 ![0, 1]) (c : Dev nD) : S100000x64.Idx → Elt Ideal .f32 :=
  mulf (F := Ideal) (φ := .f32) (tbl V c)
    (broadcastInDim S100000x64 ![0, 1] hb (fac V c))

theorem scaled_apply (hb : S100000x1.BroadcastsInDim S100000x64 ![0, 1]) (c : Dev nD) (n : Fin 100000) (f : Fin 64) :
    scaled V hb c (ix2 n f) = (tbl V c) (ix2 n f) * (fac V c) (ix2 n (0 : Fin 1)) := by
  show (tbl V c) (ix2 n f) * broadcastInDim S100000x64 ![0, 1] hb (fac V c) (ix2 n f) = _
  rw [Cert.Lib.EdgeReads.column_broadcast_apply (fac V c) hb n f]

/-- What point `t` writes back is block `t` of the scaled table. -/
theorem flushed_eq (hb : S100000x1.BroadcastsInDim S100000x64 ![0, 1]) (c : Dev nD) (t : Fin cfg1.N) :
    (dat1 V c).flushed 2 t = ((cfg1.win 2).blk t).view.read (Elt Ideal) (scaled V hb c) := by
  obtain ⟨-, -, -, -, e0, e1⟩ := idx_facts t
  have ht : t.val < 50 := by have := t.isLt; have hN : cfg1.N = 50 := N_1; omega
  show (cfg1.win 2).cut (grid1.coords t) ((dat1 V c).after 2 t) = _
  rw [after1_2]
  unfold out1_2
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg1.win 2).blk t).view.emb (ix2 p q) = (ix2 (⟨2000 * t.val + p.val, by omega⟩ : Fin 100000) q : S100000x64.Idx) := by
    funext a
    apply Fin.ext
    match a with
    | ⟨0, _⟩ => show win1_2.index t 0 * 2000 + 1 * p.val = 2000 * t.val + p.val; rw [e0]; omega
    | ⟨1, _⟩ => show win1_2.index t 1 * 64 + 1 * q.val = q.val; rw [e1]; omega
  rw [hemb, scaled_apply]
  show k1_pay1 (iblk1 V c 0 t) (iblk1 V c 1 t) (ix2 p q)
    = (tbl V c) (ix2 (⟨2000 * t.val + p.val, by omega⟩ : Fin 100000) q) * (fac V c) (ix2 (⟨2000 * t.val + p.val, by omega⟩ : Fin 100000) (0 : Fin 1))
  rw [pay_apply]
  rw [iblk_table V c t (ix2 p q) (ix2 (⟨2000 * t.val + p.val, by omega⟩ : Fin 100000) q) rfl rfl,
    iblk_factor V c t (ix2 p (0 : Fin 1)) (ix2 (⟨2000 * t.val + p.val, by omega⟩ : Fin 100000) (0 : Fin 1)) rfl rfl]

/-- An index of the result is in point `t`'s block iff each coordinate is in the block's range on its axis. -/
theorem mem_blk (c : Dev nD) (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v20).slice (win1_2.rect t)).set ↔ _
  rw [View.set_slice_whole, Rect.mem_set_unit]
  exact Iff.rfl

/-- Row `r` of the result lies in the block of the point `r / 2000`, so the blocks cover the result and it is the
    scaled table. -/
theorem final (hb : S100000x1.BroadcastsInDim S100000x64 ![0, 1]) (c : Dev nD) :
    (dat1 V c).arrAt 2 cfg1.N = scaled V hb c :=
  (dat1 V c).arrAt_eq_of_cover 2 (scaled V hb c) (fun t _ => flushed_eq V hb c t) fun (i : S100000x64.Idx) => by
    have hi0 : (i 0).val < 100000 := (i 0).isLt
    have hi1 : (i 1).val < 64 := (i 1).isLt
    have hN : cfg1.N = 50 := N_1
    have ht0 : (i 0).val / 2000 < cfg1.N := by rw [hN]; omega
    obtain ⟨-, -, -, -, e0, e1⟩ := idx_facts ⟨(i 0).val / 2000, ht0⟩
    refine ⟨⟨(i 0).val / 2000, ht0⟩, flush1_2 _, ?_⟩
    rw [mem_blk c ⟨(i 0).val / 2000, ht0⟩ i]
    intro a
    match a with
    | ⟨0, _⟩ => show win1_2.index ⟨(i 0).val / 2000, ht0⟩ 0 * 2000 ≤ (i 0).val ∧ (i 0).val < win1_2.index ⟨(i 0).val / 2000, ht0⟩ 0 * 2000 + 2000; rw [e0]; show (i 0).val / 2000 * 2000 ≤ (i 0).val ∧ (i 0).val < (i 0).val / 2000 * 2000 + 2000; omega
    | ⟨1, _⟩ => show win1_2.index ⟨(i 0).val / 2000, ht0⟩ 1 * 64 ≤ (i 1).val ∧ (i 1).val < win1_2.index ⟨(i 0).val / 2000, ht0⟩ 1 * 64 + 64; rw [e1]; omega

end Cert.KernelIdeal.Region1

end
-- ==== Proof.Region2.lean ====
/-
  One launch of the normalise-and-accumulate kernel, read as two whole arrays.

  The grid walks the node table in blocks of 2000 rows. At block `t` the body scales row `p` of the raw neighbour sums
  by the node's own factor, divides the row by the larger of its Euclidean length and a small floor, and stores two
  things: the running embedding plus the unit row times the layer's weight, and the unit row times the node's factor
  again. A row of a block is row `2000 t + p` of every table involved, a row of the result depends on that row alone,
  and the blocks cover the tables; so both results are the host's own spellings — the row normalisation of (raw sums ⊙
  factor column), then the weighted accumulation, respectively the product with the factor column.
-/
import proofs.«158156_j83751862272173_2_alg».proof.Proof.Gen.KernelIdeal.Frame
import proofs.«158156_j83751862272173_2_alg».proof.Proof.LibRowNormalize
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Lib.RowNormalize

variable (V : (c : Dev nD) → (b : Ref sig .tc) → Buf (Elt Ideal) ((c : Thread nD τ).loc b))
variable (h' : S200000x64.ReducesTo [1] S200000) (hu : 0 < S_.numel) (hb0 : S200000.BroadcastsInDim S200000x1 ![0])
  (hbs : S_.BroadcastsInDim S200000x1 ![]) (hb1 : S200000x1.BroadcastsInDim S200000x64 ![0, 1]) (hbc : S_.BroadcastsInDim S200000x64 ![])

/-- The raw neighbour sums, the factor column and the running embedding as the launch finds them. -/
abbrev raw (c : Dev nD) : FVec Ideal S200000x64 .f32 := V c main_v37
abbrev fac (c : Dev nD) : FVec Ideal S200000x1 .f32 := V c main_v12
abbrev acc (c : Dev nD) : FVec Ideal S200000x64 .f32 := V c main_arg0

theorem hz : (![0, 0] : Fin 2 → Nat) = fun _ => 0 := funext fun a => by fin_cases a <;> rfl

/-- The raw sums' and the factor column's blocks at point `t`. -/
abbrev blk0 (c : Dev nD) (t : Fin cfg2.N) : Vec Ideal S2000x64 .f32 := iblk2 V c 0 t
abbrev blk1 (c : Dev nD) (t : Fin cfg2.N) : Vec Ideal S2000x1 .f32 := iblk2 V c 1 t

/-- All five index maps send point `t` to block row `t`, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The raw sums' block at point `t` is rows `2000 t …` of the raw sums. -/
theorem iblk_raw (c : Dev nD) (t : Fin cfg2.N) (x : S2000x64.Idx) (k : S200000x64.Idx)
    (hk0 : (k 0).val = 2000 * t.val + (x 0).val) (hk1 : (k 1).val = (x 1).val) :
    (iblk2 V c 0 t : Vec Ideal S2000x64 .f32) x = (raw V c) k := by
  obtain ⟨e0, e1, -⟩ := idx_facts t
  unfold iblk2
  rw [View.read_apply]
  show V c main_v37 _ = V c main_v37 _
  congr 1
  funext a
  apply Fin.ext
  match a with
  | ⟨0, _⟩ => show win2_0.index t 0 * 2000 + 1 * (x 0).val = (k 0).val; rw [e0, hk0]; omega
  | ⟨1, _⟩ => show win2_0.index t 1 * 64 + 1 * (x 1).val = (k 1).val; rw [e1, hk1]; omega

/-- The factor column's block at point `t` is rows `2000 t …` of the column. -/
theorem iblk_factor (c : Dev nD) (t : Fin cfg2.N) (x : S2000x1.Idx) (k : S200000x1.Idx)
    (hk0 : (k 0).val = 2000 * t.val + (x 0).val) (hk1 : (k 1).val = (x 1).val) :
    (iblk2 V c 1 t : Vec Ideal S2000x1 .f32) x = (fac V c) k := by
  obtain ⟨-, -, e0, e1, -⟩ := idx_facts t
  unfold iblk2
  rw [View.read_apply]
  show V c main_v12 _ = V c main_v12 _
  congr 1
  funext a
  apply Fin.ext
  match a with
  | ⟨0, _⟩ => show win2_1.index t 0 * 2000 + 1 * (x 0).val = (k 0).val; rw [e0, hk0]; omega
  | ⟨1, _⟩ => show win2_1.index t 1 * 1 + 1 * (x 1).val = (k 1).val; rw [e1, hk1]; omega

/-- The running embedding's block at point `t` is rows `2000 t …` of it. -/
theorem iblk_acc (c : Dev nD) (t : Fin cfg2.N) (x : S2000x64.Idx) (k : S200000x64.Idx)
    (hk0 : (k 0).val = 2000 * t.val + (x 0).val) (hk1 : (k 1).val = (x 1).val) :
    (iblk2 V c 2 t : Vec Ideal S2000x64 .f32) x = (acc V c) k := by
  obtain ⟨-, -, -, -, e0, e1, -⟩ := idx_facts t
  unfold iblk2
  rw [View.read_apply]
  show V c main_arg0 _ = V c main_arg0 _
  congr 1
  funext a
  apply Fin.ext
  match a with
  | ⟨0, _⟩ => show win2_2.index t 0 * 2000 + 1 * (x 0).val = (k 0).val; rw [e0, hk0]; omega
  | ⟨1, _⟩ => show win2_2.index t 1 * 64 + 1 * (x 1).val = (k 1).val; rw [e1, hk1]; omega

/-- The floor under the row length and the layer's weight, as extended reals. -/
abbrev floorV : EReal := Ideal.ofBits .f32 0x2B8CBCCC#32
abbrev weightV : EReal := Ideal.ofBits .f32 0x3F800000#32

/-- The unit row at row `p`, feature `q` of a block: the scaled row divided by the larger of its length and the floor. -/
theorem pay2_apply (v0 : Vec Ideal S2000x1 .f32) (v2 : Vec Ideal S2000x64 .f32) (p : Fin 2000) (q : Fin 64) :
    k2_pay2 v0 v2 (ix2 p q) = unit floorV (fun k => v2 (ix2 p k) * v0 (ix2 p (0 : Fin 1))) q := by
  unfold k2_pay2 k2_pay1
  simp only [shapeCast_self]
  exact vectorNormalize_apply v2 v0 0x2B8CBCCC#32 _ _ _ _ _ _ p q

/-- The first stored value: the running embedding plus the unit row times the weight. -/
theorem pay3_apply (v0 : Vec Ideal S2000x1 .f32) (v2 v14 : Vec Ideal S2000x64 .f32) (p : Fin 2000) (q : Fin 64) :
    k2_pay3 v0 v2 v14 (ix2 p q) = v14 (ix2 p q) + unit floorV (fun k => v2 (ix2 p k) * v0 (ix2 p (0 : Fin 1))) q * weightV := by
  unfold k2_pay3
  try simp only [shapeCast_self]
  show v14 (ix2 p q) + k2_pay2 v0 v2 (ix2 p q) * broadcast S2000x64 (Scalar.ofBits (F := Ideal) .f32 0x3F800000#32) (ix2 p q) = _
  rw [pay2_apply, vector_splat_apply]

/-- The second stored value: the unit row times the node's factor. -/
theorem pay4_apply (v0 : Vec Ideal S2000x1 .f32) (v2 : Vec Ideal S2000x64 .f32) (p : Fin 2000) (q : Fin 64) :
    k2_pay4 v0 v2 (ix2 p q) = unit floorV (fun k => v2 (ix2 p k) * v0 (ix2 p (0 : Fin 1))) q * v0 (ix2 p (0 : Fin 1)) := by
  unfold k2_pay4 k2_pay1
  simp only [shapeCast_self]
  show k2_pay2 v0 v2 (ix2 p q) * broadcastTo S2000x64 v0 broadcasts_S2000x1_S2000x64 (ix2 p q) = _
  rw [pay2_apply, Cert.LibColumnReads.broadcastTo_a1_ab_apply v0 broadcasts_S2000x1_S2000x64 p q]

/-- The unit rows of the whole table, in the host's spelling: the row normalisation of (raw sums ⊙ factor column). -/
abbrev unitRows (c : Dev nD) : FVec Ideal S200000x64 .f32 :=
  hostNormalize (mulf (F := Ideal) (φ := .f32) (raw V c) (broadcastInDim S200000x64 ![0, 1] hb1 (fac V c))) 0x2B8CBCCC#32 h' hu hb0 hbs hb1

/-- The first result as a whole array: the running embedding plus the unit rows times the weight. -/
abbrev accOut (c : Dev nD) : FVec Ideal S200000x64 .f32 :=
  addf (F := Ideal) (φ := .f32) (acc V c) (mulf (F := Ideal) (φ := .f32) (unitRows V h' hu hb0 hbs hb1 c)
    (broadcastInDim S200000x64 ![] hbc (constant (F := Ideal) S_ .f32 0x3F800000#32)))

/-- The second result as a whole array: the unit rows times the factor column. -/
abbrev scaledOut (c : Dev nD) : FVec Ideal S200000x64 .f32 :=
  mulf (F := Ideal) (φ := .f32) (unitRows V h' hu hb0 hbs hb1 c) (broadcastInDim S200000x64 ![0, 1] hb1 (fac V c))

theorem unitRows_apply (c : Dev nD) (n : Fin 200000) (f : Fin 64) :
    unitRows V h' hu hb0 hbs hb1 c (ix2 n f) = unit floorV (fun k => (raw V c) (ix2 n k) * (fac V c) (ix2 n (0 : Fin 1))) f := by
  rw [show unitRows V h' hu hb0 hbs hb1 c (ix2 n f) = _ from hostNormalize_apply _ 0x2B8CBCCC#32 h' hu hb0 hbs hb1 n f]
  congr 1
  funext k
  exact host_scaled_apply (raw V c) (fac V c) hb1 n k

theorem accOut_apply (c : Dev nD) (n : Fin 200000) (f : Fin 64) :
    accOut V h' hu hb0 hbs hb1 hbc c (ix2 n f)
      = (acc V c) (ix2 n f) + unit floorV (fun k => (raw V c) (ix2 n k) * (fac V c) (ix2 n (0 : Fin 1))) f * weightV := by
  show (acc V c) (ix2 n f) + unitRows V h' hu hb0 hbs hb1 c (ix2 n f) * broadcastInDim S200000x64 ![] hbc (constant (F := Ideal) S_ .f32 0x3F800000#32) (ix2 n f) = _
  rw [unitRows_apply, host_splat_apply]

theorem scaledOut_apply (c : Dev nD) (n : Fin 200000) (f : Fin 64) :
    scaledOut V h' hu hb0 hbs hb1 c (ix2 n f)
      = unit floorV (fun k => (raw V c) (ix2 n k) * (fac V c) (ix2 n (0 : Fin 1))) f * (fac V c) (ix2 n (0 : Fin 1)) := by
  rw [show scaledOut V h' hu hb0 hbs hb1 c (ix2 n f) = _ from host_scaled_apply (unitRows V h' hu hb0 hbs hb1 c) (fac V c) hb1 n f, unitRows_apply]

/-- Row `p` of the blocks at point `t`, scaled, is row `2000 t + p` of the tables, scaled. -/
theorem row_eq (c : Dev nD) (t : Fin cfg2.N) (p : Fin 2000) (n : Fin 200000) (hn : n.val = 2000 * t.val + p.val) :
    (fun k : Fin 64 => (blk0 V c t) (ix2 p k) * (blk1 V c t) (ix2 p (0 : Fin 1)))
      = fun k : Fin 64 => (raw V c) (ix2 n k) * (fac V c) (ix2 n (0 : Fin 1)) :=
  funext fun k => by
    rw [show (blk0 V c t) (ix2 p k) = (raw V c) (ix2 n k) from iblk_raw V c t (ix2 p k) (ix2 n k) hn rfl,
      show (blk1 V c t) (ix2 p (0 : Fin 1)) = (fac V c) (ix2 n (0 : Fin 1)) from iblk_factor V c t (ix2 p (0 : Fin 1)) (ix2 n (0 : Fin 1)) hn rfl]

/-- What point `t` writes back of the first result is block `t` of it. -/
theorem flushed3_eq (c : Dev nD) (t : Fin cfg2.N) :
    (dat2 V c).flushed 3 t = ((cfg2.win 3).blk t).view.read (Elt Ideal) (accOut V h' hu hb0 hbs hb1 hbc c) := by
  obtain ⟨-, -, -, -, -, -, e0, e1, -, -⟩ := idx_facts t
  have ht : t.val < 100 := by have := t.isLt; have hN : cfg2.N = 100 := N_2; omega
  show (cfg2.win 3).cut (grid2.coords t) ((dat2 V c).after 3 t) = _
  rw [after2_3]
  unfold out2_3
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg2.win 3).blk t).view.emb (ix2 p q) = (ix2 (⟨2000 * t.val + p.val, by omega⟩ : Fin 200000) q : S200000x64.Idx) := by
    funext a
    apply Fin.ext
    match a with
    | ⟨0, _⟩ => show win2_3.index t 0 * 2000 + 1 * p.val = 2000 * t.val + p.val; rw [e0]; omega
    | ⟨1, _⟩ => show win2_3.index t 1 * 64 + 1 * q.val = q.val; rw [e1]; omega
  rw [hemb, accOut_apply]
  show k2_pay3 (iblk2 V c 1 t) (iblk2 V c 0 t) (iblk2 V c 2 t) (ix2 p q)
    = (acc V c) (ix2 (⟨2000 * t.val + p.val, by omega⟩ : Fin 200000) q)
      + unit floorV (fun k => (raw V c) (ix2 (⟨2000 * t.val + p.val, by omega⟩ : Fin 200000) k) * (fac V c) (ix2 (⟨2000 * t.val + p.val, by omega⟩ : Fin 200000) (0 : Fin 1))) q * weightV
  rw [pay3_apply, row_eq V c t p (⟨2000 * t.val + p.val, by omega⟩ : Fin 200000) rfl,
    iblk_acc V c t (ix2 p q) (ix2 (⟨2000 * t.val + p.val, by omega⟩ : Fin 200000) q) rfl rfl]

/-- What point `t` writes back of the second result is block `t` of it. -/
theorem flushed4_eq (c : Dev nD) (t : Fin cfg2.N) :
    (dat2 V c).flushed 4 t = ((cfg2.win 4).blk t).view.read (Elt Ideal) (scaledOut V h' hu hb0 hbs hb1 c) := by
  obtain ⟨-, -, -, -, -, -, -, -, e0, e1⟩ := idx_facts t
  have ht : t.val < 100 := by have := t.isLt; have hN : cfg2.N = 100 := N_2; omega
  show (cfg2.win 4).cut (grid2.coords t) ((dat2 V c).after 4 t) = _
  rw [after2_4]
  unfold out2_4
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg2.win 4).blk t).view.emb (ix2 p q) = (ix2 (⟨2000 * t.val + p.val, by omega⟩ : Fin 200000) q : S200000x64.Idx) := by
    funext a
    apply Fin.ext
    match a with
    | ⟨0, _⟩ => show win2_4.index t 0 * 2000 + 1 * p.val = 2000 * t.val + p.val; rw [e0]; omega
    | ⟨1, _⟩ => show win2_4.index t 1 * 64 + 1 * q.val = q.val; rw [e1]; omega
  rw [hemb, scaledOut_apply]
  show k2_pay4 (iblk2 V c 1 t) (iblk2 V c 0 t) (ix2 p q)
    = unit floorV (fun k => (raw V c) (ix2 (⟨2000 * t.val + p.val, by omega⟩ : Fin 200000) k) * (fac V c) (ix2 (⟨2000 * t.val + p.val, by omega⟩ : Fin 200000) (0 : Fin 1))) q
      * (fac V c) (ix2 (⟨2000 * t.val + p.val, by omega⟩ : Fin 200000) (0 : Fin 1))
  rw [pay4_apply, row_eq V c t p (⟨2000 * t.val + p.val, by omega⟩ : Fin 200000) rfl,
    iblk_factor V c t (ix2 p (0 : Fin 1)) (ix2 (⟨2000 * t.val + p.val, by omega⟩ : Fin 200000) (0 : Fin 1)) rfl rfl]

/-- An index of a result is in point `t`'s block iff each coordinate is in the block's range on its axis. -/
theorem mem_blk3 (c : Dev nD) (t : Fin cfg2.N) (i : S200000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v41_0).slice (win2_3.rect t)).set ↔ _
  rw [View.set_slice_whole, Rect.mem_set_unit]
  exact Iff.rfl
theorem mem_blk4 (c : Dev nD) (t : Fin cfg2.N) (i : S200000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v41_1).slice (win2_4.rect t)).set ↔ _
  rw [View.set_slice_whole, Rect.mem_set_unit]
  exact Iff.rfl

/-- Row `r` lies in the block of the point `r / 2000`: the blocks cover the first result, which is therefore `accOut`. -/
theorem final3 (c : Dev nD) : (dat2 V c).arrAt 3 cfg2.N = accOut V h' hu hb0 hbs hb1 hbc c :=
  (dat2 V c).arrAt_eq_of_cover 3 (accOut V h' hu hb0 hbs hb1 hbc c) (fun t _ => flushed3_eq V h' hu hb0 hbs hb1 hbc c t) fun (i : S200000x64.Idx) => by
    have hi0 : (i 0).val < 200000 := (i 0).isLt
    have hi1 : (i 1).val < 64 := (i 1).isLt
    have hN : cfg2.N = 100 := N_2
    have ht0 : (i 0).val / 2000 < cfg2.N := by rw [hN]; omega
    obtain ⟨-, -, -, -, -, -, e0, e1, -, -⟩ := idx_facts ⟨(i 0).val / 2000, ht0⟩
    refine ⟨⟨(i 0).val / 2000, ht0⟩, flush2_3 _, ?_⟩
    rw [mem_blk3 c ⟨(i 0).val / 2000, ht0⟩ i]
    intro a
    match a with
    | ⟨0, _⟩ => show win2_3.index ⟨(i 0).val / 2000, ht0⟩ 0 * 2000 ≤ (i 0).val ∧ (i 0).val < win2_3.index ⟨(i 0).val / 2000, ht0⟩ 0 * 2000 + 2000; rw [e0]; show (i 0).val / 2000 * 2000 ≤ (i 0).val ∧ (i 0).val < (i 0).val / 2000 * 2000 + 2000; omega
    | ⟨1, _⟩ => show win2_3.index ⟨(i 0).val / 2000, ht0⟩ 1 * 64 ≤ (i 1).val ∧ (i 1).val < win2_3.index ⟨(i 0).val / 2000, ht0⟩ 1 * 64 + 64; rw [e1]; omega

/-- The same cover for the second result, which is therefore `scaledOut`. -/
theorem final4 (c : Dev nD) : (dat2 V c).arrAt 4 cfg2.N = scaledOut V h' hu hb0 hbs hb1 c :=
  (dat2 V c).arrAt_eq_of_cover 4 (scaledOut V h' hu hb0 hbs hb1 c) (fun t _ => flushed4_eq V h' hu hb0 hbs hb1 c t) fun (i : S200000x64.Idx) => by
    have hi0 : (i 0).val < 200000 := (i 0).isLt
    have hi1 : (i 1).val < 64 := (i 1).isLt
    have hN : cfg2.N = 100 := N_2
    have ht0 : (i 0).val / 2000 < cfg2.N := by rw [hN]; omega
    obtain ⟨-, -, -, -, -, -, -, -, e0, e1⟩ := idx_facts ⟨(i 0).val / 2000, ht0⟩
    refine ⟨⟨(i 0).val / 2000, ht0⟩, flush2_4 _, ?_⟩
    rw [mem_blk4 c ⟨(i 0).val / 2000, ht0⟩ i]
    intro a
    match a with
    | ⟨0, _⟩ => show win2_4.index ⟨(i 0).val / 2000, ht0⟩ 0 * 2000 ≤ (i 0).val ∧ (i 0).val < win2_4.index ⟨(i 0).val / 2000, ht0⟩ 0 * 2000 + 2000; rw [e0]; show (i 0).val / 2000 * 2000 ≤ (i 0).val ∧ (i 0).val < (i 0).val / 2000 * 2000 + 2000; omega
    | ⟨1, _⟩ => show win2_4.index ⟨(i 0).val / 2000, ht0⟩ 1 * 64 ≤ (i 1).val ∧ (i 1).val < win2_4.index ⟨(i 0).val / 2000, ht0⟩ 1 * 64 + 64; rw [e1]; omega

end Cert.KernelIdeal.Region2

end
-- ==== Proof.Region3.lean ====
/-
  One launch of the normalise-and-accumulate kernel, read as two whole arrays.

  The grid walks the node table in blocks of 2000 rows. At block `t` the body scales row `p` of the raw neighbour sums
  by the node's own factor, divides the row by the larger of its Euclidean length and a small floor, and stores two
  things: the running embedding plus the unit row times the layer's weight, and the unit row times the node's factor
  again. A row of a block is row `2000 t + p` of every table involved, a row of the result depends on that row alone,
  and the blocks cover the tables; so both results are the host's own spellings — the row normalisation of (raw sums ⊙
  factor column), then the weighted accumulation, respectively the product with the factor column.
-/
import proofs.«158156_j83751862272173_2_alg».proof.Proof.Gen.KernelIdeal.Frame
import proofs.«158156_j83751862272173_2_alg».proof.Proof.LibRowNormalize
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Lib.RowNormalize

variable (V : (c : Dev nD) → (b : Ref sig .tc) → Buf (Elt Ideal) ((c : Thread nD τ).loc b))
variable (h' : S100000x64.ReducesTo [1] S100000) (hu : 0 < S_.numel) (hb0 : S100000.BroadcastsInDim S100000x1 ![0])
  (hbs : S_.BroadcastsInDim S100000x1 ![]) (hb1 : S100000x1.BroadcastsInDim S100000x64 ![0, 1]) (hbc : S_.BroadcastsInDim S100000x64 ![])

/-- The raw neighbour sums, the factor column and the running embedding as the launch finds them. -/
abbrev raw (c : Dev nD) : FVec Ideal S100000x64 .f32 := V c main_v40
abbrev fac (c : Dev nD) : FVec Ideal S100000x1 .f32 := V c main_v18
abbrev acc (c : Dev nD) : FVec Ideal S100000x64 .f32 := V c main_arg1

theorem hz : (![0, 0] : Fin 2 → Nat) = fun _ => 0 := funext fun a => by fin_cases a <;> rfl

/-- The raw sums' and the factor column's blocks at point `t`. -/
abbrev blk0 (c : Dev nD) (t : Fin cfg3.N) : Vec Ideal S2000x64 .f32 := iblk3 V c 0 t
abbrev blk1 (c : Dev nD) (t : Fin cfg3.N) : Vec Ideal S2000x1 .f32 := iblk3 V c 1 t

/-- All five index maps send point `t` to block row `t`, block column 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The raw sums' block at point `t` is rows `2000 t …` of the raw sums. -/
theorem iblk_raw (c : Dev nD) (t : Fin cfg3.N) (x : S2000x64.Idx) (k : S100000x64.Idx)
    (hk0 : (k 0).val = 2000 * t.val + (x 0).val) (hk1 : (k 1).val = (x 1).val) :
    (iblk3 V c 0 t : Vec Ideal S2000x64 .f32) x = (raw V c) k := by
  obtain ⟨e0, e1, -⟩ := idx_facts t
  unfold iblk3
  rw [View.read_apply]
  show V c main_v40 _ = V c main_v40 _
  congr 1
  funext a
  apply Fin.ext
  match a with
  | ⟨0, _⟩ => show win3_0.index t 0 * 2000 + 1 * (x 0).val = (k 0).val; rw [e0, hk0]; omega
  | ⟨1, _⟩ => show win3_0.index t 1 * 64 + 1 * (x 1).val = (k 1).val; rw [e1, hk1]; omega

/-- The factor column's block at point `t` is rows `2000 t …` of the column. -/
theorem iblk_factor (c : Dev nD) (t : Fin cfg3.N) (x : S2000x1.Idx) (k : S100000x1.Idx)
    (hk0 : (k 0).val = 2000 * t.val + (x 0).val) (hk1 : (k 1).val = (x 1).val) :
    (iblk3 V c 1 t : Vec Ideal S2000x1 .f32) x = (fac V c) k := by
  obtain ⟨-, -, e0, e1, -⟩ := idx_facts t
  unfold iblk3
  rw [View.read_apply]
  show V c main_v18 _ = V c main_v18 _
  congr 1
  funext a
  apply Fin.ext
  match a with
  | ⟨0, _⟩ => show win3_1.index t 0 * 2000 + 1 * (x 0).val = (k 0).val; rw [e0, hk0]; omega
  | ⟨1, _⟩ => show win3_1.index t 1 * 1 + 1 * (x 1).val = (k 1).val; rw [e1, hk1]; omega

/-- The running embedding's block at point `t` is rows `2000 t …` of it. -/
theorem iblk_acc (c : Dev nD) (t : Fin cfg3.N) (x : S2000x64.Idx) (k : S100000x64.Idx)
    (hk0 : (k 0).val = 2000 * t.val + (x 0).val) (hk1 : (k 1).val = (x 1).val) :
    (iblk3 V c 2 t : Vec Ideal S2000x64 .f32) x = (acc V c) k := by
  obtain ⟨-, -, -, -, e0, e1, -⟩ := idx_facts t
  unfold iblk3
  rw [View.read_apply]
  show V c main_arg1 _ = V c main_arg1 _
  congr 1
  funext a
  apply Fin.ext
  match a with
  | ⟨0, _⟩ => show win3_2.index t 0 * 2000 + 1 * (x 0).val = (k 0).val; rw [e0, hk0]; omega
  | ⟨1, _⟩ => show win3_2.index t 1 * 64 + 1 * (x 1).val = (k 1).val; rw [e1, hk1]; omega

/-- The floor under the row length and the layer's weight, as extended reals. -/
abbrev floorV : EReal := Ideal.ofBits .f32 0x2B8CBCCC#32
abbrev weightV : EReal := Ideal.ofBits .f32 0x3F800000#32

/-- The unit row at row `p`, feature `q` of a block: the scaled row divided by the larger of its length and the floor. -/
theorem pay2_apply (v0 : Vec Ideal S2000x1 .f32) (v2 : Vec Ideal S2000x64 .f32) (p : Fin 2000) (q : Fin 64) :
    k3_pay2 v0 v2 (ix2 p q) = unit floorV (fun k => v2 (ix2 p k) * v0 (ix2 p (0 : Fin 1))) q := by
  unfold k3_pay2 k3_pay1
  simp only [shapeCast_self]
  exact vectorNormalize_apply v2 v0 0x2B8CBCCC#32 _ _ _ _ _ _ p q

/-- The first stored value: the running embedding plus the unit row times the weight. -/
theorem pay3_apply (v0 : Vec Ideal S2000x1 .f32) (v2 v14 : Vec Ideal S2000x64 .f32) (p : Fin 2000) (q : Fin 64) :
    k3_pay3 v0 v2 v14 (ix2 p q) = v14 (ix2 p q) + unit floorV (fun k => v2 (ix2 p k) * v0 (ix2 p (0 : Fin 1))) q * weightV := by
  unfold k3_pay3
  try simp only [shapeCast_self]
  show v14 (ix2 p q) + k3_pay2 v0 v2 (ix2 p q) * broadcast S2000x64 (Scalar.ofBits (F := Ideal) .f32 0x3F800000#32) (ix2 p q) = _
  rw [pay2_apply, vector_splat_apply]

/-- The second stored value: the unit row times the node's factor. -/
theorem pay4_apply (v0 : Vec Ideal S2000x1 .f32) (v2 : Vec Ideal S2000x64 .f32) (p : Fin 2000) (q : Fin 64) :
    k3_pay4 v0 v2 (ix2 p q) = unit floorV (fun k => v2 (ix2 p k) * v0 (ix2 p (0 : Fin 1))) q * v0 (ix2 p (0 : Fin 1)) := by
  unfold k3_pay4 k3_pay1
  simp only [shapeCast_self]
  show k3_pay2 v0 v2 (ix2 p q) * broadcastTo S2000x64 v0 broadcasts_S2000x1_S2000x64 (ix2 p q) = _
  rw [pay2_apply, Cert.LibColumnReads.broadcastTo_a1_ab_apply v0 broadcasts_S2000x1_S2000x64 p q]

/-- The unit rows of the whole table, in the host's spelling: the row normalisation of (raw sums ⊙ factor column). -/
abbrev unitRows (c : Dev nD) : FVec Ideal S100000x64 .f32 :=
  hostNormalize (mulf (F := Ideal) (φ := .f32) (raw V c) (broadcastInDim S100000x64 ![0, 1] hb1 (fac V c))) 0x2B8CBCCC#32 h' hu hb0 hbs hb1

/-- The first result as a whole array: the running embedding plus the unit rows times the weight. -/
abbrev accOut (c : Dev nD) : FVec Ideal S100000x64 .f32 :=
  addf (F := Ideal) (φ := .f32) (acc V c) (mulf (F := Ideal) (φ := .f32) (unitRows V h' hu hb0 hbs hb1 c)
    (broadcastInDim S100000x64 ![] hbc (constant (F := Ideal) S_ .f32 0x3F800000#32)))

/-- The second result as a whole array: the unit rows times the factor column. -/
abbrev scaledOut (c : Dev nD) : FVec Ideal S100000x64 .f32 :=
  mulf (F := Ideal) (φ := .f32) (unitRows V h' hu hb0 hbs hb1 c) (broadcastInDim S100000x64 ![0, 1] hb1 (fac V c))

theorem unitRows_apply (c : Dev nD) (n : Fin 100000) (f : Fin 64) :
    unitRows V h' hu hb0 hbs hb1 c (ix2 n f) = unit floorV (fun k => (raw V c) (ix2 n k) * (fac V c) (ix2 n (0 : Fin 1))) f := by
  rw [show unitRows V h' hu hb0 hbs hb1 c (ix2 n f) = _ from hostNormalize_apply _ 0x2B8CBCCC#32 h' hu hb0 hbs hb1 n f]
  congr 1
  funext k
  exact host_scaled_apply (raw V c) (fac V c) hb1 n k

theorem accOut_apply (c : Dev nD) (n : Fin 100000) (f : Fin 64) :
    accOut V h' hu hb0 hbs hb1 hbc c (ix2 n f)
      = (acc V c) (ix2 n f) + unit floorV (fun k => (raw V c) (ix2 n k) * (fac V c) (ix2 n (0 : Fin 1))) f * weightV := by
  show (acc V c) (ix2 n f) + unitRows V h' hu hb0 hbs hb1 c (ix2 n f) * broadcastInDim S100000x64 ![] hbc (constant (F := Ideal) S_ .f32 0x3F800000#32) (ix2 n f) = _
  rw [unitRows_apply, host_splat_apply]

theorem scaledOut_apply (c : Dev nD) (n : Fin 100000) (f : Fin 64) :
    scaledOut V h' hu hb0 hbs hb1 c (ix2 n f)
      = unit floorV (fun k => (raw V c) (ix2 n k) * (fac V c) (ix2 n (0 : Fin 1))) f * (fac V c) (ix2 n (0 : Fin 1)) := by
  rw [show scaledOut V h' hu hb0 hbs hb1 c (ix2 n f) = _ from host_scaled_apply (unitRows V h' hu hb0 hbs hb1 c) (fac V c) hb1 n f, unitRows_apply]

/-- Row `p` of the blocks at point `t`, scaled, is row `2000 t + p` of the tables, scaled. -/
theorem row_eq (c : Dev nD) (t : Fin cfg3.N) (p : Fin 2000) (n : Fin 100000) (hn : n.val = 2000 * t.val + p.val) :
    (fun k : Fin 64 => (blk0 V c t) (ix2 p k) * (blk1 V c t) (ix2 p (0 : Fin 1)))
      = fun k : Fin 64 => (raw V c) (ix2 n k) * (fac V c) (ix2 n (0 : Fin 1)) :=
  funext fun k => by
    rw [show (blk0 V c t) (ix2 p k) = (raw V c) (ix2 n k) from iblk_raw V c t (ix2 p k) (ix2 n k) hn rfl,
      show (blk1 V c t) (ix2 p (0 : Fin 1)) = (fac V c) (ix2 n (0 : Fin 1)) from iblk_factor V c t (ix2 p (0 : Fin 1)) (ix2 n (0 : Fin 1)) hn rfl]

/-- What point `t` writes back of the first result is block `t` of it. -/
theorem flushed3_eq (c : Dev nD) (t : Fin cfg3.N) :
    (dat3 V c).flushed 3 t = ((cfg3.win 3).blk t).view.read (Elt Ideal) (accOut V h' hu hb0 hbs hb1 hbc c) := by
  obtain ⟨-, -, -, -, -, -, e0, e1, -, -⟩ := idx_facts t
  have ht : t.val < 50 := by have := t.isLt; have hN : cfg3.N = 50 := N_3; omega
  show (cfg3.win 3).cut (grid3.coords t) ((dat3 V c).after 3 t) = _
  rw [after3_3]
  unfold out3_3
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg3.win 3).blk t).view.emb (ix2 p q) = (ix2 (⟨2000 * t.val + p.val, by omega⟩ : Fin 100000) q : S100000x64.Idx) := by
    funext a
    apply Fin.ext
    match a with
    | ⟨0, _⟩ => show win3_3.index t 0 * 2000 + 1 * p.val = 2000 * t.val + p.val; rw [e0]; omega
    | ⟨1, _⟩ => show win3_3.index t 1 * 64 + 1 * q.val = q.val; rw [e1]; omega
  rw [hemb, accOut_apply]
  show k3_pay3 (iblk3 V c 1 t) (iblk3 V c 0 t) (iblk3 V c 2 t) (ix2 p q)
    = (acc V c) (ix2 (⟨2000 * t.val + p.val, by omega⟩ : Fin 100000) q)
      + unit floorV (fun k => (raw V c) (ix2 (⟨2000 * t.val + p.val, by omega⟩ : Fin 100000) k) * (fac V c) (ix2 (⟨2000 * t.val + p.val, by omega⟩ : Fin 100000) (0 : Fin 1))) q * weightV
  rw [pay3_apply, row_eq V c t p (⟨2000 * t.val + p.val, by omega⟩ : Fin 100000) rfl,
    iblk_acc V c t (ix2 p q) (ix2 (⟨2000 * t.val + p.val, by omega⟩ : Fin 100000) q) rfl rfl]

/-- What point `t` writes back of the second result is block `t` of it. -/
theorem flushed4_eq (c : Dev nD) (t : Fin cfg3.N) :
    (dat3 V c).flushed 4 t = ((cfg3.win 4).blk t).view.read (Elt Ideal) (scaledOut V h' hu hb0 hbs hb1 c) := by
  obtain ⟨-, -, -, -, -, -, -, -, e0, e1⟩ := idx_facts t
  have ht : t.val < 50 := by have := t.isLt; have hN : cfg3.N = 50 := N_3; omega
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg3.win 4).blk t).view.emb (ix2 p q) = (ix2 (⟨2000 * t.val + p.val, by omega⟩ : Fin 100000) q : S100000x64.Idx) := by
    funext a
    apply Fin.ext
    match a with
    | ⟨0, _⟩ => show win3_4.index t 0 * 2000 + 1 * p.val = 2000 * t.val + p.val; rw [e0]; omega
    | ⟨1, _⟩ => show win3_4.index t 1 * 64 + 1 * q.val = q.val; rw [e1]; omega
  rw [hemb, scaledOut_apply]
  show k3_pay4 (iblk3 V c 1 t) (iblk3 V c 0 t) (ix2 p q)
    = unit floorV (fun k => (raw V c) (ix2 (⟨2000 * t.val + p.val, by omega⟩ : Fin 100000) k) * (fac V c) (ix2 (⟨2000 * t.val + p.val, by omega⟩ : Fin 100000) (0 : Fin 1))) q
      * (fac V c) (ix2 (⟨2000 * t.val + p.val, by omega⟩ : Fin 100000) (0 : Fin 1))
  rw [pay4_apply, row_eq V c t p (⟨2000 * t.val + p.val, by omega⟩ : Fin 100000) rfl,
    iblk_factor V c t (ix2 p (0 : Fin 1)) (ix2 (⟨2000 * t.val + p.val, by omega⟩ : Fin 100000) (0 : Fin 1)) rfl rfl]

/-- An index of a result is in point `t`'s block iff each coordinate is in the block's range on its axis. -/
theorem mem_blk3 (c : Dev nD) (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v42_0).slice (win3_3.rect t)).set ↔ _
  rw [View.set_slice_whole, Rect.mem_set_unit]
  exact Iff.rfl
theorem mem_blk4 (c : Dev nD) (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v42_1).slice (win3_4.rect t)).set ↔ _
  rw [View.set_slice_whole, Rect.mem_set_unit]
  exact Iff.rfl

/-- Row `r` lies in the block of the point `r / 2000`: the blocks cover the first result, which is therefore `accOut`. -/
theorem final3 (c : Dev nD) : (dat3 V c).arrAt 3 cfg3.N = accOut V h' hu hb0 hbs hb1 hbc c :=
  (dat3 V c).arrAt_eq_of_cover 3 (accOut V h' hu hb0 hbs hb1 hbc c) (fun t _ => flushed3_eq V h' hu hb0 hbs hb1 hbc c t) fun (i : S100000x64.Idx) => by
    have hi0 : (i 0).val < 100000 := (i 0).isLt
    have hi1 : (i 1).val < 64 := (i 1).isLt
    have hN : cfg3.N = 50 := N_3
    have ht0 : (i 0).val / 2000 < cfg3.N := by rw [hN]; omega
    obtain ⟨-, -, -, -, -, -, e0, e1, -, -⟩ := idx_facts ⟨(i 0).val / 2000, ht0⟩
    refine ⟨⟨(i 0).val / 2000, ht0⟩, flush3_3 _, ?_⟩
    rw [mem_blk3 c ⟨(i 0).val / 2000, ht0⟩ i]
    intro a
    match a with
    | ⟨0, _⟩ => show win3_3.index ⟨(i 0).val / 2000, ht0⟩ 0 * 2000 ≤ (i 0).val ∧ (i 0).val < win3_3.index ⟨(i 0).val / 2000, ht0⟩ 0 * 2000 + 2000; rw [e0]; show (i 0).val / 2000 * 2000 ≤ (i 0).val ∧ (i 0).val < (i 0).val / 2000 * 2000 + 2000; omega
    | ⟨1, _⟩ => show win3_3.index ⟨(i 0).val / 2000, ht0⟩ 1 * 64 ≤ (i 1).val ∧ (i 1).val < win3_3.index ⟨(i 0).val / 2000, ht0⟩ 1 * 64 + 64; rw [e1]; omega

/-- The same cover for the second result, which is therefore `scaledOut`. -/
theorem final4 (c : Dev nD) : (dat3 V c).arrAt 4 cfg3.N = scaledOut V h' hu hb0 hbs hb1 c :=
  (dat3 V c).arrAt_eq_of_cover 4 (scaledOut V h' hu hb0 hbs hb1 c) (fun t _ => flushed4_eq V h' hu hb0 hbs hb1 c t) fun (i : S100000x64.Idx) => by
    have hi0 : (i 0).val < 100000 := (i 0).isLt
    have hi1 : (i 1).val < 64 := (i 1).isLt
    have hN : cfg3.N = 50 := N_3
    have ht0 : (i 0).val / 2000 < cfg3.N := by rw [hN]; omega
    obtain ⟨-, -, -, -, -, -, -, -, e0, e1⟩ := idx_facts ⟨(i 0).val / 2000, ht0⟩
    refine ⟨⟨(i 0).val / 2000, ht0⟩, flush3_4 _, ?_⟩
    rw [mem_blk4 c ⟨(i 0).val / 2000, ht0⟩ i]
    intro a
    match a with
    | ⟨0, _⟩ => show win3_4.index ⟨(i 0).val / 2000, ht0⟩ 0 * 2000 ≤ (i 0).val ∧ (i 0).val < win3_4.index ⟨(i 0).val / 2000, ht0⟩ 0 * 2000 + 2000; rw [e0]; show (i 0).val / 2000 * 2000 ≤ (i 0).val ∧ (i 0).val < (i 0).val / 2000 * 2000 + 2000; omega
    | ⟨1, _⟩ => show win3_4.index ⟨(i 0).val / 2000, ht0⟩ 1 * 64 ≤ (i 1).val ∧ (i 1).val < win3_4.index ⟨(i 0).val / 2000, ht0⟩ 1 * 64 + 64; rw [e1]; omega

end Cert.KernelIdeal.Region3

end
-- ==== Proof.Region4.lean ====
/-
  One launch of the normalise-and-accumulate kernel, read as two whole arrays.

  The grid walks the node table in blocks of 2000 rows. At block `t` the body scales row `p` of the raw neighbour sums
  by the node's own factor, divides the row by the larger of its Euclidean length and a small floor, and stores two
  things: the running embedding plus the unit row times the layer's weight, and the unit row times the node's factor
  again. A row of a block is row `2000 t + p` of every table involved, a row of the result depends on that row alone,
  and the blocks cover the tables; so both results are the host's own spellings — the row normalisation of (raw sums ⊙
  factor column), then the weighted accumulation, respectively the product with the factor column.
-/
import proofs.«158156_j83751862272173_2_alg».proof.Proof.Gen.KernelIdeal.Frame
import proofs.«158156_j83751862272173_2_alg».proof.Proof.LibRowNormalize
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.Lib.RowNormalize

variable (V : (c : Dev nD) → (b : Ref sig .tc) → Buf (Elt Ideal) ((c : Thread nD τ).loc b))
variable (h' : S200000x64.ReducesTo [1] S200000) (hu : 0 < S_.numel) (hb0 : S200000.BroadcastsInDim S200000x1 ![0])
  (hbs : S_.BroadcastsInDim S200000x1 ![]) (hb1 : S200000x1.BroadcastsInDim S200000x64 ![0, 1]) (hbc : S_.BroadcastsInDim S200000x64 ![])

/-- The raw neighbour sums, the factor column and the running embedding as the launch finds them. -/
abbrev raw (c : Dev nD) : FVec Ideal S200000x64 .f32 := V c main_v59
abbrev fac (c : Dev nD) : FVec Ideal S200000x1 .f32 := V c main_v12
abbrev acc (c : Dev nD) : FVec Ideal S200000x64 .f32 := V c main_v41_0

theorem hz : (![0, 0] : Fin 2 → Nat) = fun _ => 0 := funext fun a => by fin_cases a <;> rfl

/-- The raw sums' and the factor column's blocks at point `t`. -/
abbrev blk0 (c : Dev nD) (t : Fin cfg4.N) : Vec Ideal S2000x64 .f32 := iblk4 V c 0 t
abbrev blk1 (c : Dev nD) (t : Fin cfg4.N) : Vec Ideal S2000x1 .f32 := iblk4 V c 1 t

/-- All five index maps send point `t` to block row `t`, block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The raw sums' block at point `t` is rows `2000 t …` of the raw sums. -/
theorem iblk_raw (c : Dev nD) (t : Fin cfg4.N) (x : S2000x64.Idx) (k : S200000x64.Idx)
    (hk0 : (k 0).val = 2000 * t.val + (x 0).val) (hk1 : (k 1).val = (x 1).val) :
    (iblk4 V c 0 t : Vec Ideal S2000x64 .f32) x = (raw V c) k := by
  obtain ⟨e0, e1, -⟩ := idx_facts t
  unfold iblk4
  rw [View.read_apply]
  show V c main_v59 _ = V c main_v59 _
  congr 1
  funext a
  apply Fin.ext
  match a with
  | ⟨0, _⟩ => show win4_0.index t 0 * 2000 + 1 * (x 0).val = (k 0).val; rw [e0, hk0]; omega
  | ⟨1, _⟩ => show win4_0.index t 1 * 64 + 1 * (x 1).val = (k 1).val; rw [e1, hk1]; omega

/-- The factor column's block at point `t` is rows `2000 t …` of the column. -/
theorem iblk_factor (c : Dev nD) (t : Fin cfg4.N) (x : S2000x1.Idx) (k : S200000x1.Idx)
    (hk0 : (k 0).val = 2000 * t.val + (x 0).val) (hk1 : (k 1).val = (x 1).val) :
    (iblk4 V c 1 t : Vec Ideal S2000x1 .f32) x = (fac V c) k := by
  obtain ⟨-, -, e0, e1, -⟩ := idx_facts t
  unfold iblk4
  rw [View.read_apply]
  show V c main_v12 _ = V c main_v12 _
  congr 1
  funext a
  apply Fin.ext
  match a with
  | ⟨0, _⟩ => show win4_1.index t 0 * 2000 + 1 * (x 0).val = (k 0).val; rw [e0, hk0]; omega
  | ⟨1, _⟩ => show win4_1.index t 1 * 1 + 1 * (x 1).val = (k 1).val; rw [e1, hk1]; omega

/-- The running embedding's block at point `t` is rows `2000 t …` of it. -/
theorem iblk_acc (c : Dev nD) (t : Fin cfg4.N) (x : S2000x64.Idx) (k : S200000x64.Idx)
    (hk0 : (k 0).val = 2000 * t.val + (x 0).val) (hk1 : (k 1).val = (x 1).val) :
    (iblk4 V c 2 t : Vec Ideal S2000x64 .f32) x = (acc V c) k := by
  obtain ⟨-, -, -, -, e0, e1, -⟩ := idx_facts t
  unfold iblk4
  rw [View.read_apply]
  show V c main_v41_0 _ = V c main_v41_0 _
  congr 1
  funext a
  apply Fin.ext
  match a with
  | ⟨0, _⟩ => show win4_2.index t 0 * 2000 + 1 * (x 0).val = (k 0).val; rw [e0, hk0]; omega
  | ⟨1, _⟩ => show win4_2.index t 1 * 64 + 1 * (x 1).val = (k 1).val; rw [e1, hk1]; omega

/-- The floor under the row length and the layer's weight, as extended reals. -/
abbrev floorV : EReal := Ideal.ofBits .f32 0x2B8CBCCC#32
abbrev weightV : EReal := Ideal.ofBits .f32 0x3F000000#32

/-- The unit row at row `p`, feature `q` of a block: the scaled row divided by the larger of its length and the floor. -/
theorem pay2_apply (v0 : Vec Ideal S2000x1 .f32) (v2 : Vec Ideal S2000x64 .f32) (p : Fin 2000) (q : Fin 64) :
    k4_pay2 v0 v2 (ix2 p q) = unit floorV (fun k => v2 (ix2 p k) * v0 (ix2 p (0 : Fin 1))) q := by
  unfold k4_pay2 k4_pay1
  simp only [shapeCast_self]
  exact vectorNormalize_apply v2 v0 0x2B8CBCCC#32 _ _ _ _ _ _ p q

/-- The first stored value: the running embedding plus the unit row times the weight. -/
theorem pay3_apply (v0 : Vec Ideal S2000x1 .f32) (v2 v14 : Vec Ideal S2000x64 .f32) (p : Fin 2000) (q : Fin 64) :
    k4_pay3 v0 v2 v14 (ix2 p q) = v14 (ix2 p q) + unit floorV (fun k => v2 (ix2 p k) * v0 (ix2 p (0 : Fin 1))) q * weightV := by
  unfold k4_pay3
  try simp only [shapeCast_self]
  show v14 (ix2 p q) + k4_pay2 v0 v2 (ix2 p q) * broadcast S2000x64 (Scalar.ofBits (F := Ideal) .f32 0x3F000000#32) (ix2 p q) = _
  rw [pay2_apply, vector_splat_apply]

/-- The second stored value: the unit row times the node's factor. -/
theorem pay4_apply (v0 : Vec Ideal S2000x1 .f32) (v2 : Vec Ideal S2000x64 .f32) (p : Fin 2000) (q : Fin 64) :
    k4_pay4 v0 v2 (ix2 p q) = unit floorV (fun k => v2 (ix2 p k) * v0 (ix2 p (0 : Fin 1))) q * v0 (ix2 p (0 : Fin 1)) := by
  unfold k4_pay4 k4_pay1
  simp only [shapeCast_self]
  show k4_pay2 v0 v2 (ix2 p q) * broadcastTo S2000x64 v0 broadcasts_S2000x1_S2000x64 (ix2 p q) = _
  rw [pay2_apply, Cert.LibColumnReads.broadcastTo_a1_ab_apply v0 broadcasts_S2000x1_S2000x64 p q]

/-- The unit rows of the whole table, in the host's spelling: the row normalisation of (raw sums ⊙ factor column). -/
abbrev unitRows (c : Dev nD) : FVec Ideal S200000x64 .f32 :=
  hostNormalize (mulf (F := Ideal) (φ := .f32) (raw V c) (broadcastInDim S200000x64 ![0, 1] hb1 (fac V c))) 0x2B8CBCCC#32 h' hu hb0 hbs hb1

/-- The first result as a whole array: the running embedding plus the unit rows times the weight. -/
abbrev accOut (c : Dev nD) : FVec Ideal S200000x64 .f32 :=
  addf (F := Ideal) (φ := .f32) (acc V c) (mulf (F := Ideal) (φ := .f32) (unitRows V h' hu hb0 hbs hb1 c)
    (broadcastInDim S200000x64 ![] hbc (constant (F := Ideal) S_ .f32 0x3F000000#32)))

/-- The second result as a whole array: the unit rows times the factor column. -/
abbrev scaledOut (c : Dev nD) : FVec Ideal S200000x64 .f32 :=
  mulf (F := Ideal) (φ := .f32) (unitRows V h' hu hb0 hbs hb1 c) (broadcastInDim S200000x64 ![0, 1] hb1 (fac V c))

theorem unitRows_apply (c : Dev nD) (n : Fin 200000) (f : Fin 64) :
    unitRows V h' hu hb0 hbs hb1 c (ix2 n f) = unit floorV (fun k => (raw V c) (ix2 n k) * (fac V c) (ix2 n (0 : Fin 1))) f := by
  rw [show unitRows V h' hu hb0 hbs hb1 c (ix2 n f) = _ from hostNormalize_apply _ 0x2B8CBCCC#32 h' hu hb0 hbs hb1 n f]
  congr 1
  funext k
  exact host_scaled_apply (raw V c) (fac V c) hb1 n k

theorem accOut_apply (c : Dev nD) (n : Fin 200000) (f : Fin 64) :
    accOut V h' hu hb0 hbs hb1 hbc c (ix2 n f)
      = (acc V c) (ix2 n f) + unit floorV (fun k => (raw V c) (ix2 n k) * (fac V c) (ix2 n (0 : Fin 1))) f * weightV := by
  show (acc V c) (ix2 n f) + unitRows V h' hu hb0 hbs hb1 c (ix2 n f) * broadcastInDim S200000x64 ![] hbc (constant (F := Ideal) S_ .f32 0x3F000000#32) (ix2 n f) = _
  rw [unitRows_apply, host_splat_apply]

theorem scaledOut_apply (c : Dev nD) (n : Fin 200000) (f : Fin 64) :
    scaledOut V h' hu hb0 hbs hb1 c (ix2 n f)
      = unit floorV (fun k => (raw V c) (ix2 n k) * (fac V c) (ix2 n (0 : Fin 1))) f * (fac V c) (ix2 n (0 : Fin 1)) := by
  rw [show scaledOut V h' hu hb0 hbs hb1 c (ix2 n f) = _ from host_scaled_apply (unitRows V h' hu hb0 hbs hb1 c) (fac V c) hb1 n f, unitRows_apply]

/-- Row `p` of the blocks at point `t`, scaled, is row `2000 t + p` of the tables, scaled. -/
theorem row_eq (c : Dev nD) (t : Fin cfg4.N) (p : Fin 2000) (n : Fin 200000) (hn : n.val = 2000 * t.val + p.val) :
    (fun k : Fin 64 => (blk0 V c t) (ix2 p k) * (blk1 V c t) (ix2 p (0 : Fin 1)))
      = fun k : Fin 64 => (raw V c) (ix2 n k) * (fac V c) (ix2 n (0 : Fin 1)) :=
  funext fun k => by
    rw [show (blk0 V c t) (ix2 p k) = (raw V c) (ix2 n k) from iblk_raw V c t (ix2 p k) (ix2 n k) hn rfl,
      show (blk1 V c t) (ix2 p (0 : Fin 1)) = (fac V c) (ix2 n (0 : Fin 1)) from iblk_factor V c t (ix2 p (0 : Fin 1)) (ix2 n (0 : Fin 1)) hn rfl]

/-- What point `t` writes back of the first result is block `t` of it. -/
theorem flushed3_eq (c : Dev nD) (t : Fin cfg4.N) :
    (dat4 V c).flushed 3 t = ((cfg4.win 3).blk t).view.read (Elt Ideal) (accOut V h' hu hb0 hbs hb1 hbc c) := by
  obtain ⟨-, -, -, -, -, -, e0, e1, -, -⟩ := idx_facts t
  have ht : t.val < 100 := by have := t.isLt; have hN : cfg4.N = 100 := N_4; omega
  show (cfg4.win 3).cut (grid4.coords t) ((dat4 V c).after 3 t) = _
  rw [after4_3]
  unfold out4_3
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg4.win 3).blk t).view.emb (ix2 p q) = (ix2 (⟨2000 * t.val + p.val, by omega⟩ : Fin 200000) q : S200000x64.Idx) := by
    funext a
    apply Fin.ext
    match a with
    | ⟨0, _⟩ => show win4_3.index t 0 * 2000 + 1 * p.val = 2000 * t.val + p.val; rw [e0]; omega
    | ⟨1, _⟩ => show win4_3.index t 1 * 64 + 1 * q.val = q.val; rw [e1]; omega
  rw [hemb, accOut_apply]
  show k4_pay3 (iblk4 V c 1 t) (iblk4 V c 0 t) (iblk4 V c 2 t) (ix2 p q)
    = (acc V c) (ix2 (⟨2000 * t.val + p.val, by omega⟩ : Fin 200000) q)
      + unit floorV (fun k => (raw V c) (ix2 (⟨2000 * t.val + p.val, by omega⟩ : Fin 200000) k) * (fac V c) (ix2 (⟨2000 * t.val + p.val, by omega⟩ : Fin 200000) (0 : Fin 1))) q * weightV
  rw [pay3_apply, row_eq V c t p (⟨2000 * t.val + p.val, by omega⟩ : Fin 200000) rfl,
    iblk_acc V c t (ix2 p q) (ix2 (⟨2000 * t.val + p.val, by omega⟩ : Fin 200000) q) rfl rfl]

/-- What point `t` writes back of the second result is block `t` of it. -/
theorem flushed4_eq (c : Dev nD) (t : Fin cfg4.N) :
    (dat4 V c).flushed 4 t = ((cfg4.win 4).blk t).view.read (Elt Ideal) (scaledOut V h' hu hb0 hbs hb1 c) := by
  obtain ⟨-, -, -, -, -, -, -, -, e0, e1⟩ := idx_facts t
  have ht : t.val < 100 := by have := t.isLt; have hN : cfg4.N = 100 := N_4; omega
  show (cfg4.win 4).cut (grid4.coords t) ((dat4 V c).after 4 t) = _
  rw [after4_4]
  unfold out4_4
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg4.win 4).blk t).view.emb (ix2 p q) = (ix2 (⟨2000 * t.val + p.val, by omega⟩ : Fin 200000) q : S200000x64.Idx) := by
    funext a
    apply Fin.ext
    match a with
    | ⟨0, _⟩ => show win4_4.index t 0 * 2000 + 1 * p.val = 2000 * t.val + p.val; rw [e0]; omega
    | ⟨1, _⟩ => show win4_4.index t 1 * 64 + 1 * q.val = q.val; rw [e1]; omega
  rw [hemb, scaledOut_apply]
  show k4_pay4 (iblk4 V c 1 t) (iblk4 V c 0 t) (ix2 p q)
    = unit floorV (fun k => (raw V c) (ix2 (⟨2000 * t.val + p.val, by omega⟩ : Fin 200000) k) * (fac V c) (ix2 (⟨2000 * t.val + p.val, by omega⟩ : Fin 200000) (0 : Fin 1))) q
      * (fac V c) (ix2 (⟨2000 * t.val + p.val, by omega⟩ : Fin 200000) (0 : Fin 1))
  rw [pay4_apply, row_eq V c t p (⟨2000 * t.val + p.val, by omega⟩ : Fin 200000) rfl,
    iblk_factor V c t (ix2 p (0 : Fin 1)) (ix2 (⟨2000 * t.val + p.val, by omega⟩ : Fin 200000) (0 : Fin 1)) rfl rfl]

/-- An index of a result is in point `t`'s block iff each coordinate is in the block's range on its axis. -/
theorem mem_blk3 (c : Dev nD) (t : Fin cfg4.N) (i : S200000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v63_0).slice (win4_3.rect t)).set ↔ _
  rw [View.set_slice_whole, Rect.mem_set_unit]
  exact Iff.rfl
theorem mem_blk4 (c : Dev nD) (t : Fin cfg4.N) (i : S200000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v63_1).slice (win4_4.rect t)).set ↔ _
  rw [View.set_slice_whole, Rect.mem_set_unit]
  exact Iff.rfl

/-- Row `r` lies in the block of the point `r / 2000`: the blocks cover the first result, which is therefore `accOut`. -/
theorem final3 (c : Dev nD) : (dat4 V c).arrAt 3 cfg4.N = accOut V h' hu hb0 hbs hb1 hbc c :=
  (dat4 V c).arrAt_eq_of_cover 3 (accOut V h' hu hb0 hbs hb1 hbc c) (fun t _ => flushed3_eq V h' hu hb0 hbs hb1 hbc c t) fun (i : S200000x64.Idx) => by
    have hi0 : (i 0).val < 200000 := (i 0).isLt
    have hi1 : (i 1).val < 64 := (i 1).isLt
    have hN : cfg4.N = 100 := N_4
    have ht0 : (i 0).val / 2000 < cfg4.N := by rw [hN]; omega
    obtain ⟨-, -, -, -, -, -, e0, e1, -, -⟩ := idx_facts ⟨(i 0).val / 2000, ht0⟩
    refine ⟨⟨(i 0).val / 2000, ht0⟩, flush4_3 _, ?_⟩
    rw [mem_blk3 c ⟨(i 0).val / 2000, ht0⟩ i]
    intro a
    match a with
    | ⟨0, _⟩ => show win4_3.index ⟨(i 0).val / 2000, ht0⟩ 0 * 2000 ≤ (i 0).val ∧ (i 0).val < win4_3.index ⟨(i 0).val / 2000, ht0⟩ 0 * 2000 + 2000; rw [e0]; show (i 0).val / 2000 * 2000 ≤ (i 0).val ∧ (i 0).val < (i 0).val / 2000 * 2000 + 2000; omega
    | ⟨1, _⟩ => show win4_3.index ⟨(i 0).val / 2000, ht0⟩ 1 * 64 ≤ (i 1).val ∧ (i 1).val < win4_3.index ⟨(i 0).val / 2000, ht0⟩ 1 * 64 + 64; rw [e1]; omega

/-- The same cover for the second result, which is therefore `scaledOut`. -/
theorem final4 (c : Dev nD) : (dat4 V c).arrAt 4 cfg4.N = scaledOut V h' hu hb0 hbs hb1 c :=
  (dat4 V c).arrAt_eq_of_cover 4 (scaledOut V h' hu hb0 hbs hb1 c) (fun t _ => flushed4_eq V h' hu hb0 hbs hb1 c t) fun (i : S200000x64.Idx) => by
    have hi0 : (i 0).val < 200000 := (i 0).isLt
    have hi1 : (i 1).val < 64 := (i 1).isLt
    have hN : cfg4.N = 100 := N_4
    have ht0 : (i 0).val / 2000 < cfg4.N := by rw [hN]; omega
    obtain ⟨-, -, -, -, -, -, -, -, e0, e1⟩ := idx_facts ⟨(i 0).val / 2000, ht0⟩
    refine ⟨⟨(i 0).val / 2000, ht0⟩, flush4_4 _, ?_⟩
    rw [mem_blk4 c ⟨(i 0).val / 2000, ht0⟩ i]
    intro a
    match a with
    | ⟨0, _⟩ => show win4_4.index ⟨(i 0).val / 2000, ht0⟩ 0 * 2000 ≤ (i 0).val ∧ (i 0).val < win4_4.index ⟨(i 0).val / 2000, ht0⟩ 0 * 2000 + 2000; rw [e0]; show (i 0).val / 2000 * 2000 ≤ (i 0).val ∧ (i 0).val < (i 0).val / 2000 * 2000 + 2000; omega
    | ⟨1, _⟩ => show win4_4.index ⟨(i 0).val / 2000, ht0⟩ 1 * 64 ≤ (i 1).val ∧ (i 1).val < win4_4.index ⟨(i 0).val / 2000, ht0⟩ 1 * 64 + 64; rw [e1]; omega

end Cert.KernelIdeal.Region4

end
-- ==== Proof.Region5.lean ====
/-
  One launch of the normalise-and-accumulate kernel, read as two whole arrays.

  The grid walks the node table in blocks of 2000 rows. At block `t` the body scales row `p` of the raw neighbour sums
  by the node's own factor, divides the row by the larger of its Euclidean length and a small floor, and stores two
  things: the running embedding plus the unit row times the layer's weight, and the unit row times the node's factor
  again. A row of a block is row `2000 t + p` of every table involved, a row of the result depends on that row alone,
  and the blocks cover the tables; so both results are the host's own spellings — the row normalisation of (raw sums ⊙
  factor column), then the weighted accumulation, respectively the product with the factor column.
-/
import proofs.«158156_j83751862272173_2_alg».proof.Proof.Gen.KernelIdeal.Frame
import proofs.«158156_j83751862272173_2_alg».proof.Proof.LibRowNormalize
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen Cert.Lib.RowNormalize

variable (V : (c : Dev nD) → (b : Ref sig .tc) → Buf (Elt Ideal) ((c : Thread nD τ).loc b))
variable (h' : S100000x64.ReducesTo [1] S100000) (hu : 0 < S_.numel) (hb0 : S100000.BroadcastsInDim S100000x1 ![0])
  (hbs : S_.BroadcastsInDim S100000x1 ![]) (hb1 : S100000x1.BroadcastsInDim S100000x64 ![0, 1]) (hbc : S_.BroadcastsInDim S100000x64 ![])

/-- The raw neighbour sums, the factor column and the running embedding as the launch finds them. -/
abbrev raw (c : Dev nD) : FVec Ideal S100000x64 .f32 := V c main_v62
abbrev fac (c : Dev nD) : FVec Ideal S100000x1 .f32 := V c main_v18
abbrev acc (c : Dev nD) : FVec Ideal S100000x64 .f32 := V c main_v42_0

theorem hz : (![0, 0] : Fin 2 → Nat) = fun _ => 0 := funext fun a => by fin_cases a <;> rfl

/-- The raw sums' and the factor column's blocks at point `t`. -/
abbrev blk0 (c : Dev nD) (t : Fin cfg5.N) : Vec Ideal S2000x64 .f32 := iblk5 V c 0 t
abbrev blk1 (c : Dev nD) (t : Fin cfg5.N) : Vec Ideal S2000x1 .f32 := iblk5 V c 1 t

/-- All five index maps send point `t` to block row `t`, block column 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The raw sums' block at point `t` is rows `2000 t …` of the raw sums. -/
theorem iblk_raw (c : Dev nD) (t : Fin cfg5.N) (x : S2000x64.Idx) (k : S100000x64.Idx)
    (hk0 : (k 0).val = 2000 * t.val + (x 0).val) (hk1 : (k 1).val = (x 1).val) :
    (iblk5 V c 0 t : Vec Ideal S2000x64 .f32) x = (raw V c) k := by
  obtain ⟨e0, e1, -⟩ := idx_facts t
  unfold iblk5
  rw [View.read_apply]
  show V c main_v62 _ = V c main_v62 _
  congr 1
  funext a
  apply Fin.ext
  match a with
  | ⟨0, _⟩ => show win5_0.index t 0 * 2000 + 1 * (x 0).val = (k 0).val; rw [e0, hk0]; omega
  | ⟨1, _⟩ => show win5_0.index t 1 * 64 + 1 * (x 1).val = (k 1).val; rw [e1, hk1]; omega

/-- The factor column's block at point `t` is rows `2000 t …` of the column. -/
theorem iblk_factor (c : Dev nD) (t : Fin cfg5.N) (x : S2000x1.Idx) (k : S100000x1.Idx)
    (hk0 : (k 0).val = 2000 * t.val + (x 0).val) (hk1 : (k 1).val = (x 1).val) :
    (iblk5 V c 1 t : Vec Ideal S2000x1 .f32) x = (fac V c) k := by
  obtain ⟨-, -, e0, e1, -⟩ := idx_facts t
  unfold iblk5
  rw [View.read_apply]
  show V c main_v18 _ = V c main_v18 _
  congr 1
  funext a
  apply Fin.ext
  match a with
  | ⟨0, _⟩ => show win5_1.index t 0 * 2000 + 1 * (x 0).val = (k 0).val; rw [e0, hk0]; omega
  | ⟨1, _⟩ => show win5_1.index t 1 * 1 + 1 * (x 1).val = (k 1).val; rw [e1, hk1]; omega

/-- The running embedding's block at point `t` is rows `2000 t …` of it. -/
theorem iblk_acc (c : Dev nD) (t : Fin cfg5.N) (x : S2000x64.Idx) (k : S100000x64.Idx)
    (hk0 : (k 0).val = 2000 * t.val + (x 0).val) (hk1 : (k 1).val = (x 1).val) :
    (iblk5 V c 2 t : Vec Ideal S2000x64 .f32) x = (acc V c) k := by
  obtain ⟨-, -, -, -, e0, e1, -⟩ := idx_facts t
  unfold iblk5
  rw [View.read_apply]
  show V c main_v42_0 _ = V c main_v42_0 _
  congr 1
  funext a
  apply Fin.ext
  match a with
  | ⟨0, _⟩ => show win5_2.index t 0 * 2000 + 1 * (x 0).val = (k 0).val; rw [e0, hk0]; omega
  | ⟨1, _⟩ => show win5_2.index t 1 * 64 + 1 * (x 1).val = (k 1).val; rw [e1, hk1]; omega

/-- The floor under the row length and the layer's weight, as extended reals. -/
abbrev floorV : EReal := Ideal.ofBits .f32 0x2B8CBCCC#32
abbrev weightV : EReal := Ideal.ofBits .f32 0x3F000000#32

/-- The unit row at row `p`, feature `q` of a block: the scaled row divided by the larger of its length and the floor. -/
theorem pay2_apply (v0 : Vec Ideal S2000x1 .f32) (v2 : Vec Ideal S2000x64 .f32) (p : Fin 2000) (q : Fin 64) :
    k5_pay2 v0 v2 (ix2 p q) = unit floorV (fun k => v2 (ix2 p k) * v0 (ix2 p (0 : Fin 1))) q := by
  unfold k5_pay2 k5_pay1
  simp only [shapeCast_self]
  exact vectorNormalize_apply v2 v0 0x2B8CBCCC#32 _ _ _ _ _ _ p q

/-- The first stored value: the running embedding plus the unit row times the weight. -/
theorem pay3_apply (v0 : Vec Ideal S2000x1 .f32) (v2 v14 : Vec Ideal S2000x64 .f32) (p : Fin 2000) (q : Fin 64) :
    k5_pay3 v0 v2 v14 (ix2 p q) = v14 (ix2 p q) + unit floorV (fun k => v2 (ix2 p k) * v0 (ix2 p (0 : Fin 1))) q * weightV := by
  unfold k5_pay3
  try simp only [shapeCast_self]
  show v14 (ix2 p q) + k5_pay2 v0 v2 (ix2 p q) * broadcast S2000x64 (Scalar.ofBits (F := Ideal) .f32 0x3F000000#32) (ix2 p q) = _
  rw [pay2_apply, vector_splat_apply]

/-- The second stored value: the unit row times the node's factor. -/
theorem pay4_apply (v0 : Vec Ideal S2000x1 .f32) (v2 : Vec Ideal S2000x64 .f32) (p : Fin 2000) (q : Fin 64) :
    k5_pay4 v0 v2 (ix2 p q) = unit floorV (fun k => v2 (ix2 p k) * v0 (ix2 p (0 : Fin 1))) q * v0 (ix2 p (0 : Fin 1)) := by
  unfold k5_pay4 k5_pay1
  simp only [shapeCast_self]
  show k5_pay2 v0 v2 (ix2 p q) * broadcastTo S2000x64 v0 broadcasts_S2000x1_S2000x64 (ix2 p q) = _
  rw [pay2_apply, Cert.LibColumnReads.broadcastTo_a1_ab_apply v0 broadcasts_S2000x1_S2000x64 p q]

/-- The unit rows of the whole table, in the host's spelling: the row normalisation of (raw sums ⊙ factor column). -/
abbrev unitRows (c : Dev nD) : FVec Ideal S100000x64 .f32 :=
  hostNormalize (mulf (F := Ideal) (φ := .f32) (raw V c) (broadcastInDim S100000x64 ![0, 1] hb1 (fac V c))) 0x2B8CBCCC#32 h' hu hb0 hbs hb1

/-- The first result as a whole array: the running embedding plus the unit rows times the weight. -/
abbrev accOut (c : Dev nD) : FVec Ideal S100000x64 .f32 :=
  addf (F := Ideal) (φ := .f32) (acc V c) (mulf (F := Ideal) (φ := .f32) (unitRows V h' hu hb0 hbs hb1 c)
    (broadcastInDim S100000x64 ![] hbc (constant (F := Ideal) S_ .f32 0x3F000000#32)))

/-- The second result as a whole array: the unit rows times the factor column. -/
abbrev scaledOut (c : Dev nD) : FVec Ideal S100000x64 .f32 :=
  mulf (F := Ideal) (φ := .f32) (unitRows V h' hu hb0 hbs hb1 c) (broadcastInDim S100000x64 ![0, 1] hb1 (fac V c))

theorem unitRows_apply (c : Dev nD) (n : Fin 100000) (f : Fin 64) :
    unitRows V h' hu hb0 hbs hb1 c (ix2 n f) = unit floorV (fun k => (raw V c) (ix2 n k) * (fac V c) (ix2 n (0 : Fin 1))) f := by
  rw [show unitRows V h' hu hb0 hbs hb1 c (ix2 n f) = _ from hostNormalize_apply _ 0x2B8CBCCC#32 h' hu hb0 hbs hb1 n f]
  congr 1
  funext k
  exact host_scaled_apply (raw V c) (fac V c) hb1 n k

theorem accOut_apply (c : Dev nD) (n : Fin 100000) (f : Fin 64) :
    accOut V h' hu hb0 hbs hb1 hbc c (ix2 n f)
      = (acc V c) (ix2 n f) + unit floorV (fun k => (raw V c) (ix2 n k) * (fac V c) (ix2 n (0 : Fin 1))) f * weightV := by
  show (acc V c) (ix2 n f) + unitRows V h' hu hb0 hbs hb1 c (ix2 n f) * broadcastInDim S100000x64 ![] hbc (constant (F := Ideal) S_ .f32 0x3F000000#32) (ix2 n f) = _
  rw [unitRows_apply, host_splat_apply]

theorem scaledOut_apply (c : Dev nD) (n : Fin 100000) (f : Fin 64) :
    scaledOut V h' hu hb0 hbs hb1 c (ix2 n f)
      = unit floorV (fun k => (raw V c) (ix2 n k) * (fac V c) (ix2 n (0 : Fin 1))) f * (fac V c) (ix2 n (0 : Fin 1)) := by
  rw [show scaledOut V h' hu hb0 hbs hb1 c (ix2 n f) = _ from host_scaled_apply (unitRows V h' hu hb0 hbs hb1 c) (fac V c) hb1 n f, unitRows_apply]

/-- Row `p` of the blocks at point `t`, scaled, is row `2000 t + p` of the tables, scaled. -/
theorem row_eq (c : Dev nD) (t : Fin cfg5.N) (p : Fin 2000) (n : Fin 100000) (hn : n.val = 2000 * t.val + p.val) :
    (fun k : Fin 64 => (blk0 V c t) (ix2 p k) * (blk1 V c t) (ix2 p (0 : Fin 1)))
      = fun k : Fin 64 => (raw V c) (ix2 n k) * (fac V c) (ix2 n (0 : Fin 1)) :=
  funext fun k => by
    rw [show (blk0 V c t) (ix2 p k) = (raw V c) (ix2 n k) from iblk_raw V c t (ix2 p k) (ix2 n k) hn rfl,
      show (blk1 V c t) (ix2 p (0 : Fin 1)) = (fac V c) (ix2 n (0 : Fin 1)) from iblk_factor V c t (ix2 p (0 : Fin 1)) (ix2 n (0 : Fin 1)) hn rfl]

/-- What point `t` writes back of the first result is block `t` of it. -/
theorem flushed3_eq (c : Dev nD) (t : Fin cfg5.N) :
    (dat5 V c).flushed 3 t = ((cfg5.win 3).blk t).view.read (Elt Ideal) (accOut V h' hu hb0 hbs hb1 hbc c) := by
  obtain ⟨-, -, -, -, -, -, e0, e1, -, -⟩ := idx_facts t
  have ht : t.val < 50 := by have := t.isLt; have hN : cfg5.N = 50 := N_5; omega
  show (cfg5.win 3).cut (grid5.coords t) ((dat5 V c).after 3 t) = _
  rw [after5_3]
  unfold out5_3
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg5.win 3).blk t).view.emb (ix2 p q) = (ix2 (⟨2000 * t.val + p.val, by omega⟩ : Fin 100000) q : S100000x64.Idx) := by
    funext a
    apply Fin.ext
    match a with
    | ⟨0, _⟩ => show win5_3.index t 0 * 2000 + 1 * p.val = 2000 * t.val + p.val; rw [e0]; omega
    | ⟨1, _⟩ => show win5_3.index t 1 * 64 + 1 * q.val = q.val; rw [e1]; omega
  rw [hemb, accOut_apply]
  show k5_pay3 (iblk5 V c 1 t) (iblk5 V c 0 t) (iblk5 V c 2 t) (ix2 p q)
    = (acc V c) (ix2 (⟨2000 * t.val + p.val, by omega⟩ : Fin 100000) q)
      + unit floorV (fun k => (raw V c) (ix2 (⟨2000 * t.val + p.val, by omega⟩ : Fin 100000) k) * (fac V c) (ix2 (⟨2000 * t.val + p.val, by omega⟩ : Fin 100000) (0 : Fin 1))) q * weightV
  rw [pay3_apply, row_eq V c t p (⟨2000 * t.val + p.val, by omega⟩ : Fin 100000) rfl,
    iblk_acc V c t (ix2 p q) (ix2 (⟨2000 * t.val + p.val, by omega⟩ : Fin 100000) q) rfl rfl]

/-- What point `t` writes back of the second result is block `t` of it. -/
theorem flushed4_eq (c : Dev nD) (t : Fin cfg5.N) :
    (dat5 V c).flushed 4 t = ((cfg5.win 4).blk t).view.read (Elt Ideal) (scaledOut V h' hu hb0 hbs hb1 c) := by
  obtain ⟨-, -, -, -, -, -, -, -, e0, e1⟩ := idx_facts t
  have ht : t.val < 50 := by have := t.isLt; have hN : cfg5.N = 50 := N_5; omega
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg5.win 4).blk t).view.emb (ix2 p q) = (ix2 (⟨2000 * t.val + p.val, by omega⟩ : Fin 100000) q : S100000x64.Idx) := by
    funext a
    apply Fin.ext
    match a with
    | ⟨0, _⟩ => show win5_4.index t 0 * 2000 + 1 * p.val = 2000 * t.val + p.val; rw [e0]; omega
    | ⟨1, _⟩ => show win5_4.index t 1 * 64 + 1 * q.val = q.val; rw [e1]; omega
  rw [hemb, scaledOut_apply]
  show k5_pay4 (iblk5 V c 1 t) (iblk5 V c 0 t) (ix2 p q)
    = unit floorV (fun k => (raw V c) (ix2 (⟨2000 * t.val + p.val, by omega⟩ : Fin 100000) k) * (fac V c) (ix2 (⟨2000 * t.val + p.val, by omega⟩ : Fin 100000) (0 : Fin 1))) q
      * (fac V c) (ix2 (⟨2000 * t.val + p.val, by omega⟩ : Fin 100000) (0 : Fin 1))
  rw [pay4_apply, row_eq V c t p (⟨2000 * t.val + p.val, by omega⟩ : Fin 100000) rfl,
    iblk_factor V c t (ix2 p (0 : Fin 1)) (ix2 (⟨2000 * t.val + p.val, by omega⟩ : Fin 100000) (0 : Fin 1)) rfl rfl]

/-- An index of a result is in point `t`'s block iff each coordinate is in the block's range on its axis. -/
theorem mem_blk3 (c : Dev nD) (t : Fin cfg5.N) (i : S100000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v64_0).slice (win5_3.rect t)).set ↔ _
  rw [View.set_slice_whole, Rect.mem_set_unit]
  exact Iff.rfl
theorem mem_blk4 (c : Dev nD) (t : Fin cfg5.N) (i : S100000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v64_1).slice (win5_4.rect t)).set ↔ _
  rw [View.set_slice_whole, Rect.mem_set_unit]
  exact Iff.rfl

/-- Row `r` lies in the block of the point `r / 2000`: the blocks cover the first result, which is therefore `accOut`. -/
theorem final3 (c : Dev nD) : (dat5 V c).arrAt 3 cfg5.N = accOut V h' hu hb0 hbs hb1 hbc c :=
  (dat5 V c).arrAt_eq_of_cover 3 (accOut V h' hu hb0 hbs hb1 hbc c) (fun t _ => flushed3_eq V h' hu hb0 hbs hb1 hbc c t) fun (i : S100000x64.Idx) => by
    have hi0 : (i 0).val < 100000 := (i 0).isLt
    have hi1 : (i 1).val < 64 := (i 1).isLt
    have hN : cfg5.N = 50 := N_5
    have ht0 : (i 0).val / 2000 < cfg5.N := by rw [hN]; omega
    obtain ⟨-, -, -, -, -, -, e0, e1, -, -⟩ := idx_facts ⟨(i 0).val / 2000, ht0⟩
    refine ⟨⟨(i 0).val / 2000, ht0⟩, flush5_3 _, ?_⟩
    rw [mem_blk3 c ⟨(i 0).val / 2000, ht0⟩ i]
    intro a
    match a with
    | ⟨0, _⟩ => show win5_3.index ⟨(i 0).val / 2000, ht0⟩ 0 * 2000 ≤ (i 0).val ∧ (i 0).val < win5_3.index ⟨(i 0).val / 2000, ht0⟩ 0 * 2000 + 2000; rw [e0]; show (i 0).val / 2000 * 2000 ≤ (i 0).val ∧ (i 0).val < (i 0).val / 2000 * 2000 + 2000; omega
    | ⟨1, _⟩ => show win5_3.index ⟨(i 0).val / 2000, ht0⟩ 1 * 64 ≤ (i 1).val ∧ (i 1).val < win5_3.index ⟨(i 0).val / 2000, ht0⟩ 1 * 64 + 64; rw [e1]; omega

/-- The same cover for the second result, which is therefore `scaledOut`. -/
theorem final4 (c : Dev nD) : (dat5 V c).arrAt 4 cfg5.N = scaledOut V h' hu hb0 hbs hb1 c :=
  (dat5 V c).arrAt_eq_of_cover 4 (scaledOut V h' hu hb0 hbs hb1 c) (fun t _ => flushed4_eq V h' hu hb0 hbs hb1 c t) fun (i : S100000x64.Idx) => by
    have hi0 : (i 0).val < 100000 := (i 0).isLt
    have hi1 : (i 1).val < 64 := (i 1).isLt
    have hN : cfg5.N = 50 := N_5
    have ht0 : (i 0).val / 2000 < cfg5.N := by rw [hN]; omega
    obtain ⟨-, -, -, -, -, -, -, -, e0, e1⟩ := idx_facts ⟨(i 0).val / 2000, ht0⟩
    refine ⟨⟨(i 0).val / 2000, ht0⟩, flush5_4 _, ?_⟩
    rw [mem_blk4 c ⟨(i 0).val / 2000, ht0⟩ i]
    intro a
    match a with
    | ⟨0, _⟩ => show win5_4.index ⟨(i 0).val / 2000, ht0⟩ 0 * 2000 ≤ (i 0).val ∧ (i 0).val < win5_4.index ⟨(i 0).val / 2000, ht0⟩ 0 * 2000 + 2000; rw [e0]; show (i 0).val / 2000 * 2000 ≤ (i 0).val ∧ (i 0).val < (i 0).val / 2000 * 2000 + 2000; omega
    | ⟨1, _⟩ => show win5_4.index ⟨(i 0).val / 2000, ht0⟩ 1 * 64 ≤ (i 1).val ∧ (i 1).val < win5_4.index ⟨(i 0).val / 2000, ht0⟩ 1 * 64 + 64; rw [e1]; omega

end Cert.KernelIdeal.Region5

end
-- ==== Proof.Region6.lean ====
/-
  One launch of the normalise-and-accumulate kernel, read as two whole arrays.

  The grid walks the node table in blocks of 2000 rows. At block `t` the body scales row `p` of the raw neighbour sums
  by the node's own factor, divides the row by the larger of its Euclidean length and a small floor, and stores two
  things: the running embedding plus the unit row times the layer's weight, and the unit row times the node's factor
  again. A row of a block is row `2000 t + p` of every table involved, a row of the result depends on that row alone,
  and the blocks cover the tables; so both results are the host's own spellings — the row normalisation of (raw sums ⊙
  factor column), then the weighted accumulation, respectively the product with the factor column.
-/
import proofs.«158156_j83751862272173_2_alg».proof.Proof.Gen.KernelIdeal.Frame
import proofs.«158156_j83751862272173_2_alg».proof.Proof.LibRowNormalize
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region6

open Cert.KernelIdeal Cert.KernelIdeal.Gen Cert.Lib.RowNormalize

variable (V : (c : Dev nD) → (b : Ref sig .tc) → Buf (Elt Ideal) ((c : Thread nD τ).loc b))
variable (h' : S200000x64.ReducesTo [1] S200000) (hu : 0 < S_.numel) (hb0 : S200000.BroadcastsInDim S200000x1 ![0])
  (hbs : S_.BroadcastsInDim S200000x1 ![]) (hb1 : S200000x1.BroadcastsInDim S200000x64 ![0, 1]) (hbc : S_.BroadcastsInDim S200000x64 ![])

/-- The raw neighbour sums, the factor column and the running embedding as the launch finds them. -/
abbrev raw (c : Dev nD) : FVec Ideal S200000x64 .f32 := V c main_v81
abbrev fac (c : Dev nD) : FVec Ideal S200000x1 .f32 := V c main_v12
abbrev acc (c : Dev nD) : FVec Ideal S200000x64 .f32 := V c main_v63_0

theorem hz : (![0, 0] : Fin 2 → Nat) = fun _ => 0 := funext fun a => by fin_cases a <;> rfl

/-- The raw sums' and the factor column's blocks at point `t`. -/
abbrev blk0 (c : Dev nD) (t : Fin cfg6.N) : Vec Ideal S2000x64 .f32 := iblk6 V c 0 t
abbrev blk1 (c : Dev nD) (t : Fin cfg6.N) : Vec Ideal S2000x1 .f32 := iblk6 V c 1 t

/-- All five index maps send point `t` to block row `t`, block column 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The raw sums' block at point `t` is rows `2000 t …` of the raw sums. -/
theorem iblk_raw (c : Dev nD) (t : Fin cfg6.N) (x : S2000x64.Idx) (k : S200000x64.Idx)
    (hk0 : (k 0).val = 2000 * t.val + (x 0).val) (hk1 : (k 1).val = (x 1).val) :
    (iblk6 V c 0 t : Vec Ideal S2000x64 .f32) x = (raw V c) k := by
  obtain ⟨e0, e1, -⟩ := idx_facts t
  unfold iblk6
  rw [View.read_apply]
  show V c main_v81 _ = V c main_v81 _
  congr 1
  funext a
  apply Fin.ext
  match a with
  | ⟨0, _⟩ => show win6_0.index t 0 * 2000 + 1 * (x 0).val = (k 0).val; rw [e0, hk0]; omega
  | ⟨1, _⟩ => show win6_0.index t 1 * 64 + 1 * (x 1).val = (k 1).val; rw [e1, hk1]; omega

/-- The factor column's block at point `t` is rows `2000 t …` of the column. -/
theorem iblk_factor (c : Dev nD) (t : Fin cfg6.N) (x : S2000x1.Idx) (k : S200000x1.Idx)
    (hk0 : (k 0).val = 2000 * t.val + (x 0).val) (hk1 : (k 1).val = (x 1).val) :
    (iblk6 V c 1 t : Vec Ideal S2000x1 .f32) x = (fac V c) k := by
  obtain ⟨-, -, e0, e1, -⟩ := idx_facts t
  unfold iblk6
  rw [View.read_apply]
  show V c main_v12 _ = V c main_v12 _
  congr 1
  funext a
  apply Fin.ext
  match a with
  | ⟨0, _⟩ => show win6_1.index t 0 * 2000 + 1 * (x 0).val = (k 0).val; rw [e0, hk0]; omega
  | ⟨1, _⟩ => show win6_1.index t 1 * 1 + 1 * (x 1).val = (k 1).val; rw [e1, hk1]; omega

/-- The running embedding's block at point `t` is rows `2000 t …` of it. -/
theorem iblk_acc (c : Dev nD) (t : Fin cfg6.N) (x : S2000x64.Idx) (k : S200000x64.Idx)
    (hk0 : (k 0).val = 2000 * t.val + (x 0).val) (hk1 : (k 1).val = (x 1).val) :
    (iblk6 V c 2 t : Vec Ideal S2000x64 .f32) x = (acc V c) k := by
  obtain ⟨-, -, -, -, e0, e1, -⟩ := idx_facts t
  unfold iblk6
  rw [View.read_apply]
  show V c main_v63_0 _ = V c main_v63_0 _
  congr 1
  funext a
  apply Fin.ext
  match a with
  | ⟨0, _⟩ => show win6_2.index t 0 * 2000 + 1 * (x 0).val = (k 0).val; rw [e0, hk0]; omega
  | ⟨1, _⟩ => show win6_2.index t 1 * 64 + 1 * (x 1).val = (k 1).val; rw [e1, hk1]; omega

/-- The floor under the row length and the layer's weight, as extended reals. -/
abbrev floorV : EReal := Ideal.ofBits .f32 0x2B8CBCCC#32
abbrev weightV : EReal := Ideal.ofBits .f32 0x3EAAAAAB#32

/-- The unit row at row `p`, feature `q` of a block: the scaled row divided by the larger of its length and the floor. -/
theorem pay2_apply (v0 : Vec Ideal S2000x1 .f32) (v2 : Vec Ideal S2000x64 .f32) (p : Fin 2000) (q : Fin 64) :
    k6_pay2 v0 v2 (ix2 p q) = unit floorV (fun k => v2 (ix2 p k) * v0 (ix2 p (0 : Fin 1))) q := by
  unfold k6_pay2 k6_pay1
  simp only [shapeCast_self]
  exact vectorNormalize_apply v2 v0 0x2B8CBCCC#32 _ _ _ _ _ _ p q

/-- The first stored value: the running embedding plus the unit row times the weight. -/
theorem pay3_apply (v0 : Vec Ideal S2000x1 .f32) (v2 v14 : Vec Ideal S2000x64 .f32) (p : Fin 2000) (q : Fin 64) :
    k6_pay3 v0 v2 v14 (ix2 p q) = v14 (ix2 p q) + unit floorV (fun k => v2 (ix2 p k) * v0 (ix2 p (0 : Fin 1))) q * weightV := by
  unfold k6_pay3
  try simp only [shapeCast_self]
  show v14 (ix2 p q) + k6_pay2 v0 v2 (ix2 p q) * broadcast S2000x64 (Scalar.ofBits (F := Ideal) .f32 0x3EAAAAAB#32) (ix2 p q) = _
  rw [pay2_apply, vector_splat_apply]

/-- The second stored value: the unit row times the node's factor. -/
theorem pay4_apply (v0 : Vec Ideal S2000x1 .f32) (v2 : Vec Ideal S2000x64 .f32) (p : Fin 2000) (q : Fin 64) :
    k6_pay4 v0 v2 (ix2 p q) = unit floorV (fun k => v2 (ix2 p k) * v0 (ix2 p (0 : Fin 1))) q * v0 (ix2 p (0 : Fin 1)) := by
  unfold k6_pay4 k6_pay1
  simp only [shapeCast_self]
  show k6_pay2 v0 v2 (ix2 p q) * broadcastTo S2000x64 v0 broadcasts_S2000x1_S2000x64 (ix2 p q) = _
  rw [pay2_apply, Cert.LibColumnReads.broadcastTo_a1_ab_apply v0 broadcasts_S2000x1_S2000x64 p q]

/-- The unit rows of the whole table, in the host's spelling: the row normalisation of (raw sums ⊙ factor column). -/
abbrev unitRows (c : Dev nD) : FVec Ideal S200000x64 .f32 :=
  hostNormalize (mulf (F := Ideal) (φ := .f32) (raw V c) (broadcastInDim S200000x64 ![0, 1] hb1 (fac V c))) 0x2B8CBCCC#32 h' hu hb0 hbs hb1

/-- The first result as a whole array: the running embedding plus the unit rows times the weight. -/
abbrev accOut (c : Dev nD) : FVec Ideal S200000x64 .f32 :=
  addf (F := Ideal) (φ := .f32) (acc V c) (mulf (F := Ideal) (φ := .f32) (unitRows V h' hu hb0 hbs hb1 c)
    (broadcastInDim S200000x64 ![] hbc (constant (F := Ideal) S_ .f32 0x3EAAAAAB#32)))

/-- The second result as a whole array: the unit rows times the factor column. -/
abbrev scaledOut (c : Dev nD) : FVec Ideal S200000x64 .f32 :=
  mulf (F := Ideal) (φ := .f32) (unitRows V h' hu hb0 hbs hb1 c) (broadcastInDim S200000x64 ![0, 1] hb1 (fac V c))

theorem unitRows_apply (c : Dev nD) (n : Fin 200000) (f : Fin 64) :
    unitRows V h' hu hb0 hbs hb1 c (ix2 n f) = unit floorV (fun k => (raw V c) (ix2 n k) * (fac V c) (ix2 n (0 : Fin 1))) f := by
  rw [show unitRows V h' hu hb0 hbs hb1 c (ix2 n f) = _ from hostNormalize_apply _ 0x2B8CBCCC#32 h' hu hb0 hbs hb1 n f]
  congr 1
  funext k
  exact host_scaled_apply (raw V c) (fac V c) hb1 n k

theorem accOut_apply (c : Dev nD) (n : Fin 200000) (f : Fin 64) :
    accOut V h' hu hb0 hbs hb1 hbc c (ix2 n f)
      = (acc V c) (ix2 n f) + unit floorV (fun k => (raw V c) (ix2 n k) * (fac V c) (ix2 n (0 : Fin 1))) f * weightV := by
  show (acc V c) (ix2 n f) + unitRows V h' hu hb0 hbs hb1 c (ix2 n f) * broadcastInDim S200000x64 ![] hbc (constant (F := Ideal) S_ .f32 0x3EAAAAAB#32) (ix2 n f) = _
  rw [unitRows_apply, host_splat_apply]

theorem scaledOut_apply (c : Dev nD) (n : Fin 200000) (f : Fin 64) :
    scaledOut V h' hu hb0 hbs hb1 c (ix2 n f)
      = unit floorV (fun k => (raw V c) (ix2 n k) * (fac V c) (ix2 n (0 : Fin 1))) f * (fac V c) (ix2 n (0 : Fin 1)) := by
  rw [show scaledOut V h' hu hb0 hbs hb1 c (ix2 n f) = _ from host_scaled_apply (unitRows V h' hu hb0 hbs hb1 c) (fac V c) hb1 n f, unitRows_apply]

/-- Row `p` of the blocks at point `t`, scaled, is row `2000 t + p` of the tables, scaled. -/
theorem row_eq (c : Dev nD) (t : Fin cfg6.N) (p : Fin 2000) (n : Fin 200000) (hn : n.val = 2000 * t.val + p.val) :
    (fun k : Fin 64 => (blk0 V c t) (ix2 p k) * (blk1 V c t) (ix2 p (0 : Fin 1)))
      = fun k : Fin 64 => (raw V c) (ix2 n k) * (fac V c) (ix2 n (0 : Fin 1)) :=
  funext fun k => by
    rw [show (blk0 V c t) (ix2 p k) = (raw V c) (ix2 n k) from iblk_raw V c t (ix2 p k) (ix2 n k) hn rfl,
      show (blk1 V c t) (ix2 p (0 : Fin 1)) = (fac V c) (ix2 n (0 : Fin 1)) from iblk_factor V c t (ix2 p (0 : Fin 1)) (ix2 n (0 : Fin 1)) hn rfl]

/-- What point `t` writes back of the first result is block `t` of it. -/
theorem flushed3_eq (c : Dev nD) (t : Fin cfg6.N) :
    (dat6 V c).flushed 3 t = ((cfg6.win 3).blk t).view.read (Elt Ideal) (accOut V h' hu hb0 hbs hb1 hbc c) := by
  obtain ⟨-, -, -, -, -, -, e0, e1, -, -⟩ := idx_facts t
  have ht : t.val < 100 := by have := t.isLt; have hN : cfg6.N = 100 := N_6; omega
  show (cfg6.win 3).cut (grid6.coords t) ((dat6 V c).after 3 t) = _
  rw [after6_3]
  unfold out6_3
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg6.win 3).blk t).view.emb (ix2 p q) = (ix2 (⟨2000 * t.val + p.val, by omega⟩ : Fin 200000) q : S200000x64.Idx) := by
    funext a
    apply Fin.ext
    match a with
    | ⟨0, _⟩ => show win6_3.index t 0 * 2000 + 1 * p.val = 2000 * t.val + p.val; rw [e0]; omega
    | ⟨1, _⟩ => show win6_3.index t 1 * 64 + 1 * q.val = q.val; rw [e1]; omega
  rw [hemb, accOut_apply]
  show k6_pay3 (iblk6 V c 1 t) (iblk6 V c 0 t) (iblk6 V c 2 t) (ix2 p q)
    = (acc V c) (ix2 (⟨2000 * t.val + p.val, by omega⟩ : Fin 200000) q)
      + unit floorV (fun k => (raw V c) (ix2 (⟨2000 * t.val + p.val, by omega⟩ : Fin 200000) k) * (fac V c) (ix2 (⟨2000 * t.val + p.val, by omega⟩ : Fin 200000) (0 : Fin 1))) q * weightV
  rw [pay3_apply, row_eq V c t p (⟨2000 * t.val + p.val, by omega⟩ : Fin 200000) rfl,
    iblk_acc V c t (ix2 p q) (ix2 (⟨2000 * t.val + p.val, by omega⟩ : Fin 200000) q) rfl rfl]

/-- What point `t` writes back of the second result is block `t` of it. -/
theorem flushed4_eq (c : Dev nD) (t : Fin cfg6.N) :
    (dat6 V c).flushed 4 t = ((cfg6.win 4).blk t).view.read (Elt Ideal) (scaledOut V h' hu hb0 hbs hb1 c) := by
  obtain ⟨-, -, -, -, -, -, -, -, e0, e1⟩ := idx_facts t
  have ht : t.val < 100 := by have := t.isLt; have hN : cfg6.N = 100 := N_6; omega
  show (cfg6.win 4).cut (grid6.coords t) ((dat6 V c).after 4 t) = _
  rw [after6_4]
  unfold out6_4
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg6.win 4).blk t).view.emb (ix2 p q) = (ix2 (⟨2000 * t.val + p.val, by omega⟩ : Fin 200000) q : S200000x64.Idx) := by
    funext a
    apply Fin.ext
    match a with
    | ⟨0, _⟩ => show win6_4.index t 0 * 2000 + 1 * p.val = 2000 * t.val + p.val; rw [e0]; omega
    | ⟨1, _⟩ => show win6_4.index t 1 * 64 + 1 * q.val = q.val; rw [e1]; omega
  rw [hemb, scaledOut_apply]
  show k6_pay4 (iblk6 V c 1 t) (iblk6 V c 0 t) (ix2 p q)
    = unit floorV (fun k => (raw V c) (ix2 (⟨2000 * t.val + p.val, by omega⟩ : Fin 200000) k) * (fac V c) (ix2 (⟨2000 * t.val + p.val, by omega⟩ : Fin 200000) (0 : Fin 1))) q
      * (fac V c) (ix2 (⟨2000 * t.val + p.val, by omega⟩ : Fin 200000) (0 : Fin 1))
  rw [pay4_apply, row_eq V c t p (⟨2000 * t.val + p.val, by omega⟩ : Fin 200000) rfl,
    iblk_factor V c t (ix2 p (0 : Fin 1)) (ix2 (⟨2000 * t.val + p.val, by omega⟩ : Fin 200000) (0 : Fin 1)) rfl rfl]

/-- An index of a result is in point `t`'s block iff each coordinate is in the block's range on its axis. -/
theorem mem_blk3 (c : Dev nD) (t : Fin cfg6.N) (i : S200000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole main_v85_0).slice (win6_3.rect t)).set ↔ _
  rw [View.set_slice_whole, Rect.mem_set_unit]
  exact Iff.rfl
theorem mem_blk4 (c : Dev nD) (t : Fin cfg6.N) (i : S200000x64.Idx) :
    i ∈ ((cfg6.win 4).blk t).view.set ↔ ∀ a : Fin 2, win6_4.index t a * S2000x64.size a ≤ (i a).val ∧ (i a).val < win6_4.index t a * S2000x64.size a + S2000x64.size a := by
  show i ∈ ((View.whole main_v85_1).slice (win6_4.rect t)).set ↔ _
  rw [View.set_slice_whole, Rect.mem_set_unit]
  exact Iff.rfl

/-- Row `r` lies in the block of the point `r / 2000`: the blocks cover the first result, which is therefore `accOut`. -/
theorem final3 (c : Dev nD) : (dat6 V c).arrAt 3 cfg6.N = accOut V h' hu hb0 hbs hb1 hbc c :=
  (dat6 V c).arrAt_eq_of_cover 3 (accOut V h' hu hb0 hbs hb1 hbc c) (fun t _ => flushed3_eq V h' hu hb0 hbs hb1 hbc c t) fun (i : S200000x64.Idx) => by
    have hi0 : (i 0).val < 200000 := (i 0).isLt
    have hi1 : (i 1).val < 64 := (i 1).isLt
    have hN : cfg6.N = 100 := N_6
    have ht0 : (i 0).val / 2000 < cfg6.N := by rw [hN]; omega
    obtain ⟨-, -, -, -, -, -, e0, e1, -, -⟩ := idx_facts ⟨(i 0).val / 2000, ht0⟩
    refine ⟨⟨(i 0).val / 2000, ht0⟩, flush6_3 _, ?_⟩
    rw [mem_blk3 c ⟨(i 0).val / 2000, ht0⟩ i]
    intro a
    match a with
    | ⟨0, _⟩ => show win6_3.index ⟨(i 0).val / 2000, ht0⟩ 0 * 2000 ≤ (i 0).val ∧ (i 0).val < win6_3.index ⟨(i 0).val / 2000, ht0⟩ 0 * 2000 + 2000; rw [e0]; show (i 0).val / 2000 * 2000 ≤ (i 0).val ∧ (i 0).val < (i 0).val / 2000 * 2000 + 2000; omega
    | ⟨1, _⟩ => show win6_3.index ⟨(i 0).val / 2000, ht0⟩ 1 * 64 ≤ (i 1).val ∧ (i 1).val < win6_3.index ⟨(i 0).val / 2000, ht0⟩ 1 * 64 + 64; rw [e1]; omega

/-- The same cover for the second result, which is therefore `scaledOut`. -/
theorem final4 (c : Dev nD) : (dat6 V c).arrAt 4 cfg6.N = scaledOut V h' hu hb0 hbs hb1 c :=
  (dat6 V c).arrAt_eq_of_cover 4 (scaledOut V h' hu hb0 hbs hb1 c) (fun t _ => flushed4_eq V h' hu hb0 hbs hb1 c t) fun (i : S200000x64.Idx) => by
    have hi0 : (i 0).val < 200000 := (i 0).isLt
    have hi1 : (i 1).val < 64 := (i 1).isLt
    have hN : cfg6.N = 100 := N_6
    have ht0 : (i 0).val / 2000 < cfg6.N := by rw [hN]; omega
    obtain ⟨-, -, -, -, -, -, -, -, e0, e1⟩ := idx_facts ⟨(i 0).val / 2000, ht0⟩
    refine ⟨⟨(i 0).val / 2000, ht0⟩, flush6_4 _, ?_⟩
    rw [mem_blk4 c ⟨(i 0).val / 2000, ht0⟩ i]
    intro a
    match a with
    | ⟨0, _⟩ => show win6_4.index ⟨(i 0).val / 2000, ht0⟩ 0 * 2000 ≤ (i 0).val ∧ (i 0).val < win6_4.index ⟨(i 0).val / 2000, ht0⟩ 0 * 2000 + 2000; rw [e0]; show (i 0).val / 2000 * 2000 ≤ (i 0).val ∧ (i 0).val < (i 0).val / 2000 * 2000 + 2000; omega
    | ⟨1, _⟩ => show win6_4.index ⟨(i 0).val / 2000, ht0⟩ 1 * 64 ≤ (i 1).val ∧ (i 1).val < win6_4.index ⟨(i 0).val / 2000, ht0⟩ 1 * 64 + 64; rw [e1]; omega

end Cert.KernelIdeal.Region6

end
-- ==== Proof.Region7.lean ====
/-
  One launch of the normalise-and-accumulate kernel, read as two whole arrays.

  The grid walks the node table in blocks of 2000 rows. At block `t` the body scales row `p` of the raw neighbour sums
  by the node's own factor, divides the row by the larger of its Euclidean length and a small floor, and stores two
  things: the running embedding plus the unit row times the layer's weight, and the unit row times the node's factor
  again. A row of a block is row `2000 t + p` of every table involved, a row of the result depends on that row alone,
  and the blocks cover the tables; so both results are the host's own spellings — the row normalisation of (raw sums ⊙
  factor column), then the weighted accumulation, respectively the product with the factor column.
-/
import proofs.«158156_j83751862272173_2_alg».proof.Proof.Gen.KernelIdeal.Frame
import proofs.«158156_j83751862272173_2_alg».proof.Proof.LibRowNormalize
import proofs.«158156_j83751862272173_2_alg».proof.Proof.LibColumnReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region7

open Cert.KernelIdeal Cert.KernelIdeal.Gen Cert.Lib.RowNormalize

variable (V : (c : Dev nD) → (b : Ref sig .tc) → Buf (Elt Ideal) ((c : Thread nD τ).loc b))
variable (h' : S100000x64.ReducesTo [1] S100000) (hu : 0 < S_.numel) (hb0 : S100000.BroadcastsInDim S100000x1 ![0])
  (hbs : S_.BroadcastsInDim S100000x1 ![]) (hb1 : S100000x1.BroadcastsInDim S100000x64 ![0, 1]) (hbc : S_.BroadcastsInDim S100000x64 ![])

/-- The raw neighbour sums, the factor column and the running embedding as the launch finds them. -/
abbrev raw (c : Dev nD) : FVec Ideal S100000x64 .f32 := V c main_v84
abbrev fac (c : Dev nD) : FVec Ideal S100000x1 .f32 := V c main_v18
abbrev acc (c : Dev nD) : FVec Ideal S100000x64 .f32 := V c main_v64_0

theorem hz : (![0, 0] : Fin 2 → Nat) = fun _ => 0 := funext fun a => by fin_cases a <;> rfl

/-- The raw sums' and the factor column's blocks at point `t`. -/
abbrev blk0 (c : Dev nD) (t : Fin cfg7.N) : Vec Ideal S2000x64 .f32 := iblk7 V c 0 t
abbrev blk1 (c : Dev nD) (t : Fin cfg7.N) : Vec Ideal S2000x1 .f32 := iblk7 V c 1 t

/-- All five index maps send point `t` to block row `t`, block column 0. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- The raw sums' block at point `t` is rows `2000 t …` of the raw sums. -/
theorem iblk_raw (c : Dev nD) (t : Fin cfg7.N) (x : S2000x64.Idx) (k : S100000x64.Idx)
    (hk0 : (k 0).val = 2000 * t.val + (x 0).val) (hk1 : (k 1).val = (x 1).val) :
    (iblk7 V c 0 t : Vec Ideal S2000x64 .f32) x = (raw V c) k := by
  obtain ⟨e0, e1, -⟩ := idx_facts t
  unfold iblk7
  rw [View.read_apply]
  show V c main_v84 _ = V c main_v84 _
  congr 1
  funext a
  apply Fin.ext
  match a with
  | ⟨0, _⟩ => show win7_0.index t 0 * 2000 + 1 * (x 0).val = (k 0).val; rw [e0, hk0]; omega
  | ⟨1, _⟩ => show win7_0.index t 1 * 64 + 1 * (x 1).val = (k 1).val; rw [e1, hk1]; omega

/-- The factor column's block at point `t` is rows `2000 t …` of the column. -/
theorem iblk_factor (c : Dev nD) (t : Fin cfg7.N) (x : S2000x1.Idx) (k : S100000x1.Idx)
    (hk0 : (k 0).val = 2000 * t.val + (x 0).val) (hk1 : (k 1).val = (x 1).val) :
    (iblk7 V c 1 t : Vec Ideal S2000x1 .f32) x = (fac V c) k := by
  obtain ⟨-, -, e0, e1, -⟩ := idx_facts t
  unfold iblk7
  rw [View.read_apply]
  show V c main_v18 _ = V c main_v18 _
  congr 1
  funext a
  apply Fin.ext
  match a with
  | ⟨0, _⟩ => show win7_1.index t 0 * 2000 + 1 * (x 0).val = (k 0).val; rw [e0, hk0]; omega
  | ⟨1, _⟩ => show win7_1.index t 1 * 1 + 1 * (x 1).val = (k 1).val; rw [e1, hk1]; omega

/-- The running embedding's block at point `t` is rows `2000 t …` of it. -/
theorem iblk_acc (c : Dev nD) (t : Fin cfg7.N) (x : S2000x64.Idx) (k : S100000x64.Idx)
    (hk0 : (k 0).val = 2000 * t.val + (x 0).val) (hk1 : (k 1).val = (x 1).val) :
    (iblk7 V c 2 t : Vec Ideal S2000x64 .f32) x = (acc V c) k := by
  obtain ⟨-, -, -, -, e0, e1, -⟩ := idx_facts t
  unfold iblk7
  rw [View.read_apply]
  show V c main_v64_0 _ = V c main_v64_0 _
  congr 1
  funext a
  apply Fin.ext
  match a with
  | ⟨0, _⟩ => show win7_2.index t 0 * 2000 + 1 * (x 0).val = (k 0).val; rw [e0, hk0]; omega
  | ⟨1, _⟩ => show win7_2.index t 1 * 64 + 1 * (x 1).val = (k 1).val; rw [e1, hk1]; omega

/-- The floor under the row length and the layer's weight, as extended reals. -/
abbrev floorV : EReal := Ideal.ofBits .f32 0x2B8CBCCC#32
abbrev weightV : EReal := Ideal.ofBits .f32 0x3EAAAAAB#32

/-- The unit row at row `p`, feature `q` of a block: the scaled row divided by the larger of its length and the floor. -/
theorem pay2_apply (v0 : Vec Ideal S2000x1 .f32) (v2 : Vec Ideal S2000x64 .f32) (p : Fin 2000) (q : Fin 64) :
    k7_pay2 v0 v2 (ix2 p q) = unit floorV (fun k => v2 (ix2 p k) * v0 (ix2 p (0 : Fin 1))) q := by
  unfold k7_pay2 k7_pay1
  simp only [shapeCast_self]
  exact vectorNormalize_apply v2 v0 0x2B8CBCCC#32 _ _ _ _ _ _ p q

/-- The first stored value: the running embedding plus the unit row times the weight. -/
theorem pay3_apply (v0 : Vec Ideal S2000x1 .f32) (v2 v14 : Vec Ideal S2000x64 .f32) (p : Fin 2000) (q : Fin 64) :
    k7_pay3 v0 v2 v14 (ix2 p q) = v14 (ix2 p q) + unit floorV (fun k => v2 (ix2 p k) * v0 (ix2 p (0 : Fin 1))) q * weightV := by
  unfold k7_pay3
  try simp only [shapeCast_self]
  show v14 (ix2 p q) + k7_pay2 v0 v2 (ix2 p q) * broadcast S2000x64 (Scalar.ofBits (F := Ideal) .f32 0x3EAAAAAB#32) (ix2 p q) = _
  rw [pay2_apply, vector_splat_apply]

/-- The second stored value: the unit row times the node's factor. -/
theorem pay4_apply (v0 : Vec Ideal S2000x1 .f32) (v2 : Vec Ideal S2000x64 .f32) (p : Fin 2000) (q : Fin 64) :
    k7_pay4 v0 v2 (ix2 p q) = unit floorV (fun k => v2 (ix2 p k) * v0 (ix2 p (0 : Fin 1))) q * v0 (ix2 p (0 : Fin 1)) := by
  unfold k7_pay4 k7_pay1
  simp only [shapeCast_self]
  show k7_pay2 v0 v2 (ix2 p q) * broadcastTo S2000x64 v0 broadcasts_S2000x1_S2000x64 (ix2 p q) = _
  rw [pay2_apply, Cert.LibColumnReads.broadcastTo_a1_ab_apply v0 broadcasts_S2000x1_S2000x64 p q]

/-- The unit rows of the whole table, in the host's spelling: the row normalisation of (raw sums ⊙ factor column). -/
abbrev unitRows (c : Dev nD) : FVec Ideal S100000x64 .f32 :=
  hostNormalize (mulf (F := Ideal) (φ := .f32) (raw V c) (broadcastInDim S100000x64 ![0, 1] hb1 (fac V c))) 0x2B8CBCCC#32 h' hu hb0 hbs hb1

/-- The first result as a whole array: the running embedding plus the unit rows times the weight. -/
abbrev accOut (c : Dev nD) : FVec Ideal S100000x64 .f32 :=
  addf (F := Ideal) (φ := .f32) (acc V c) (mulf (F := Ideal) (φ := .f32) (unitRows V h' hu hb0 hbs hb1 c)
    (broadcastInDim S100000x64 ![] hbc (constant (F := Ideal) S_ .f32 0x3EAAAAAB#32)))

/-- The second result as a whole array: the unit rows times the factor column. -/
abbrev scaledOut (c : Dev nD) : FVec Ideal S100000x64 .f32 :=
  mulf (F := Ideal) (φ := .f32) (unitRows V h' hu hb0 hbs hb1 c) (broadcastInDim S100000x64 ![0, 1] hb1 (fac V c))

theorem unitRows_apply (c : Dev nD) (n : Fin 100000) (f : Fin 64) :
    unitRows V h' hu hb0 hbs hb1 c (ix2 n f) = unit floorV (fun k => (raw V c) (ix2 n k) * (fac V c) (ix2 n (0 : Fin 1))) f := by
  rw [show unitRows V h' hu hb0 hbs hb1 c (ix2 n f) = _ from hostNormalize_apply _ 0x2B8CBCCC#32 h' hu hb0 hbs hb1 n f]
  congr 1
  funext k
  exact host_scaled_apply (raw V c) (fac V c) hb1 n k

theorem accOut_apply (c : Dev nD) (n : Fin 100000) (f : Fin 64) :
    accOut V h' hu hb0 hbs hb1 hbc c (ix2 n f)
      = (acc V c) (ix2 n f) + unit floorV (fun k => (raw V c) (ix2 n k) * (fac V c) (ix2 n (0 : Fin 1))) f * weightV := by
  show (acc V c) (ix2 n f) + unitRows V h' hu hb0 hbs hb1 c (ix2 n f) * broadcastInDim S100000x64 ![] hbc (constant (F := Ideal) S_ .f32 0x3EAAAAAB#32) (ix2 n f) = _
  rw [unitRows_apply, host_splat_apply]

theorem scaledOut_apply (c : Dev nD) (n : Fin 100000) (f : Fin 64) :
    scaledOut V h' hu hb0 hbs hb1 c (ix2 n f)
      = unit floorV (fun k => (raw V c) (ix2 n k) * (fac V c) (ix2 n (0 : Fin 1))) f * (fac V c) (ix2 n (0 : Fin 1)) := by
  rw [show scaledOut V h' hu hb0 hbs hb1 c (ix2 n f) = _ from host_scaled_apply (unitRows V h' hu hb0 hbs hb1 c) (fac V c) hb1 n f, unitRows_apply]

/-- Row `p` of the blocks at point `t`, scaled, is row `2000 t + p` of the tables, scaled. -/
theorem row_eq (c : Dev nD) (t : Fin cfg7.N) (p : Fin 2000) (n : Fin 100000) (hn : n.val = 2000 * t.val + p.val) :
    (fun k : Fin 64 => (blk0 V c t) (ix2 p k) * (blk1 V c t) (ix2 p (0 : Fin 1)))
      = fun k : Fin 64 => (raw V c) (ix2 n k) * (fac V c) (ix2 n (0 : Fin 1)) :=
  funext fun k => by
    rw [show (blk0 V c t) (ix2 p k) = (raw V c) (ix2 n k) from iblk_raw V c t (ix2 p k) (ix2 n k) hn rfl,
      show (blk1 V c t) (ix2 p (0 : Fin 1)) = (fac V c) (ix2 n (0 : Fin 1)) from iblk_factor V c t (ix2 p (0 : Fin 1)) (ix2 n (0 : Fin 1)) hn rfl]

/-- What point `t` writes back of the first result is block `t` of it. -/
theorem flushed3_eq (c : Dev nD) (t : Fin cfg7.N) :
    (dat7 V c).flushed 3 t = ((cfg7.win 3).blk t).view.read (Elt Ideal) (accOut V h' hu hb0 hbs hb1 hbc c) := by
  obtain ⟨-, -, -, -, -, -, e0, e1, -, -⟩ := idx_facts t
  have ht : t.val < 50 := by have := t.isLt; have hN : cfg7.N = 50 := N_7; omega
  show (cfg7.win 3).cut (grid7.coords t) ((dat7 V c).after 3 t) = _
  rw [after7_3]
  unfold out7_3
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg7.win 3).blk t).view.emb (ix2 p q) = (ix2 (⟨2000 * t.val + p.val, by omega⟩ : Fin 100000) q : S100000x64.Idx) := by
    funext a
    apply Fin.ext
    match a with
    | ⟨0, _⟩ => show win7_3.index t 0 * 2000 + 1 * p.val = 2000 * t.val + p.val; rw [e0]; omega
    | ⟨1, _⟩ => show win7_3.index t 1 * 64 + 1 * q.val = q.val; rw [e1]; omega
  rw [hemb, accOut_apply]
  show k7_pay3 (iblk7 V c 1 t) (iblk7 V c 0 t) (iblk7 V c 2 t) (ix2 p q)
    = (acc V c) (ix2 (⟨2000 * t.val + p.val, by omega⟩ : Fin 100000) q)
      + unit floorV (fun k => (raw V c) (ix2 (⟨2000 * t.val + p.val, by omega⟩ : Fin 100000) k) * (fac V c) (ix2 (⟨2000 * t.val + p.val, by omega⟩ : Fin 100000) (0 : Fin 1))) q * weightV
  rw [pay3_apply, row_eq V c t p (⟨2000 * t.val + p.val, by omega⟩ : Fin 100000) rfl,
    iblk_acc V c t (ix2 p q) (ix2 (⟨2000 * t.val + p.val, by omega⟩ : Fin 100000) q) rfl rfl]

/-- What point `t` writes back of the second result is block `t` of it. -/
theorem flushed4_eq (c : Dev nD) (t : Fin cfg7.N) :
    (dat7 V c).flushed 4 t = ((cfg7.win 4).blk t).view.read (Elt Ideal) (scaledOut V h' hu hb0 hbs hb1 c) := by
  obtain ⟨-, -, -, -, -, -, -, -, e0, e1⟩ := idx_facts t
  have ht : t.val < 50 := by have := t.isLt; have hN : cfg7.N = 50 := N_7; omega
  show (cfg7.win 4).cut (grid7.coords t) ((dat7 V c).after 4 t) = _
  rw [after7_4]
  unfold out7_4
  rw [View.canon_unit_zero hz]
  simp only [View.ld_unit_zero (S := S2000x64) hz, View.ld_unit_zero (S := S2000x1) hz]
  refine funext fun (j : S2000x64.Idx) => ?_
  obtain ⟨p, q, rfl⟩ : ∃ (p : Fin 2000) (q : Fin 64), j = ix2 p q := ⟨j 0, j 1, eq_ix2 j⟩
  have hp := p.isLt
  rw [View.read_apply]
  have hemb : ((cfg7.win 4).blk t).view.emb (ix2 p q) = (ix2 (⟨2000 * t.val + p.val, by omega⟩ : Fin 100000) q : S100000x64.Idx) := by
    funext a
    apply Fin.ext
    match a with
    | ⟨0, _⟩ => show win7_4.index t 0 * 2000 + 1 * p.val = 2000 * t.val + p.val; rw [e0]; omega
    | ⟨1, _⟩ => show win7_4.index t 1 * 64 + 1 * q.val = q.val; rw [e1]; omega
  rw [hemb, scaledOut_apply]
  show k7_pay4 (iblk7 V c 1 t) (iblk7 V c 0 t) (ix2 p q)
    = unit floorV (fun k => (raw V c) (ix2 (⟨2000 * t.val + p.val, by omega⟩ : Fin 100000) k) * (fac V c) (ix2 (⟨2000 * t.val + p.val, by omega⟩ : Fin 100000) (0 : Fin 1))) q
      * (fac V c) (ix2 (⟨2000 * t.val + p.val, by omega⟩ : Fin 100000) (0 : Fin 1))
  rw [pay4_apply, row_eq V c t p (⟨2000 * t.val + p.val, by omega⟩ : Fin 100000) rfl,
    iblk_factor V c t (ix2 p (0 : Fin 1)) (ix2 (⟨2000 * t.val + p.val, by omega⟩ : Fin 100000) (0 : Fin 1)) rfl rfl]

/-- An index of a result is in point `t`'s block iff each coordinate is in the block's range on its axis. -/
theorem mem_blk3 (c : Dev nD) (t : Fin cfg7.N) (i : S100000x64.Idx) :
    i ∈ ((cfg7.win 3).blk t).view.set ↔ ∀ a : Fin 2, win7_3.index t a * S2000x64.size a ≤ (i a).val ∧ (i a).val < win7_3.index t a * S2000x64.size a + S2000x64.size a := by
  show i ∈ ((View.whole main_v86_0).slice (win7_3.rect t)).set ↔ _
  rw [View.set_slice_whole, Rect.mem_set_unit]
  exact Iff.rfl
theorem mem_blk4 (c : Dev nD) (t : Fin cfg7.N) (i : S100000x64.Idx) :
    i ∈ ((cfg7.win 4).blk t).view.set ↔ ∀ a : Fin 2, win7_4.index t a * S2000x64.size a ≤ (i a).val ∧ (i a).val < win7_4.index t a * S2000x64.size a + S2000x64.size a := by
  show i ∈ ((View.whole main_v86_1).slice (win7_4.rect t)).set ↔ _
  rw [View.set_slice_whole, Rect.mem_set_unit]
  exact Iff.rfl

/-- Row `r` lies in the block of the point `r / 2000`: the blocks cover the first result, which is therefore `accOut`. -/
theorem final3 (c : Dev nD) : (dat7 V c).arrAt 3 cfg7.N = accOut V h' hu hb0 hbs hb1 hbc c :=
  (dat7 V c).arrAt_eq_of_cover 3 (accOut V h' hu hb0 hbs hb1 hbc c) (fun t _ => flushed3_eq V h' hu hb0 hbs hb1 hbc c t) fun (i : S100000x64.Idx) => by
    have hi0 : (i 0).val < 100000 := (i 0).isLt
    have hi1 : (i 1).val < 64 := (i 1).isLt
    have hN : cfg7.N = 50 := N_7
    have ht0 : (i 0).val / 2000 < cfg7.N := by rw [hN]; omega
    obtain ⟨-, -, -, -, -, -, e0, e1, -, -⟩ := idx_facts ⟨(i 0).val / 2000, ht0⟩
    refine ⟨⟨(i 0).val / 2000, ht0⟩, flush7_3 _, ?_⟩
    rw [mem_blk3 c ⟨(i 0).val / 2000, ht0⟩ i]
    intro a
    match a with
    | ⟨0, _⟩ => show win7_3.index ⟨(i 0).val / 2000, ht0⟩ 0 * 2000 ≤ (i 0).val ∧ (i 0).val < win7_3.index ⟨(i 0).val / 2000, ht0⟩ 0 * 2000 + 2000; rw [e0]; show (i 0).val / 2000 * 2000 ≤ (i 0).val ∧ (i 0).val < (i 0).val / 2000 * 2000 + 2000; omega
    | ⟨1, _⟩ => show win7_3.index ⟨(i 0).val / 2000, ht0⟩ 1 * 64 ≤ (i 1).val ∧ (i 1).val < win7_3.index ⟨(i 0).val / 2000, ht0⟩ 1 * 64 + 64; rw [e1]; omega

/-- The same cover for the second result, which is therefore `scaledOut`. -/
theorem final4 (c : Dev nD) : (dat7 V c).arrAt 4 cfg7.N = scaledOut V h' hu hb0 hbs hb1 c :=
  (dat7 V c).arrAt_eq_of_cover 4 (scaledOut V h' hu hb0 hbs hb1 c) (fun t _ => flushed4_eq V h' hu hb0 hbs hb1 c t) fun (i : S100000x64.Idx) => by
    have hi0 : (i 0).val < 100000 := (i 0).isLt
    have hi1 : (i 1).val < 64 := (i 1).isLt
    have hN : cfg7.N = 50 := N_7
    have ht0 : (i 0).val / 2000 < cfg7.N := by rw [hN]; omega
    obtain ⟨-, -, -, -, -, -, -, -, e0, e1⟩ := idx_facts ⟨(i 0).val / 2000, ht0⟩
    refine ⟨⟨(i 0).val / 2000, ht0⟩, flush7_4 _, ?_⟩
    rw [mem_blk4 c ⟨(i 0).val / 2000, ht0⟩ i]
    intro a
    match a with
    | ⟨0, _⟩ => show win7_4.index ⟨(i 0).val / 2000, ht0⟩ 0 * 2000 ≤ (i 0).val ∧ (i 0).val < win7_4.index ⟨(i 0).val / 2000, ht0⟩ 0 * 2000 + 2000; rw [e0]; show (i 0).val / 2000 * 2000 ≤ (i 0).val ∧ (i 0).val < (i 0).val / 2000 * 2000 + 2000; omega
    | ⟨1, _⟩ => show win7_4.index ⟨(i 0).val / 2000, ht0⟩ 1 * 64 ≤ (i 1).val ∧ (i 1).val < win7_4.index ⟨(i 0).val / 2000, ht0⟩ 1 * 64 + 64; rw [e1]; omega

end Cert.KernelIdeal.Region7

end
-- ==== Proof.Chain.lean ====
/-
  The idealized kernel's run, boundary by boundary, ends at the specification's results.

  The program's buffer contents at the boundaries between its segments are a fold over the launch memory. At each
  boundary the buffers that matter hold a stage of the specification: after the first stretches the two factor
  columns; after the two scaling launches the scaled tables; after each middle stretch the round's raw neighbour sums
  (the gathered rows of the other side's scaled table, summed along the edges); after each normalise-and-accumulate
  launch the running embedding and the next scaled table; after the last stretch the three gathered results. Each step
  reads its operands where the previous steps left them; buffers in between are carried unchanged.
-/
import proofs.«158156_j83751862272173_2_alg».proof.Proof.ChainFront
import proofs.«158156_j83751862272173_2_alg».proof.Proof.ChainCarry
import proofs.«158156_j83751862272173_2_alg».proof.Proof.Region0
import proofs.«158156_j83751862272173_2_alg».proof.Proof.Region1
import proofs.«158156_j83751862272173_2_alg».proof.Proof.Region2
import proofs.«158156_j83751862272173_2_alg».proof.Proof.Region3
import proofs.«158156_j83751862272173_2_alg».proof.Proof.Region4
import proofs.«158156_j83751862272173_2_alg».proof.Proof.Region5
import proofs.«158156_j83751862272173_2_alg».proof.Proof.Region6
import proofs.«158156_j83751862272173_2_alg».proof.Proof.Region7

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.KernelIdeal.Front Cert.KernelIdeal.Carry

/-! ## The stretches between the launches, over any buffer contents -/

section Stretches
variable (W : Valuation τ sig (Elt Ideal))

set_option maxHeartbeats 2000000 in
theorem agg2U : StableHlo.after hostOps2 W (Proc.devRef .tc main_v37)
    = Spec.aggU (W (Proc.devRef .tc main_v20)) (W (Proc.devRef .tc main_arg2)) (W (Proc.devRef .tc main_arg3)) := by
  simp only [hostOps2]
  after_results_simp
  try rfl
set_option maxHeartbeats 2000000 in
theorem agg2I : StableHlo.after hostOps2 W (Proc.devRef .tc main_v40)
    = Spec.aggI (W (Proc.devRef .tc main_v19)) (W (Proc.devRef .tc main_arg2)) (W (Proc.devRef .tc main_arg3)) := by
  simp only [hostOps2]
  after_results_simp
  try rfl
set_option maxHeartbeats 2000000 in
theorem agg4U : StableHlo.after hostOps4 W (Proc.devRef .tc main_v59)
    = Spec.aggU (W (Proc.devRef .tc main_v42_1)) (W (Proc.devRef .tc main_arg2)) (W (Proc.devRef .tc main_arg3)) := by
  simp only [hostOps4]
  after_results_simp
  try rfl
set_option maxHeartbeats 2000000 in
theorem agg4I : StableHlo.after hostOps4 W (Proc.devRef .tc main_v62)
    = Spec.aggI (W (Proc.devRef .tc main_v41_1)) (W (Proc.devRef .tc main_arg2)) (W (Proc.devRef .tc main_arg3)) := by
  simp only [hostOps4]
  after_results_simp
  try rfl
set_option maxHeartbeats 2000000 in
theorem agg6U : StableHlo.after hostOps6 W (Proc.devRef .tc main_v81)
    = Spec.aggU (W (Proc.devRef .tc main_v64_1)) (W (Proc.devRef .tc main_arg2)) (W (Proc.devRef .tc main_arg3)) := by
  simp only [hostOps6]
  after_results_simp
  try rfl
set_option maxHeartbeats 2000000 in
theorem agg6I : StableHlo.after hostOps6 W (Proc.devRef .tc main_v84)
    = Spec.aggI (W (Proc.devRef .tc main_v63_1)) (W (Proc.devRef .tc main_arg2)) (W (Proc.devRef .tc main_arg3)) := by
  simp only [hostOps6]
  after_results_simp
  try rfl

set_option maxHeartbeats 2000000 in
theorem res8_0 : StableHlo.after hostOps8 W (Proc.devRef .tc main_v93)
    = Host.gather gather_S200000x64_S8192x1_S8192x64_1_0_n_n_0_1_164 (W (Proc.devRef .tc main_v85_0) : FVec Ideal S200000x64 .f32) (Spec.wrapColB 200000#32 (W (Proc.devRef .tc main_arg4))) := by
  simp only [hostOps8]
  after_results_simp
  try rfl
set_option maxHeartbeats 2000000 in
theorem res8_1 : StableHlo.after hostOps8 W (Proc.devRef .tc main_v100)
    = Host.gather gather_S100000x64_S8192x1_S8192x64_1_0_n_n_0_1_164 (W (Proc.devRef .tc main_v86_0) : FVec Ideal S100000x64 .f32) (Spec.wrapColB 100000#32 (W (Proc.devRef .tc main_arg5))) := by
  simp only [hostOps8]
  after_results_simp
  try rfl
set_option maxHeartbeats 2000000 in
theorem res8_2 : StableHlo.after hostOps8 W (Proc.devRef .tc main_v107)
    = Host.gather gather_S100000x64_S8192x1_S8192x64_1_0_n_n_0_1_164 (W (Proc.devRef .tc main_v86_0) : FVec Ideal S100000x64 .f32) (Spec.wrapColB 100000#32 (W (Proc.devRef .tc main_arg6))) := by
  simp only [hostOps8]
  after_results_simp
  try rfl

end Stretches

variable (m : (ℓ : Loc nD τ sig) → Buf (Elt Ideal) ℓ) (ρ : Dev nD → PrngReg) (sd : Spec.Side)

/-! ## The two scaling launches -/

theorem w6_v19 (c : Dev nD) : W6 m ρ c (Proc.devRef .tc main_v19) = Spec.us0 sd (argsOf m c) := by
  refine (W6_arr m ρ c 2).trans ((Region0.final (V5 m ρ) sd.b1U c).trans ?_)
  have e : Region0.scaled (V5 m ρ) sd.b1U c = Spec.scaleU sd (W5 m ρ c (Proc.devRef .tc main_arg0)) (W5 m ρ c (Proc.devRef .tc main_v12)) := rfl
  rw [e, w5_arg0, w5_v12]
  rfl

theorem w7_v20 (c : Dev nD) : W7 m ρ c (Proc.devRef .tc main_v20) = Spec.is0 sd (argsOf m c) := by
  refine (W7_arr m ρ c 2).trans ((Region1.final (V6 m ρ) sd.b1I c).trans ?_)
  have e : Region1.scaled (V6 m ρ) sd.b1I c = Spec.scaleI sd (W6 m ρ c (Proc.devRef .tc main_arg1)) (W6 m ρ c (Proc.devRef .tc main_v18)) := rfl
  rw [e, arg1_5_6, v18_5_6, w5_arg1, w5_v18]
  rfl

/-! ## Round 1 -/

theorem w8_v37 (c : Dev nD) : W8 m ρ c (Proc.devRef .tc main_v37) = Spec.ru1 sd (argsOf m c) := by
  rw [show W8 m ρ c (Proc.devRef .tc main_v37) = _ from agg2U (W7 m ρ c), w7_v20, arg2_5_7, arg3_5_7, w5_arg2, w5_arg3]
  rfl
theorem w8_v40 (c : Dev nD) : W8 m ρ c (Proc.devRef .tc main_v40) = Spec.ri1 sd (argsOf m c) := by
  rw [show W8 m ρ c (Proc.devRef .tc main_v40) = _ from agg2I (W7 m ρ c), v19_6_7, w6_v19, arg2_5_7, arg3_5_7, w5_arg2, w5_arg3]
  rfl
theorem w9_v41_0 (c : Dev nD) : W9 m ρ c (Proc.devRef .tc main_v41_0) = Spec.ue1 sd (argsOf m c) := by
  refine (W9_arr m ρ c 3).trans ((Region2.final3 (V8 m ρ) sd.rU sd.hu sd.b0U sd.bsU sd.b1U sd.bcU c).trans ?_)
  have e : Region2.accOut (V8 m ρ) sd.rU sd.hu sd.b0U sd.bsU sd.b1U sd.bcU c = Spec.accU sd 0x3F800000#32 (W8 m ρ c (Proc.devRef .tc main_v37)) (W8 m ρ c (Proc.devRef .tc main_v12)) (W8 m ρ c (Proc.devRef .tc main_arg0)) := rfl
  rw [e, w8_v37, v12_5_8, w5_v12, arg0_5_8, w5_arg0]
  rfl
theorem w9_v41_1 (c : Dev nD) : W9 m ρ c (Proc.devRef .tc main_v41_1) = Spec.us1 sd (argsOf m c) := by
  refine (W9_arr m ρ c 4).trans ((Region2.final4 (V8 m ρ) sd.rU sd.hu sd.b0U sd.bsU sd.b1U c).trans ?_)
  have e : Region2.scaledOut (V8 m ρ) sd.rU sd.hu sd.b0U sd.bsU sd.b1U c = Spec.nextU sd (W8 m ρ c (Proc.devRef .tc main_v37)) (W8 m ρ c (Proc.devRef .tc main_v12)) := rfl
  rw [e, w8_v37, v12_5_8, w5_v12]
  rfl
theorem w10_v42_0 (c : Dev nD) : W10 m ρ c (Proc.devRef .tc main_v42_0) = Spec.ie1 sd (argsOf m c) := by
  refine (W10_arr m ρ c 3).trans ((Region3.final3 (V9 m ρ) sd.rI sd.hu sd.b0I sd.bsI sd.b1I sd.bcI c).trans ?_)
  have e : Region3.accOut (V9 m ρ) sd.rI sd.hu sd.b0I sd.bsI sd.b1I sd.bcI c = Spec.accI sd 0x3F800000#32 (W9 m ρ c (Proc.devRef .tc main_v40)) (W9 m ρ c (Proc.devRef .tc main_v18)) (W9 m ρ c (Proc.devRef .tc main_arg1)) := rfl
  rw [e, v40_8_9, w8_v40, v18_5_9, w5_v18, arg1_5_9, w5_arg1]
  rfl
theorem w10_v42_1 (c : Dev nD) : W10 m ρ c (Proc.devRef .tc main_v42_1) = Spec.is1 sd (argsOf m c) := by
  refine (W10_arr m ρ c 4).trans ((Region3.final4 (V9 m ρ) sd.rI sd.hu sd.b0I sd.bsI sd.b1I c).trans ?_)
  have e : Region3.scaledOut (V9 m ρ) sd.rI sd.hu sd.b0I sd.bsI sd.b1I c = Spec.nextI sd (W9 m ρ c (Proc.devRef .tc main_v40)) (W9 m ρ c (Proc.devRef .tc main_v18)) := rfl
  rw [e, v40_8_9, w8_v40, v18_5_9, w5_v18]
  rfl

/-! ## Round 2 -/

theorem w11_v59 (c : Dev nD) : W11 m ρ c (Proc.devRef .tc main_v59) = Spec.ru2 sd (argsOf m c) := by
  rw [show W11 m ρ c (Proc.devRef .tc main_v59) = _ from agg4U (W10 m ρ c), w10_v42_1, arg2_5_10, arg3_5_10, w5_arg2, w5_arg3]
  rfl
theorem w11_v62 (c : Dev nD) : W11 m ρ c (Proc.devRef .tc main_v62) = Spec.ri2 sd (argsOf m c) := by
  rw [show W11 m ρ c (Proc.devRef .tc main_v62) = _ from agg4I (W10 m ρ c), v41_1_9_10, w9_v41_1, arg2_5_10, arg3_5_10, w5_arg2, w5_arg3]
  rfl
theorem w12_v63_0 (c : Dev nD) : W12 m ρ c (Proc.devRef .tc main_v63_0) = Spec.ue2 sd (argsOf m c) := by
  refine (W12_arr m ρ c 3).trans ((Region4.final3 (V11 m ρ) sd.rU sd.hu sd.b0U sd.bsU sd.b1U sd.bcU c).trans ?_)
  have e : Region4.accOut (V11 m ρ) sd.rU sd.hu sd.b0U sd.bsU sd.b1U sd.bcU c = Spec.accU sd 0x3F000000#32 (W11 m ρ c (Proc.devRef .tc main_v59)) (W11 m ρ c (Proc.devRef .tc main_v12)) (W11 m ρ c (Proc.devRef .tc main_v41_0)) := rfl
  rw [e, w11_v59, v12_5_11, w5_v12, v41_0_9_11, w9_v41_0]
  rfl
theorem w12_v63_1 (c : Dev nD) : W12 m ρ c (Proc.devRef .tc main_v63_1) = Spec.us2 sd (argsOf m c) := by
  refine (W12_arr m ρ c 4).trans ((Region4.final4 (V11 m ρ) sd.rU sd.hu sd.b0U sd.bsU sd.b1U c).trans ?_)
  have e : Region4.scaledOut (V11 m ρ) sd.rU sd.hu sd.b0U sd.bsU sd.b1U c = Spec.nextU sd (W11 m ρ c (Proc.devRef .tc main_v59)) (W11 m ρ c (Proc.devRef .tc main_v12)) := rfl
  rw [e, w11_v59, v12_5_11, w5_v12]
  rfl
theorem w13_v64_0 (c : Dev nD) : W13 m ρ c (Proc.devRef .tc main_v64_0) = Spec.ie2 sd (argsOf m c) := by
  refine (W13_arr m ρ c 3).trans ((Region5.final3 (V12 m ρ) sd.rI sd.hu sd.b0I sd.bsI sd.b1I sd.bcI c).trans ?_)
  have e : Region5.accOut (V12 m ρ) sd.rI sd.hu sd.b0I sd.bsI sd.b1I sd.bcI c = Spec.accI sd 0x3F000000#32 (W12 m ρ c (Proc.devRef .tc main_v62)) (W12 m ρ c (Proc.devRef .tc main_v18)) (W12 m ρ c (Proc.devRef .tc main_v42_0)) := rfl
  rw [e, v62_11_12, w11_v62, v18_5_12, w5_v18, v42_0_10_12, w10_v42_0]
  rfl
theorem w13_v64_1 (c : Dev nD) : W13 m ρ c (Proc.devRef .tc main_v64_1) = Spec.is2 sd (argsOf m c) := by
  refine (W13_arr m ρ c 4).trans ((Region5.final4 (V12 m ρ) sd.rI sd.hu sd.b0I sd.bsI sd.b1I c).trans ?_)
  have e : Region5.scaledOut (V12 m ρ) sd.rI sd.hu sd.b0I sd.bsI sd.b1I c = Spec.nextI sd (W12 m ρ c (Proc.devRef .tc main_v62)) (W12 m ρ c (Proc.devRef .tc main_v18)) := rfl
  rw [e, v62_11_12, w11_v62, v18_5_12, w5_v18]
  rfl

/-! ## Round 3 -/

theorem w14_v81 (c : Dev nD) : W14 m ρ c (Proc.devRef .tc main_v81) = Spec.ru3 sd (argsOf m c) := by
  rw [show W14 m ρ c (Proc.devRef .tc main_v81) = _ from agg6U (W13 m ρ c), w13_v64_1, arg2_5_13, arg3_5_13, w5_arg2, w5_arg3]
  rfl
theorem w14_v84 (c : Dev nD) : W14 m ρ c (Proc.devRef .tc main_v84) = Spec.ri3 sd (argsOf m c) := by
  rw [show W14 m ρ c (Proc.devRef .tc main_v84) = _ from agg6I (W13 m ρ c), v63_1_12_13, w12_v63_1, arg2_5_13, arg3_5_13, w5_arg2, w5_arg3]
  rfl
theorem w15_v85_0 (c : Dev nD) : W15 m ρ c (Proc.devRef .tc main_v85_0) = Spec.ue3 sd (argsOf m c) := by
  refine (W15_arr m ρ c 3).trans ((Region6.final3 (V14 m ρ) sd.rU sd.hu sd.b0U sd.bsU sd.b1U sd.bcU c).trans ?_)
  have e : Region6.accOut (V14 m ρ) sd.rU sd.hu sd.b0U sd.bsU sd.b1U sd.bcU c = Spec.accU sd 0x3EAAAAAB#32 (W14 m ρ c (Proc.devRef .tc main_v81)) (W14 m ρ c (Proc.devRef .tc main_v12)) (W14 m ρ c (Proc.devRef .tc main_v63_0)) := rfl
  rw [e, w14_v81, v12_5_14, w5_v12, v63_0_12_14, w12_v63_0]
  rfl
theorem w16_v86_0 (c : Dev nD) : W16 m ρ c (Proc.devRef .tc main_v86_0) = Spec.ie3 sd (argsOf m c) := by
  refine (W16_arr m ρ c 3).trans ((Region7.final3 (V15 m ρ) sd.rI sd.hu sd.b0I sd.bsI sd.b1I sd.bcI c).trans ?_)
  have e : Region7.accOut (V15 m ρ) sd.rI sd.hu sd.b0I sd.bsI sd.b1I sd.bcI c = Spec.accI sd 0x3EAAAAAB#32 (W15 m ρ c (Proc.devRef .tc main_v84)) (W15 m ρ c (Proc.devRef .tc main_v18)) (W15 m ρ c (Proc.devRef .tc main_v64_0)) := rfl
  rw [e, v84_14_15, w14_v84, v18_5_15, w5_v18, v64_0_13_15, w13_v64_0]
  rfl

/-! ## The results -/

theorem w16_arg4 (c : Dev nD) : W16 m ρ c (Proc.devRef .tc main_arg4) = (argsOf m c).a4 :=
  (arg4_16_17 m ρ c).symm.trans (W17_main_arg4 m ρ c)
theorem w16_arg5 (c : Dev nD) : W16 m ρ c (Proc.devRef .tc main_arg5) = (argsOf m c).a5 :=
  (arg5_16_17 m ρ c).symm.trans (W17_main_arg5 m ρ c)
theorem w16_arg6 (c : Dev nD) : W16 m ρ c (Proc.devRef .tc main_arg6) = (argsOf m c).a6 :=
  (arg6_16_17 m ρ c).symm.trans (W17_main_arg6 m ρ c)

/-- The first result: the rows of the users' final embedding that the first batch names. -/
theorem w17_v93 (c : Dev nD) : W17 m ρ c (Proc.devRef .tc main_v93) = Spec.out0 sd (argsOf m c) := by
  rw [show W17 m ρ c (Proc.devRef .tc main_v93) = _ from res8_0 (W16 m ρ c), v85_0_15_16, w15_v85_0, w16_arg4]
  rfl
/-- The second result: rows of the items' final embedding. -/
theorem w17_v100 (c : Dev nD) : W17 m ρ c (Proc.devRef .tc main_v100) = Spec.out1 sd (argsOf m c) := by
  rw [show W17 m ρ c (Proc.devRef .tc main_v100) = _ from res8_1 (W16 m ρ c), w16_v86_0, w16_arg5]
  rfl
/-- The third result: rows of the items' final embedding. -/
theorem w17_v107 (c : Dev nD) : W17 m ρ c (Proc.devRef .tc main_v107) = Spec.out2 sd (argsOf m c) := by
  rw [show W17 m ρ c (Proc.devRef .tc main_v107) = _ from res8_2 (W16 m ρ c), w16_v86_0, w16_arg6]
  rfl

end Cert.KernelIdeal.Chain

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«158156_j83751862272173_2_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«158156_j83751862272173_2_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibGcnLaw.lean ====
/-
  The algebra that joins the two arrangements of a graph-convolution layer, over the extended reals.

  One arrangement scales a node's neighbour sum by the node's factor after summing; the other scales each summand by the
  product of the destination's and the source's factors before summing. A factor `c` with `0 ≤ c < ⊤` distributes over
  a finite sum of extended reals whatever the summands are (an infinite summand of either sign is kept by a positive
  finite factor and annihilated by zero on both sides), so the two arrangements agree with no finiteness asked of the
  features. The factor here is `1 / √deg` where the degree is positive and zero elsewhere, which always lies in
  `[0, ⊤)`: the reciprocal root of a positive real is a positive real, and that of `⊤` is `0`.

  Also: a 32-bit index word whose signed value is a row number `0 ≤ n < N` is left alone by the wrap that adds `N` to
  negative words, and clamping its value into `[0, N − 1]` gives `n` back.
-/
import Idealize.ShloMosaic.PureOps.Ideal

noncomputable section

open scoped BigOperators

namespace Cert.Gcn

open Idealize.ShloMosaic

/-- A nonnegative finite factor distributes over a finite sum of extended reals. -/
theorem mul_sum_of_nonneg_of_ne_top {ι : Type*} (s : Finset ι) (c : EReal) (h0 : 0 ≤ c) (hT : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 hT, ih]

/-- THE LAYER LAW. Over the edges `s` into one node whose factor is `c`: scaling the sum of `h e · dsrc e` by `c`
    is summing `h e · (ddst e · dsrc e)`, when every edge of `s` has destination factor `c`. The sums start from
    a zero `z`. -/
theorem layer_law {ι : Type*} (s : Finset ι) (c z : EReal) (hz : z = 0) (h0 : 0 ≤ c) (hT : c ≠ ⊤)
    (h dsrc ddst : ι → EReal) (hd : ∀ e ∈ s, ddst e = c) :
    c * (z + ∑ e ∈ s, h e * dsrc e) = z + ∑ e ∈ s, h e * (ddst e * dsrc e) := by
  subst hz
  rw [zero_add, zero_add, mul_sum_of_nonneg_of_ne_top s c h0 hT]
  refine Finset.sum_congr rfl fun e he => ?_
  rw [hd e he, mul_left_comm]

/-- The reciprocal square root guarded by positivity lies in `[0, ⊤)`. -/
theorem guarded_rsqrt_range (y : EReal) :
    0 ≤ (if 0 < y then Ideal.rsqrt y else 0) ∧ (if 0 < y then Ideal.rsqrt y else 0) ≠ ⊤ := by
  induction y using EReal.rec with
  | bot => simp
  | top => simp
  | coe r =>
    by_cases hr : (0 : EReal) < (r : EReal)
    · have hr' : 0 < r := by exact_mod_cast hr
      rw [if_pos hr, Ideal.rsqrt_coe, if_neg (not_lt.mpr hr'.le), if_neg hr'.ne']
      exact ⟨by exact_mod_cast (inv_nonneg.mpr (Real.sqrt_nonneg r)), EReal.coe_ne_top _⟩
    · rw [if_neg hr]; exact ⟨le_refl _, EReal.zero_ne_top⟩

/-- A word whose signed value is a row number is not negative, so the wrap keeps it; clamped, it is that row. -/
theorem wrap_clamp_of_toInt_eq {N : ℕ} (hN : N < 2 ^ 31) (w : BitVec 32) (n : Fin N) (hw : w.toInt = (n.val : Int)) :
    min (Scalar.select (IntOp.cmpi .slt w 0#32) (IntOp.addi w (BitVec.ofNat 32 N)) w).toInt.toNat (N - 1) = n.val := by
  have hns : w.slt 0#32 = false := by
    rw [BitVec.slt_eq_decide]  -- the signed comparison is the comparison of the signed values
    simp [hw]
  have hsel : Scalar.select (IntOp.cmpi .slt w 0#32) (IntOp.addi w (BitVec.ofNat 32 N)) w = w := by
    unfold Scalar.select IntOp.cmpi
    simp [hns]
  rw [hsel, hw]
  have := n.isLt
  simp only [Int.toNat_natCast]
  omega

end Cert.Gcn

end
-- ==== Proof.LibSageMean.lean ====
/-
  THE MEAN OVER IN-NEIGHBOURS, TWO WAYS, over arbitrary extents (nothing here mentions a program).

  A segment sum `s` of shape `[N, C]` is turned into a mean by the in-degree of each row, the degree being itself a
  segment sum of ones over the same index column `D`, kept at least one. One program counts the degree as a vector
  `[N]`, takes the reciprocal `1 / max(deg, 1)`, makes it a column and multiplies; the other counts it as a column
  `[N, 1]` and divides by `max(deg, 1)`.

  The two counts agree because an edge lands on row `i` of either exactly when its signed index is `i`, and each
  landing edge contributes the same one. The two quotients agree on every extended real: the divisor `m = max(deg, 1)`
  is at least one, hence not zero, and off zero the quotient `x / m` is by definition `x * m⁻¹`; so
  `s * (1 / m) = s * (1 * m⁻¹) = s * m⁻¹ = s / m`, with no finiteness asked of `s`.
-/
import proofs.«158156_j83751862272173_2_alg».proof.Proof.LibScatterDims
import proofs.«158156_j83751862272173_2_alg».proof.Proof.LibEdgeReads
import Idealize.ShloMosaic.Lib.ValueIdx
import Idealize.ShloMosaic.PureOps.Ideal.Laws

noncomputable section

open scoped BigOperators

namespace Cert.Lib.MeanAgg

open Idealize.ShloMosaic Idealize.ShloMosaic.ValueIdx Cert.Lib.HostIndex Cert.Lib.EdgeReads

/-- A scatter record over the vector shapes with no window axis, the one operand axis inserted and named by the index,
    is the vector scatter's record (the remaining field is a proof). -/
theorem eq_vecScatterDims {N R : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) : ∃ wf, d = vecScatterDims N R wf := by
  obtain ⟨u, i, s, v, wf⟩ := d
  dsimp only at h1 h2 h3 h4
  subst h1 h2 h3 h4
  exact ⟨wf, rfl⟩

/-- THE HOST'S VECTOR SCATTER-ADD OF ANY RECORD WITH THE VECTOR NUMBERS, READ AT `i`: the operand's element plus the sum
    of the updates whose index, read signed, is `i`. -/
theorem hostScatterAdd_vec_apply {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) d x idx upd (ix1 i)
      = x (ix1 i) + ∑ e ∈ Finset.univ.filter (fun e : Fin R => (idx (ix2 e 0)).toInt = (i.val : Int)), upd (ix1 e) := by
  obtain ⟨wf, rfl⟩ := eq_vecScatterDims d h1 h2 h3 h4
  exact scatterAdd_vec_apply wf x idx upd i

/-- The f32 word of 1.0 denotes the extended real one. -/
theorem ofBits_one_f32 : Ideal.ofBits .f32 0x3F800000#32 = 1 := by
  simp [Ideal.ofBits, Ideal.ieee, -EReal.coe_mul]; norm_num

/-- Multiplying by the reciprocal of a divisor that is at least one is dividing by it, on every extended real. -/
theorem mul_recip_eq_div (s d : EReal) : s * Ideal.div 1 (max d 1) = Ideal.div s (max d 1) := by
  have hm : max d 1 ≠ 0 := (lt_of_lt_of_le zero_lt_one (le_max_right d 1)).ne'
  unfold Ideal.div
  rw [if_neg hm, if_neg hm, one_mul]

/-- THE TWO MEANS ARE ONE ARRAY. `zv`, `zc` are the zero-filled operands of the two degree counts, `uv`, `uc` their
    all-ones updates, `ov`, `ov'`, `oc` the all-ones arrays of the reciprocal and of the two floors. -/
theorem mean_mul_recip_eq_div {N R C w : Nat}
    (dv : ScatterDims ⟨1, ![N]⟩ ⟨2, ![R, 1]⟩ ⟨1, ![R]⟩)
    (hv1 : dv.updateWindowDims = []) (hv2 : dv.insertedWindowDims = [0]) (hv3 : dv.scatterDimsToOperandDims = [0])
    (hv4 : dv.indexVectorDim = 1)
    (dc : ScatterDims ⟨2, ![N, 1]⟩ ⟨2, ![R, 1]⟩ ⟨2, ![R, 1]⟩)
    (hc1 : dc.updateWindowDims = [1]) (hc2 : dc.insertedWindowDims = [0]) (hc3 : dc.scatterDimsToOperandDims = [0])
    (hc4 : dc.indexVectorDim = 1)
    (s : (⟨2, ![N, C]⟩ : Shape).Idx → EReal) (D : IVec ⟨2, ![R, 1]⟩ w) (zero : EReal)
    (zv ov ov' : (⟨1, ![N]⟩ : Shape).Idx → EReal) (uv : (⟨1, ![R]⟩ : Shape).Idx → EReal)
    (zc oc : (⟨2, ![N, 1]⟩ : Shape).Idx → EReal) (uc : (⟨2, ![R, 1]⟩ : Shape).Idx → EReal)
    (hzv : ∀ i, zv i = zero) (hov : ∀ i, ov i = 1) (hov' : ∀ i, ov' i = 1) (huv : ∀ i, uv i = 1)
    (hzc : ∀ i, zc i = zero) (hoc : ∀ i, oc i = 1) (huc : ∀ i, uc i = 1)
    (hb1 : (⟨1, ![N]⟩ : Shape).BroadcastsInDim ⟨2, ![N, 1]⟩ ![0])
    (hb2 hb2' : (⟨2, ![N, 1]⟩ : Shape).BroadcastsInDim ⟨2, ![N, C]⟩ ![0, 1]) :
    mulf (F := Ideal) (φ := .f32) s (broadcastInDim ⟨2, ![N, C]⟩ ![0, 1] hb2 (broadcastInDim ⟨2, ![N, 1]⟩ ![0] hb1
        (Host.divf (F := Ideal) (φ := .f32) ov
          (maximumf (F := Ideal) (φ := .f32) (Host.scatterAdd (F := Ideal) (φ := .f32) dv zv D uv) ov'))))
      = Host.divf (F := Ideal) (φ := .f32) s (broadcastInDim ⟨2, ![N, C]⟩ ![0, 1] hb2'
          (maximumf (F := Ideal) (φ := .f32) (Host.scatterAdd (F := Ideal) (φ := .f32) dc zc D uc) oc)) := by
  funext j
  obtain ⟨r, c, rfl⟩ : ∃ (r : Fin N) (c : Fin C), j = ix2 r c := ⟨j 0, j 1, eq_ix2 j⟩
  show s (ix2 r c) * broadcastInDim (s := ⟨2, ![N, 1]⟩) ⟨2, ![N, C]⟩ ![0, 1] hb2 _ (ix2 r c)
      = Ideal.div (s (ix2 r c)) (broadcastInDim (s := ⟨2, ![N, 1]⟩) ⟨2, ![N, C]⟩ ![0, 1] hb2' _ (ix2 r c))
  rw [column_broadcast_apply, column_broadcast_apply, column_of_vector_apply]
  show s (ix2 r c) * Ideal.div (ov (ix1 r)) (max (Host.scatterAdd (F := Ideal) (φ := .f32) dv zv D uv (ix1 r)) (ov' (ix1 r)))
      = Ideal.div (s (ix2 r c)) (max (Host.scatterAdd (F := Ideal) (φ := .f32) dc zc D uc (ix2 r (0 : Fin 1))) (oc (ix2 r (0 : Fin 1))))
  rw [hostScatterAdd_vec_apply dv hv1 hv2 hv3 hv4, hostScatterAdd_rows_apply dc hc1 hc2 hc3 hc4, hov, hov', hoc, hzv, hzc,
    Finset.sum_congr rfl (fun e _ => huv (ix1 e)), Finset.sum_congr rfl (fun e _ => huc (ix2 e (0 : Fin 1)))]
  exact mul_recip_eq_div _ _

end Cert.Lib.MeanAgg

end
-- ==== Proof.LibSeparableNorm.lean ====
/-
  A SYMMETRICALLY NORMALISED NEIGHBOUR SUM, TWO WAYS, over arbitrary extents and at the ideal values (nothing here
  mentions a program).

  In a bipartite graph with edges e = (u_e, i_e), write a = deg(u) and b = deg(i) for the degrees of the two ends of an
  edge. One arrangement weighs each edge by (a · b)^(-1/2), multiplies the gathered source row by that weight and sums the
  rows landing on each destination. The other gives every node the factor deg^(-1/2) where the degree is positive and zero
  elsewhere, scales the source table by its factor before gathering, sums, and scales each destination row by its own
  factor afterwards.

  The two agree on every extended real feature, for three reasons.

  * The real power x ^ y has the value 0 at x = 0 for every exponent y ≠ 0. So the guard "where the degree is positive"
    changes nothing: at degree 0 both branches are 0. And for reals a, b ≥ 0, (a · b)^(-1/2) = a^(-1/2) · b^(-1/2) with
    no exception at zero. The exponent word 0xBF000000 is the real -1/2.
  * A degree is a scatter-sum of ones from zero, that is the number of edges landing on the node: a real number that
    is not negative. So each factor a^(-1/2) is a real number ≥ 0, in particular neither negative nor ⊤.
  * A factor c with 0 ≤ c < ⊤ distributes over a finite sum of extended reals whatever the summands are. Hence
    c · Σ_e h_e · d_e = Σ_e (c · d_e) · h_e over the edges e landing on a node whose factor is c.

  The whole-array statement at the end puts these together: scaling after the scatter-sum of gathered pre-scaled rows is
  the scatter-sum of gathered rows weighed edge by edge, provided the edge weight of every edge landing on row n is the
  product of row n's factor and the source row's factor.
-/
import proofs.«158156_j83751862272173_2_alg».proof.Proof.LibHostIndex
import proofs.«158156_j83751862272173_2_alg».proof.Proof.LibScatterDims
import proofs.«158156_j83751862272173_2_alg».proof.Proof.LibRowGatherDims
import proofs.«158156_j83751862272173_2_alg».proof.Proof.LibGcnLaw
import proofs.«158156_j83751862272173_2_alg».proof.Proof.LibEdgeReads
import proofs.«158156_j83751862272173_2_alg».proof.Proof.LibColumnReads
import proofs.«158156_j83751862272173_2_alg».proof.Proof.LibSageMean
import Idealize.ShloMosaic.Lib.ValueIdx
import Idealize.ShloMosaic.Lib.IdealHost
import Idealize.ShloMosaic.PureOps.Ideal.Laws

noncomputable section

open scoped BigOperators

namespace Cert.Lib.SeparableNorm

open Idealize.ShloMosaic Idealize.ShloMosaic.ValueIdx
open Cert.Lib.HostIndex Cert.Lib.EdgeReads Cert.LibColumnReads Cert.Lib.MeanAgg Cert.Gcn

/-- The exponent: the value of the word `0xBF000000`. -/
local notation "mh" => Ideal.ofBits FTy.f32 (0xBF000000#32)

/-! ## The exponent and the power -/

/-- The f32 word `0xBF000000` denotes the real `-1/2`. -/
theorem negHalf : Ideal.ofBits .f32 0xBF000000#32 = ((-(1/2) : ℝ) : EReal) := by
  simp [Ideal.ofBits, Ideal.ieee, -EReal.coe_mul, -EReal.coe_neg]; norm_num

/-- For reals `a, b ≥ 0` the power `-1/2` of the product is the product of the powers, zero included. -/
theorem pow_mul (a b : ℝ) (ha : 0 ≤ a) (hb : 0 ≤ b) :
    Ideal.pow ((a : EReal) * (b : EReal)) mh = Ideal.pow (a : EReal) mh * Ideal.pow (b : EReal) mh := by
  rw [negHalf, ← EReal.coe_mul, Ideal.pow_coe_coe, Ideal.pow_coe_coe, Ideal.pow_coe_coe, ← EReal.coe_mul]
  exact congrArg _ (Real.mul_rpow ha hb)

/-- The same for two extended reals known to be reals that are not negative. -/
theorem pow_mul_of_real {x y : EReal} {a b : ℝ} (hx : x = (a : EReal)) (hy : y = (b : EReal)) (ha : 0 ≤ a) (hb : 0 ≤ b) :
    Ideal.pow (x * y) mh = Ideal.pow x mh * Ideal.pow y mh := by
  subst hx hy
  exact pow_mul a b ha hb

/-- The power `-1/2` of a real `a ≥ 0` is a real that is not negative: it lies in `[0, ⊤)`. -/
theorem pow_range (a : ℝ) (ha : 0 ≤ a) : 0 ≤ Ideal.pow (a : EReal) mh ∧ Ideal.pow (a : EReal) mh ≠ ⊤ := by
  rw [negHalf, Ideal.pow_coe_coe]
  exact ⟨EReal.coe_nonneg.mpr (Real.rpow_nonneg ha _), EReal.coe_ne_top _⟩

/-- The power `-1/2` of zero is zero. -/
theorem pow_zero : Ideal.pow ((0 : ℝ) : EReal) mh = 0 := by
  rw [negHalf, Ideal.pow_coe_coe]
  exact_mod_cast Real.zero_rpow (by norm_num : (-(1/2) : ℝ) ≠ 0)

/-! ## A degree is a real number that is not negative -/

/-- A finite sum of ones is a real number that is not negative. -/
theorem sum_ones_real {ι : Type*} (s : Finset ι) (f : ι → EReal) (hf : ∀ e ∈ s, f e = 1) :
    ∃ r : ℝ, 0 ≤ r ∧ ∑ e ∈ s, f e = (r : EReal) := by
  classical
  induction s using Finset.induction_on with
  | empty => exact ⟨0, le_refl _, by simp⟩
  | insert a s ha ih =>
    obtain ⟨r, hr, hs⟩ := ih fun e he => hf e (Finset.mem_insert_of_mem he)
    refine ⟨1 + r, by positivity, ?_⟩
    rw [Finset.sum_insert ha, hs, hf a (Finset.mem_insert_self a s), EReal.coe_add, EReal.coe_one]

/-- THE DEGREE COUNT IS A REAL: a vector scatter-sum of ones from zero reads, at every node, a real number that is not
    negative (the number of updates landing there). -/
theorem degree_real {N R w : ℕ} (d : ScatterDims ⟨1, ![N]⟩ ⟨2, ![R, 1]⟩ ⟨1, ![R]⟩)
    (hd1 : d.updateWindowDims = []) (hd2 : d.insertedWindowDims = [0]) (hd3 : d.scatterDimsToOperandDims = [0])
    (hd4 : d.indexVectorDim = 1)
    (z : FVec Ideal ⟨1, ![N]⟩ .f32) (hz : ∀ i, z i = 0) (idx : IVec ⟨2, ![R, 1]⟩ w)
    (ones : FVec Ideal ⟨1, ![R]⟩ .f32) (h1 : ∀ i, ones i = 1) (n : Fin N) :
    ∃ r : ℝ, 0 ≤ r ∧ Host.scatterAdd (F := Ideal) (φ := .f32) d z idx ones (ix1 n) = (r : EReal) := by
  obtain ⟨r, hr, hs⟩ := sum_ones_real
    (Finset.univ.filter fun e : Fin R => (idx (ix2 e 0)).toInt = (n.val : Int)) (fun e => ones (ix1 e)) fun e _ => h1 _
  refine ⟨r, hr, ?_⟩
  rw [hostScatterAdd_vec_apply d hd1 hd2 hd3 hd4, hz, zero_add, hs]

/-! ## The guarded factor -/

/-- A scalar word splat to any shape by the host's broadcast reads the value of the word. -/
theorem splat_apply {S : Shape} (hb : (⟨0, ![]⟩ : Shape).BroadcastsInDim S ![]) (w : BitVec 32) (i : S.Idx) :
    broadcastInDim S ![] hb (constant (F := Ideal) ⟨0, ![]⟩ .f32 w) i = Ideal.ofBits .f32 w := by
  rw [broadcastInDim_scalar_apply]; rfl

/-- THE GUARDED FACTOR AS A COLUMN: "the power `-1/2` of the degree where the degree is positive, zero elsewhere", made a
    column, reads at row `n` the power `-1/2` of the degree itself whenever that degree is a real that is not negative:
    at degree zero both branches are zero. -/
theorem guarded_factor_apply {N : ℕ} (deg zs : FVec Ideal ⟨1, ![N]⟩ .f32) (hzs : ∀ i, zs i = 0)
    (hb : (⟨0, ![]⟩ : Shape).BroadcastsInDim ⟨1, ![N]⟩ ![]) (hc : (⟨1, ![N]⟩ : Shape).ShapeCasts ⟨2, ![N, 1]⟩)
    (n : Fin N) (r : ℝ) (hr : 0 ≤ r) (hdeg : deg (ix1 n) = (r : EReal)) :
    shapeCast ⟨2, ![N, 1]⟩ (select (cmpf .ogt deg (broadcastInDim ⟨1, ![N]⟩ ![] hb (constant (F := Ideal) ⟨0, ![]⟩ .f32 0x00000000#32))) (Host.powf deg (broadcastInDim ⟨1, ![N]⟩ ![] hb (constant (F := Ideal) ⟨0, ![]⟩ .f32 0xBF000000#32))) zs) hc (ix2 n 0)
      = Ideal.pow (deg (ix1 n)) mh := by
  rw [shapeCast_a_a1_apply]
  show Scalar.select (Ideal.cmp .ogt (deg (ix1 n))
        (broadcastInDim ⟨1, ![N]⟩ ![] hb (constant (F := Ideal) ⟨0, ![]⟩ .f32 0x00000000#32) (ix1 n)))
      (Ideal.pow (deg (ix1 n)) (broadcastInDim ⟨1, ![N]⟩ ![] hb (constant (F := Ideal) ⟨0, ![]⟩ .f32 0xBF000000#32) (ix1 n)))
      (zs (ix1 n)) = _
  rw [splat_apply, splat_apply, hzs, Ideal.ofBits_zero_f32, hdeg]
  by_cases h : (0 : EReal) < (r : EReal)
  · simp [Scalar.select, Ideal.cmp, h]
  · have h0 : r = 0 := le_antisymm (by exact_mod_cast not_lt.mp h) hr
    subst h0
    rw [pow_zero]
    simp [Scalar.select, Ideal.cmp]

/-- So the guarded factor column lies in `[0, ⊤)` at every row whose degree is a real that is not negative. -/
theorem guarded_factor_range {N : ℕ} (deg zs : FVec Ideal ⟨1, ![N]⟩ .f32) (hzs : ∀ i, zs i = 0)
    (hb : (⟨0, ![]⟩ : Shape).BroadcastsInDim ⟨1, ![N]⟩ ![]) (hc : (⟨1, ![N]⟩ : Shape).ShapeCasts ⟨2, ![N, 1]⟩)
    (n : Fin N) (r : ℝ) (hr : 0 ≤ r) (hdeg : deg (ix1 n) = (r : EReal)) :
    0 ≤ shapeCast ⟨2, ![N, 1]⟩ (select (cmpf .ogt deg (broadcastInDim ⟨1, ![N]⟩ ![] hb (constant (F := Ideal) ⟨0, ![]⟩ .f32 0x00000000#32))) (Host.powf deg (broadcastInDim ⟨1, ![N]⟩ ![] hb (constant (F := Ideal) ⟨0, ![]⟩ .f32 0xBF000000#32))) zs) hc (ix2 n 0)
      ∧ shapeCast ⟨2, ![N, 1]⟩ (select (cmpf .ogt deg (broadcastInDim ⟨1, ![N]⟩ ![] hb (constant (F := Ideal) ⟨0, ![]⟩ .f32 0x00000000#32))) (Host.powf deg (broadcastInDim ⟨1, ![N]⟩ ![] hb (constant (F := Ideal) ⟨0, ![]⟩ .f32 0xBF000000#32))) zs) hc (ix2 n 0) ≠ ⊤ := by
  rw [guarded_factor_apply deg zs hzs hb hc n r hr hdeg, hdeg]
  exact pow_range r hr

/-! ## The edge weight -/

/-- A gather record over the vector shapes with no offset axis, the one operand axis collapsed and named by the start
    index, no batching axes and a slice of one element is the vector gather's record (the remaining field is a proof). -/
theorem eq_vecGatherDims {N R : Nat} (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) : ∃ wf, d = vecGatherDims N R wf := by
  obtain ⟨o, cs, ob, sb, sm, iv, ss, wf⟩ := d
  dsimp only at h1 h2 h3 h4 h5 h6 h7
  subst h1 h2 h3 h4 h5 h6 h7
  exact ⟨wf, rfl⟩

/-- The host's vector gather of any record with the vector numbers, read at `e`: the operand at the element the index
    of `e` names, read signed and clamped into `[0, N − 1]`. -/
theorem hostGather_vec_apply {α : Type} {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e) = x (ix1 ⟨min (idx (ix2 e 0)).toInt.toNat (N - 1), by omega⟩) := by
  obtain ⟨wf, rfl⟩ := eq_vecGatherDims d h1 h2 h3 h4 h5 h6 h7
  exact gather_vec_apply hN wf x idx e

/-- THE EDGE WEIGHT READ AT AN EDGE: the column of `(degU[u_e] · degI[i_e]) ^ (-1/2)` reads, at edge `e`, the power
    `-1/2` of the product of the two gathered degrees (each index read signed and clamped). -/
theorem edge_norm_apply {NU NI R : ℕ} (hNU : 0 < NU) (hNI : 0 < NI)
    (gU : GatherDims ⟨1, ![NU]⟩ ⟨2, ![R, 1]⟩ ⟨1, ![R]⟩) (gI : GatherDims ⟨1, ![NI]⟩ ⟨2, ![R, 1]⟩ ⟨1, ![R]⟩)
    (hU1 : gU.offsetDims = []) (hU2 : gU.collapsedSliceDims = [0]) (hU3 : gU.operandBatchingDims = [])
    (hU4 : gU.startIndicesBatchingDims = []) (hU5 : gU.startIndexMap = [0]) (hU6 : gU.indexVectorDim = 1)
    (hU7 : gU.sliceSizes = ![1])
    (hI1 : gI.offsetDims = []) (hI2 : gI.collapsedSliceDims = [0]) (hI3 : gI.operandBatchingDims = [])
    (hI4 : gI.startIndicesBatchingDims = []) (hI5 : gI.startIndexMap = [0]) (hI6 : gI.indexVectorDim = 1)
    (hI7 : gI.sliceSizes = ![1])
    (degU : FVec Ideal ⟨1, ![NU]⟩ .f32) (degI : FVec Ideal ⟨1, ![NI]⟩ .f32) (cu ci : IVec ⟨2, ![R, 1]⟩ 32)
    (hbm : (⟨0, ![]⟩ : Shape).BroadcastsInDim ⟨1, ![R]⟩ ![])
    (hb0 : (⟨1, ![R]⟩ : Shape).BroadcastsInDim ⟨2, ![R, 1]⟩ ![0]) (e : Fin R) :
    broadcastInDim ⟨2, ![R, 1]⟩ ![0] hb0 (Host.powf (mulf (Host.gather gU degU cu) (Host.gather gI degI ci)) (broadcastInDim ⟨1, ![R]⟩ ![] hbm (constant (F := Ideal) ⟨0, ![]⟩ .f32 0xBF000000#32))) (ix2 e 0)
      = Ideal.pow (degU (ix1 ⟨min (cu (ix2 e 0)).toInt.toNat (NU - 1), by omega⟩)
          * degI (ix1 ⟨min (ci (ix2 e 0)).toInt.toNat (NI - 1), by omega⟩)) mh := by
  rw [column_of_vector_apply]
  show Ideal.pow (Host.gather gU degU cu (ix1 e) * Host.gather gI degI ci (ix1 e))
      (broadcastInDim ⟨1, ![R]⟩ ![] hbm (constant (F := Ideal) ⟨0, ![]⟩ .f32 0xBF000000#32) (ix1 e)) = _
  rw [splat_apply, hostGather_vec_apply hNU gU hU1 hU2 hU3 hU4 hU5 hU6 hU7,
    hostGather_vec_apply hNI gI hI1 hI2 hI3 hI4 hI5 hI6 hI7]

/-! ## The layer law as whole arrays -/

/-- The source row an edge gathers: its index word read signed and clamped into `[0, M − 1]`. -/
def gatherRow {M R : ℕ} (hM : 0 < M) (ci : IVec ⟨2, ![R, 1]⟩ 32) (e : Fin R) : Fin M :=
  ⟨min (ci (ix2 e 0)).toInt.toNat (M - 1), by omega⟩

/-- THE LAYER LAW AS WHOLE ARRAYS. Scale the source table `H` by the column `dM`, gather a row per edge, scatter-sum
    the rows onto their destinations from zero, and scale each destination row by the column `dN`: this is the scatter-sum
    from zero of the gathered rows of `H` each weighed by the edge column `nrm`, provided the factors `dN` lie in
    `[0, ⊤)` and the weight of every edge landing on row `n` is `dN n · dM (source row)`. -/
theorem layer_agg {N M R C : ℕ} (hM : 0 < M)
    (gdK gdR : GatherDims ⟨2, ![M, C]⟩ ⟨2, ![R, 1]⟩ ⟨2, ![R, C]⟩)
    (hK1 : gdK.offsetDims = [1]) (hK2 : gdK.collapsedSliceDims = [0]) (hK3 : gdK.operandBatchingDims = [])
    (hK4 : gdK.startIndicesBatchingDims = []) (hK5 : gdK.startIndexMap = [0]) (hK6 : gdK.indexVectorDim = 1)
    (hK7 : gdK.sliceSizes = ![1, C])
    (hR1 : gdR.offsetDims = [1]) (hR2 : gdR.collapsedSliceDims = [0]) (hR3 : gdR.operandBatchingDims = [])
    (hR4 : gdR.startIndicesBatchingDims = []) (hR5 : gdR.startIndexMap = [0]) (hR6 : gdR.indexVectorDim = 1)
    (hR7 : gdR.sliceSizes = ![1, C])
    (sdK sdR : ScatterDims ⟨2, ![N, C]⟩ ⟨2, ![R, 1]⟩ ⟨2, ![R, C]⟩)
    (hsK1 : sdK.updateWindowDims = [1]) (hsK2 : sdK.insertedWindowDims = [0])
    (hsK3 : sdK.scatterDimsToOperandDims = [0]) (hsK4 : sdK.indexVectorDim = 1)
    (hsR1 : sdR.updateWindowDims = [1]) (hsR2 : sdR.insertedWindowDims = [0])
    (hsR3 : sdR.scatterDimsToOperandDims = [0]) (hsR4 : sdR.indexVectorDim = 1)
    (dN : FVec Ideal ⟨2, ![N, 1]⟩ .f32) (dM : FVec Ideal ⟨2, ![M, 1]⟩ .f32) (nrm : FVec Ideal ⟨2, ![R, 1]⟩ .f32)
    (h0 : ∀ n, 0 ≤ dN (ix2 n 0)) (hT : ∀ n, dN (ix2 n 0) ≠ ⊤) (ri ci : IVec ⟨2, ![R, 1]⟩ 32)
    (hnrm : ∀ (e : Fin R) (n : Fin N), (ri (ix2 e 0)).toInt = (n.val : Int) →
      nrm (ix2 e 0) = dN (ix2 n 0) * dM (ix2 (gatherRow hM ci e) 0))
    (ZK ZR : FVec Ideal ⟨2, ![N, C]⟩ .f32) (hZK : ∀ i, ZK i = 0) (hZR : ∀ i, ZR i = 0)
    (H : FVec Ideal ⟨2, ![M, C]⟩ .f32)
    (hbN : (⟨2, ![N, 1]⟩ : Shape).BroadcastsInDim ⟨2, ![N, C]⟩ ![0, 1])
    (hbM : (⟨2, ![M, 1]⟩ : Shape).BroadcastsInDim ⟨2, ![M, C]⟩ ![0, 1])
    (hbR : (⟨2, ![R, 1]⟩ : Shape).BroadcastsInDim ⟨2, ![R, C]⟩ ![0, 1]) :
    mulf (F := Ideal) (φ := .f32) (Host.scatterAdd (F := Ideal) (φ := .f32) sdK ZK ri (Host.gather gdK (mulf (F := Ideal) (φ := .f32) H (broadcastInDim ⟨2, ![M, C]⟩ ![0, 1] hbM dM)) ci)) (broadcastInDim ⟨2, ![N, C]⟩ ![0, 1] hbN dN)
      = Host.scatterAdd (F := Ideal) (φ := .f32) sdR ZR ri (mulf (F := Ideal) (φ := .f32) (broadcastInDim ⟨2, ![R, C]⟩ ![0, 1] hbR nrm) (Host.gather gdR H ci)) := by
  funext j
  obtain ⟨n, c, rfl⟩ : ∃ (n : Fin N) (c : Fin C), j = ix2 n c := ⟨j 0, j 1, eq_ix2 j⟩
  show Host.scatterAdd (F := Ideal) (φ := .f32) sdK ZK ri _ (ix2 n c)
      * broadcastInDim (s := ⟨2, ![N, 1]⟩) ⟨2, ![N, C]⟩ ![0, 1] hbN dN (ix2 n c) = _
  rw [column_broadcast_apply, hostScatterAdd_rows_apply sdK hsK1 hsK2 hsK3 hsK4,
    hostScatterAdd_rows_apply sdR hsR1 hsR2 hsR3 hsR4, hZK, hZR]
  have hL : ∀ e : Fin R, Host.gather gdK (mulf (F := Ideal) (φ := .f32) H (broadcastInDim ⟨2, ![M, C]⟩ ![0, 1] hbM dM)) ci (ix2 e c)
      = H (ix2 (gatherRow hM ci e) c) * dM (ix2 (gatherRow hM ci e) 0) := fun e => by
    rw [hostGather_rows_apply hM gdK hK1 hK2 hK3 hK4 hK5 hK6 hK7]
    show H (ix2 (gatherRow hM ci e) c)
      * broadcastInDim (s := ⟨2, ![M, 1]⟩) ⟨2, ![M, C]⟩ ![0, 1] hbM dM (ix2 (gatherRow hM ci e) c) = _
    rw [column_broadcast_apply]
  have hRt : ∀ e ∈ Finset.univ.filter (fun e : Fin R => (ri (ix2 e 0)).toInt = (n.val : Int)),
      mulf (F := Ideal) (φ := .f32) (broadcastInDim ⟨2, ![R, C]⟩ ![0, 1] hbR nrm) (Host.gather gdR H ci) (ix2 e c)
      = H (ix2 (gatherRow hM ci e) c) * (dN (ix2 n 0) * dM (ix2 (gatherRow hM ci e) 0)) := fun e he => by
    show broadcastInDim (s := ⟨2, ![R, 1]⟩) ⟨2, ![R, C]⟩ ![0, 1] hbR nrm (ix2 e c) * Host.gather gdR H ci (ix2 e c) = _
    rw [column_broadcast_apply, hostGather_rows_apply hM gdR hR1 hR2 hR3 hR4 hR5 hR6 hR7,
      hnrm e n (Finset.mem_filter.mp he).2, mul_comm]
    rfl
  rw [Finset.sum_congr rfl fun e _ => hL e, Finset.sum_congr rfl hRt, mul_comm]
  exact layer_law _ (dN (ix2 n 0)) 0 rfl (h0 n) (hT n) (fun e => H (ix2 (gatherRow hM ci e) c))
    (fun e => dM (ix2 (gatherRow hM ci e) 0)) (fun _ => dN (ix2 n 0)) fun _ _ => rfl

end Cert.Lib.SeparableNorm

end
-- ==== Proof.RefBridge.lean ====
/-
  THE REFERENCE'S ARRANGEMENT IS THE KERNEL'S, AS WHOLE ARRAYS.

  The reference weighs every edge (u, i) by (deg u · deg i)^(-1/2), multiplies the gathered source row by the weight and
  sums the rows onto their destinations; then it divides every row by the larger of its length and a floor, adds the unit
  rows times the layer's weight onto the running embeddings, and feeds the unit rows to the next round. The kernel's
  arrangement gives each node the factor deg^(-1/2) (zero at degree zero), scales the source table by the factors before
  the gather and the sums by the destination's factors after the scatter.

  Round by round the two agree. A degree is a count, so a real number that is not negative; for such reals
  (a · b)^(-1/2) = a^(-1/2) · b^(-1/2), and the guarded factor is a^(-1/2) itself; an edge whose destination word is the
  row n (read signed) gathers, after the wrap of negative words and the clamp, the degree of row n itself; and a factor in
  [0, ⊤) distributes over the sum of the rows landing on a node. So each of the reference's weighted sums is the kernel's
  sum of pre-scaled rows scaled by the destination's factors. Everything after the sums (the row normalisation, the
  running embeddings, the gathers of the results) is spelt the same way on both sides.
-/
import proofs.«158156_j83751862272173_2_alg».proof.Proof.KernelSpec
import proofs.«158156_j83751862272173_2_alg».proof.Proof.Gen.ReferenceIdeal.Run
import proofs.«158156_j83751862272173_2_alg».proof.Proof.LibSeparableNorm
import proofs.«158156_j83751862272173_2_alg».proof.Proof.LibRowNormalize
import proofs.«158156_j83751862272173_2_alg».proof.Proof.LibGcnLaw

noncomputable section

open scoped BigOperators

namespace Cert.Proof.Bridge

open Idealize.ShloMosaic Idealize.ShloMosaic.ValueIdx Idealize.SL.Sem Idealize.ShloMosaic.StableHlo
open Cert.ReferenceIdeal Cert.ReferenceIdeal.Gen Cert.ReferenceIdeal.Value
open Cert.KernelIdeal.Spec
open Cert.Lib.SeparableNorm Cert.Lib.EdgeReads

/-- The exponent: the value of the word `0xBF000000`. -/
local notation "mh" => Ideal.ofBits FTy.f32 (0xBF000000#32)

/-! ## Over arbitrary extents -/

/-- A column of index words, negative words wrapped by the extent `N`: at an edge whose word, read signed, is the row
    `n < N`, the wrapped word clamped into `[0, N − 1]` is `n`. -/
theorem wrap_clamp {R N : ℕ} (hN : N < 2 ^ 31) (a : IVec ⟨1, ![R]⟩ 32)
    (hb0 : (⟨1, ![R]⟩ : Shape).BroadcastsInDim ⟨2, ![R, 1]⟩ ![0])
    (hbs : (⟨0, ![]⟩ : Shape).BroadcastsInDim ⟨1, ![R]⟩ ![])
    (e : Fin R) (n : Fin N) (hw : (a (ix1 e)).toInt = (n.val : Int)) :
    min ((broadcastInDim ⟨2, ![R, 1]⟩ ![0] hb0 (select (cmpi .slt a (broadcastInDim ⟨1, ![R]⟩ ![] hbs (constantI ⟨0, ![]⟩ 32 0#32))) (addi a (broadcastInDim ⟨1, ![R]⟩ ![] hbs (constantI ⟨0, ![]⟩ 32 (BitVec.ofNat 32 N)))) a)) (ix2 e 0)).toInt.toNat (N - 1) = n.val := by
  rw [column_of_vector_apply]
  exact Cert.Gcn.wrap_clamp_of_toInt_eq hN (a (ix1 e)) n hw

/-- The edge weight read at an edge, with the two gathered rows named. -/
theorem edge_norm_row {NU NI R : ℕ} (hNU : 0 < NU) (hNI : 0 < NI)
    (gU : GatherDims ⟨1, ![NU]⟩ ⟨2, ![R, 1]⟩ ⟨1, ![R]⟩) (gI : GatherDims ⟨1, ![NI]⟩ ⟨2, ![R, 1]⟩ ⟨1, ![R]⟩)
    (hU1 : gU.offsetDims = []) (hU2 : gU.collapsedSliceDims = [0]) (hU3 : gU.operandBatchingDims = [])
    (hU4 : gU.startIndicesBatchingDims = []) (hU5 : gU.startIndexMap = [0]) (hU6 : gU.indexVectorDim = 1)
    (hU7 : gU.sliceSizes = ![1])
    (hI1 : gI.offsetDims = []) (hI2 : gI.collapsedSliceDims = [0]) (hI3 : gI.operandBatchingDims = [])
    (hI4 : gI.startIndicesBatchingDims = []) (hI5 : gI.startIndexMap = [0]) (hI6 : gI.indexVectorDim = 1)
    (hI7 : gI.sliceSizes = ![1])
    (dU : FVec Ideal ⟨1, ![NU]⟩ .f32) (dI : FVec Ideal ⟨1, ![NI]⟩ .f32) (cu ci : IVec ⟨2, ![R, 1]⟩ 32)
    (hbm : (⟨0, ![]⟩ : Shape).BroadcastsInDim ⟨1, ![R]⟩ ![])
    (hb0 : (⟨1, ![R]⟩ : Shape).BroadcastsInDim ⟨2, ![R, 1]⟩ ![0]) (e : Fin R) :
    broadcastInDim ⟨2, ![R, 1]⟩ ![0] hb0 (Host.powf (mulf (Host.gather gU dU cu) (Host.gather gI dI ci)) (broadcastInDim ⟨1, ![R]⟩ ![] hbm (constant (F := Ideal) ⟨0, ![]⟩ .f32 0xBF000000#32))) (ix2 e 0)
      = Ideal.pow (dU (ix1 (gatherRow hNU cu e)) * dI (ix1 (gatherRow hNI ci e))) mh :=
  edge_norm_apply hNU hNI gU gI hU1 hU2 hU3 hU4 hU5 hU6 hU7 hI1 hI2 hI3 hI4 hI5 hI6 hI7 dU dI cu ci hbm hb0 e

/-! ## The side conditions -/

/-- The layout facts, as the reference's own shape facts. -/
theorem side : Side where
  hu := h_S_
  rU := reducesTo_S200000x64_S200000_d1
  b0U := bcast_S200000_S200000x1_0
  bsU := bcast_S_S200000x1
  b1U := bcast_S200000x1_S200000x64_0_1
  bcU := bcast_S_S200000x64
  rI := reducesTo_S100000x64_S100000_d1
  b0I := bcast_S100000_S100000x1_0
  bsI := bcast_S_S100000x1
  b1I := bcast_S100000x1_S100000x64_0_1
  bcI := bcast_S_S100000x64

/-! ## Degrees and factors -/

theorem zero_splat {S : Shape} (hb : (⟨0, ![]⟩ : Shape).BroadcastsInDim S ![]) (i : S.Idx) :
    broadcastInDim S ![] hb (constant (F := Ideal) ⟨0, ![]⟩ .f32 0x00000000#32) i = 0 :=
  (splat_apply hb _ i).trans Ideal.ofBits_zero_f32

theorem onesE_apply (i : S2000000.Idx) : onesE i = 1 :=
  (splat_apply _ _ i).trans Ideal.ofBits_one_f32

/-- A user's degree is a real number that is not negative. -/
theorem degU_real (a2 : IVec S2000000 32) (n : Fin 200000) : ∃ r : ℝ, 0 ≤ r ∧ degU a2 (ix1 n) = (r : EReal) := by
  unfold degU
  exact degree_real _ rfl rfl rfl rfl _ (fun i => zero_splat _ i) _ onesE onesE_apply n

/-- An item's degree is a real number that is not negative. -/
theorem degI_real (a3 : IVec S2000000 32) (n : Fin 100000) : ∃ r : ℝ, 0 ≤ r ∧ degI a3 (ix1 n) = (r : EReal) := by
  unfold degI
  exact degree_real _ rfl rfl rfl rfl _ (fun i => zero_splat _ i) _ onesE onesE_apply n

/-- A user's factor is its degree to the power `-1/2`. -/
theorem facU_apply (a2 : IVec S2000000 32) (n : Fin 200000) : facU a2 (ix2 n 0) = Ideal.pow (degU a2 (ix1 n)) mh := by
  obtain ⟨r, hr, hd⟩ := degU_real a2 n
  unfold facU
  exact guarded_factor_apply (degU a2) _ (fun i => zero_splat _ i) _ _ n r hr hd

/-- An item's factor is its degree to the power `-1/2`. -/
theorem facI_apply (a3 : IVec S2000000 32) (n : Fin 100000) : facI a3 (ix2 n 0) = Ideal.pow (degI a3 (ix1 n)) mh := by
  obtain ⟨r, hr, hd⟩ := degI_real a3 n
  unfold facI
  exact guarded_factor_apply (degI a3) _ (fun i => zero_splat _ i) _ _ n r hr hd

/-- A user's factor lies in `[0, ⊤)`. -/
theorem facU_range (a2 : IVec S2000000 32) (n : Fin 200000) : 0 ≤ facU a2 (ix2 n 0) ∧ facU a2 (ix2 n 0) ≠ ⊤ := by
  obtain ⟨r, hr, hd⟩ := degU_real a2 n
  rw [facU_apply, hd]
  exact pow_range r hr

/-- An item's factor lies in `[0, ⊤)`. -/
theorem facI_range (a3 : IVec S2000000 32) (n : Fin 100000) : 0 ≤ facI a3 (ix2 n 0) ∧ facI a3 (ix2 n 0) ≠ ⊤ := by
  obtain ⟨r, hr, hd⟩ := degI_real a3 n
  rw [facI_apply, hd]
  exact pow_range r hr

/-! ## The edge weight -/

/-- The reference's edge weight column, over the kernel arrangement's degrees and index columns. -/
def nrm (A : Args) : FVec Ideal S2000000x1 .f32 :=
  broadcastInDim S2000000x1 ![0] bcast_S2000000_S2000000x1_0 (Host.powf (F := Ideal) (φ := .f32) (mulf (F := Ideal) (φ := .f32) (Host.gather gather_S200000_S2000000x1_S2000000_n_0_n_n_0_1_1 (degU A.a2) (wrapCol 200000#32 A.a2)) (Host.gather gather_S100000_S2000000x1_S2000000_n_0_n_n_0_1_1 (degI A.a3) (wrapCol 100000#32 A.a3))) (broadcastInDim S2000000 ![] bcast_S_S2000000 (constant (F := Ideal) S_ .f32 0xBF000000#32)))

/-- The weight of an edge is the product of its two ends' factors, the ends read through the wrapped, clamped words. -/
theorem nrm_apply (A : Args) (e : Fin 2000000) :
    nrm A (ix2 e 0) = facU A.a2 (ix2 (gatherRow (M := 200000) (by norm_num) (wrapCol 200000#32 A.a2) e) 0)
      * facI A.a3 (ix2 (gatherRow (M := 100000) (by norm_num) (wrapCol 100000#32 A.a3) e) 0) := by
  obtain ⟨ru, hru, hdu⟩ := degU_real A.a2 (gatherRow (M := 200000) (by norm_num) (wrapCol 200000#32 A.a2) e)
  obtain ⟨ri, hri, hdi⟩ := degI_real A.a3 (gatherRow (M := 100000) (by norm_num) (wrapCol 100000#32 A.a3) e)
  rw [facU_apply, facI_apply, ← pow_mul_of_real hdu hdi hru hri]
  exact edge_norm_row (NU := 200000) (NI := 100000) (R := 2000000) (by norm_num) (by norm_num)
    gather_S200000_S2000000x1_S2000000_n_0_n_n_0_1_1 gather_S100000_S2000000x1_S2000000_n_0_n_n_0_1_1
    rfl rfl rfl rfl rfl rfl rfl rfl rfl rfl rfl rfl rfl rfl (degU A.a2) (degI A.a3) (wrapCol 200000#32 A.a2)
    (wrapCol 100000#32 A.a3) bcast_S_S2000000 bcast_S2000000_S2000000x1_0 e

/-- An edge landing on user `n` gathers user `n`'s degree. -/
theorem rowU_of_raw (A : Args) (e : Fin 2000000) (n : Fin 200000) (h : (rawCol A.a2 (ix2 e 0)).toInt = (n.val : Int)) :
    gatherRow (M := 200000) (by norm_num) (wrapCol 200000#32 A.a2) e = n := by
  refine Fin.ext ?_
  have hw : (A.a2 (ix1 e)).toInt = (n.val : Int) := by
    rw [← h]; unfold rawCol; rw [column_of_vector_apply]
  exact wrap_clamp (R := 2000000) (N := 200000) (by norm_num) A.a2 _ _ e n hw

/-- An edge landing on item `n` gathers item `n`'s degree. -/
theorem rowI_of_raw (A : Args) (e : Fin 2000000) (n : Fin 100000) (h : (rawCol A.a3 (ix2 e 0)).toInt = (n.val : Int)) :
    gatherRow (M := 100000) (by norm_num) (wrapCol 100000#32 A.a3) e = n := by
  refine Fin.ext ?_
  have hw : (A.a3 (ix1 e)).toInt = (n.val : Int) := by
    rw [← h]; unfold rawCol; rw [column_of_vector_apply]
  exact wrap_clamp (R := 2000000) (N := 100000) (by norm_num) A.a3 _ _ e n hw

/-- The weight of an edge landing on user `n`: user `n`'s factor times the source item's. -/
theorem nrm_users (A : Args) (e : Fin 2000000) (n : Fin 200000) (h : (rawCol A.a2 (ix2 e 0)).toInt = (n.val : Int)) :
    nrm A (ix2 e 0) = facU A.a2 (ix2 n 0)
      * facI A.a3 (ix2 (gatherRow (M := 100000) (by norm_num) (wrapCol 100000#32 A.a3) e) 0) := by
  rw [nrm_apply, rowU_of_raw A e n h]

/-- The weight of an edge landing on item `n`: item `n`'s factor times the source user's. -/
theorem nrm_items (A : Args) (e : Fin 2000000) (n : Fin 100000) (h : (rawCol A.a3 (ix2 e 0)).toInt = (n.val : Int)) :
    nrm A (ix2 e 0) = facI A.a3 (ix2 n 0)
      * facU A.a2 (ix2 (gatherRow (M := 200000) (by norm_num) (wrapCol 200000#32 A.a2) e) 0) := by
  rw [nrm_apply, rowI_of_raw A e n h, mul_comm]

/-! ## One aggregation -/

/-- THE USERS' SUM. The reference's weighted sum of gathered item rows `H` onto the users is the kernel arrangement's:
    the sum of the rows of `H` pre-scaled by the items' factors, scaled by the users' factors. -/
theorem aggU_ref (A : Args) (H : FVec Ideal S100000x64 .f32) :
    Host.scatterAdd (F := Ideal) (φ := .f32) scatter_S200000x64_S2000000x1_S2000000x64_1_0_0_1 (broadcastInDim S200000x64 ![] bcast_S_S200000x64 (constant (F := Ideal) S_ .f32 0x00000000#32)) (rawCol A.a2) (mulf (F := Ideal) (φ := .f32) (broadcastInDim S2000000x64 ![0, 1] bcast_S2000000x1_S2000000x64_0_1 (nrm A)) (Host.gather gather_S100000x64_S2000000x1_S2000000x64_1_0_n_n_0_1_164 H (wrapCol 100000#32 A.a3)))
      = scaleU side (aggU (scaleI side H (facI A.a3)) A.a2 A.a3) (facU A.a2) := by
  unfold scaleU aggU scaleI
  exact (layer_agg (N := 200000) (M := 100000) (R := 2000000) (C := 64) (by norm_num)
    Cert.KernelIdeal.gather_S100000x64_S2000000x1_S2000000x64_1_0_n_n_0_1_164
    gather_S100000x64_S2000000x1_S2000000x64_1_0_n_n_0_1_164
    rfl rfl rfl rfl rfl rfl rfl rfl rfl rfl rfl rfl rfl rfl
    Cert.KernelIdeal.scatter_S200000x64_S2000000x1_S2000000x64_1_0_0_1
    scatter_S200000x64_S2000000x1_S2000000x64_1_0_0_1
    rfl rfl rfl rfl rfl rfl rfl rfl
    (facU A.a2) (facI A.a3) (nrm A) (fun n => (facU_range A.a2 n).1) (fun n => (facU_range A.a2 n).2)
    (rawCol A.a2) (wrapCol 100000#32 A.a3) (nrm_users A) _ _ (fun i => zero_splat _ i) (fun i => zero_splat _ i) H
    _ _ _).symm

/-- THE ITEMS' SUM. The same with the two sides exchanged. -/
theorem aggI_ref (A : Args) (H : FVec Ideal S200000x64 .f32) :
    Host.scatterAdd (F := Ideal) (φ := .f32) scatter_S100000x64_S2000000x1_S2000000x64_1_0_0_1 (broadcastInDim S100000x64 ![] bcast_S_S100000x64 (constant (F := Ideal) S_ .f32 0x00000000#32)) (rawCol A.a3) (mulf (F := Ideal) (φ := .f32) (broadcastInDim S2000000x64 ![0, 1] bcast_S2000000x1_S2000000x64_0_1 (nrm A)) (Host.gather gather_S200000x64_S2000000x1_S2000000x64_1_0_n_n_0_1_164 H (wrapCol 200000#32 A.a2)))
      = scaleI side (aggI (scaleU side H (facU A.a2)) A.a2 A.a3) (facI A.a3) := by
  unfold scaleI aggI scaleU
  exact (layer_agg (N := 100000) (M := 200000) (R := 2000000) (C := 64) (by norm_num)
    Cert.KernelIdeal.gather_S200000x64_S2000000x1_S2000000x64_1_0_n_n_0_1_164
    gather_S200000x64_S2000000x1_S2000000x64_1_0_n_n_0_1_164
    rfl rfl rfl rfl rfl rfl rfl rfl rfl rfl rfl rfl rfl rfl
    Cert.KernelIdeal.scatter_S100000x64_S2000000x1_S2000000x64_1_0_0_1
    scatter_S100000x64_S2000000x1_S2000000x64_1_0_0_1
    rfl rfl rfl rfl rfl rfl rfl rfl
    (facI A.a3) (facU A.a2) (nrm A) (fun n => (facI_range A.a3 n).1) (fun n => (facI_range A.a3 n).2)
    (rawCol A.a3) (wrapCol 200000#32 A.a2) (nrm_items A) _ _ (fun i => zero_splat _ i) (fun i => zero_splat _ i) H
    _ _ _).symm

/-! ## The reference's run, round by round -/

section Run

variable (V0 : Valuation τ sig (Elt Ideal)) (A : Args)

/-- The reference's seven argument buffers hold the arrays `A`. -/
structure Agrees : Prop where
  h0 : (V0 (Proc.devRef .tc main_arg0) : FVec Ideal S200000x64 .f32) = A.a0
  h1 : (V0 (Proc.devRef .tc main_arg1) : FVec Ideal S100000x64 .f32) = A.a1
  h2 : (V0 (Proc.devRef .tc main_arg2) : IVec S2000000 32) = A.a2
  h3 : (V0 (Proc.devRef .tc main_arg3) : IVec S2000000 32) = A.a3
  h4 : (V0 (Proc.devRef .tc main_arg4) : IVec S8192 32) = A.a4
  h5 : (V0 (Proc.devRef .tc main_arg5) : IVec S8192 32) = A.a5
  h6 : (V0 (Proc.devRef .tc main_arg6) : IVec S8192 32) = A.a6

variable {V0 A} (hA : Agrees V0 A)
include hA

/-- The edge weight column. -/
theorem v24_eq : (res_main_v24 V0 : FVec Ideal S2000000x1 .f32) = nrm A := by
  unfold res_main_v24
  rw [hA.h2, hA.h3]
  rfl

/-- Round 1, the users' sums. -/
theorem v48_eq : (res_main_v48 V0 : FVec Ideal S200000x64 .f32) = scaleU side (ru1 side A) (facU A.a2) := by
  unfold res_main_v48
  rw [v24_eq hA, hA.h1, hA.h2, hA.h3]
  exact aggU_ref A A.a1

/-- Round 1, the items' sums. -/
theorem v36_eq : (res_main_v36 V0 : FVec Ideal S100000x64 .f32) = scaleI side (ri1 side A) (facI A.a3) := by
  unfold res_main_v36
  rw [v24_eq hA, hA.h0, hA.h2, hA.h3]
  exact aggI_ref A A.a0

/-- Round 1, the users' unit rows. -/
theorem v56_eq : (res_main_v56 V0 : FVec Ideal S200000x64 .f32) = unitU side (ru1 side A) (facU A.a2) := by
  unfold res_main_v56
  rw [v48_eq hA]
  rfl

/-- Round 1, the items' unit rows. -/
theorem v64_eq : (res_main_v64 V0 : FVec Ideal S100000x64 .f32) = unitI side (ri1 side A) (facI A.a3) := by
  unfold res_main_v64
  rw [v36_eq hA]
  rfl

/-- Round 2, the users' sums. -/
theorem v94_eq : (res_main_v94 V0 : FVec Ideal S200000x64 .f32) = scaleU side (ru2 side A) (facU A.a2) := by
  unfold res_main_v94
  rw [v24_eq hA, v64_eq hA, hA.h2, hA.h3]
  exact aggU_ref A (unitI side (ri1 side A) (facI A.a3))

/-- Round 2, the items' sums. -/
theorem v82_eq : (res_main_v82 V0 : FVec Ideal S100000x64 .f32) = scaleI side (ri2 side A) (facI A.a3) := by
  unfold res_main_v82
  rw [v24_eq hA, v56_eq hA, hA.h2, hA.h3]
  exact aggI_ref A (unitU side (ru1 side A) (facU A.a2))

/-- Round 2, the users' unit rows. -/
theorem v102_eq : (res_main_v102 V0 : FVec Ideal S200000x64 .f32) = unitU side (ru2 side A) (facU A.a2) := by
  unfold res_main_v102
  rw [v94_eq hA]
  rfl

/-- Round 2, the items' unit rows. -/
theorem v110_eq : (res_main_v110 V0 : FVec Ideal S100000x64 .f32) = unitI side (ri2 side A) (facI A.a3) := by
  unfold res_main_v110
  rw [v82_eq hA]
  rfl

/-- Round 3, the users' sums. -/
theorem v140_eq : (res_main_v140 V0 : FVec Ideal S200000x64 .f32) = scaleU side (ru3 side A) (facU A.a2) := by
  unfold res_main_v140
  rw [v24_eq hA, v110_eq hA, hA.h2, hA.h3]
  exact aggU_ref A (unitI side (ri2 side A) (facI A.a3))

/-- Round 3, the items' sums. -/
theorem v128_eq : (res_main_v128 V0 : FVec Ideal S100000x64 .f32) = scaleI side (ri3 side A) (facI A.a3) := by
  unfold res_main_v128
  rw [v24_eq hA, v102_eq hA, hA.h2, hA.h3]
  exact aggI_ref A (unitU side (ru2 side A) (facU A.a2))

/-- The items' final embeddings. -/
theorem v162_eq : (res_main_v162 V0 : FVec Ideal S100000x64 .f32) = ie3 side A := by
  unfold res_main_v162
  rw [v64_eq hA, v110_eq hA, v128_eq hA, hA.h1]
  rfl

/-- The first result: rows of the users' final embeddings. -/
theorem out0_eq : (val4 V0 (Proc.devRef .tc main_v169) : FVec Ideal S8192x64 .f32) = out0 side A := by
  rw [val4_main_v169, v56_eq hA, v102_eq hA, v140_eq hA, hA.h0, hA.h4]
  rfl

/-- The second result: rows of the items' final embeddings. -/
theorem out1_eq : (val4 V0 (Proc.devRef .tc main_v176) : FVec Ideal S8192x64 .f32) = out1 side A := by
  rw [val4_main_v176, v162_eq hA, hA.h5]
  rfl

/-- The third result: rows of the items' final embeddings. -/
theorem out2_eq : (val4 V0 (Proc.devRef .tc main_v183) : FVec Ideal S8192x64 .f32) = out2 side A := by
  rw [val4_main_v183, v162_eq hA, hA.h6]
  rfl

end Run

/-! ## The statements -/

/-- The reference's first result is the kernel arrangement's, of the same arguments. -/
theorem ref_out0 (V0 : Valuation τ sig (Elt Ideal)) (A : Args)
    (h0 : (V0 (Proc.devRef .tc main_arg0) : FVec Ideal S200000x64 .f32) = A.a0)
    (h1 : (V0 (Proc.devRef .tc main_arg1) : FVec Ideal S100000x64 .f32) = A.a1)
    (h2 : (V0 (Proc.devRef .tc main_arg2) : IVec S2000000 32) = A.a2)
    (h3 : (V0 (Proc.devRef .tc main_arg3) : IVec S2000000 32) = A.a3)
    (h4 : (V0 (Proc.devRef .tc main_arg4) : IVec S8192 32) = A.a4)
    (h5 : (V0 (Proc.devRef .tc main_arg5) : IVec S8192 32) = A.a5)
    (h6 : (V0 (Proc.devRef .tc main_arg6) : IVec S8192 32) = A.a6) :
    (val4 V0 (Proc.devRef .tc main_v169) : FVec Ideal S8192x64 .f32) = out0 side A :=
  out0_eq ⟨h0, h1, h2, h3, h4, h5, h6⟩

/-- The reference's second result is the kernel arrangement's. -/
theorem ref_out1 (V0 : Valuation τ sig (Elt Ideal)) (A : Args)
    (h0 : (V0 (Proc.devRef .tc main_arg0) : FVec Ideal S200000x64 .f32) = A.a0)
    (h1 : (V0 (Proc.devRef .tc main_arg1) : FVec Ideal S100000x64 .f32) = A.a1)
    (h2 : (V0 (Proc.devRef .tc main_arg2) : IVec S2000000 32) = A.a2)
    (h3 : (V0 (Proc.devRef .tc main_arg3) : IVec S2000000 32) = A.a3)
    (h4 : (V0 (Proc.devRef .tc main_arg4) : IVec S8192 32) = A.a4)
    (h5 : (V0 (Proc.devRef .tc main_arg5) : IVec S8192 32) = A.a5)
    (h6 : (V0 (Proc.devRef .tc main_arg6) : IVec S8192 32) = A.a6) :
    (val4 V0 (Proc.devRef .tc main_v176) : FVec Ideal S8192x64 .f32) = out1 side A :=
  out1_eq ⟨h0, h1, h2, h3, h4, h5, h6⟩

/-- The reference's third result is the kernel arrangement's. -/
theorem ref_out2 (V0 : Valuation τ sig (Elt Ideal)) (A : Args)
    (h0 : (V0 (Proc.devRef .tc main_arg0) : FVec Ideal S200000x64 .f32) = A.a0)
    (h1 : (V0 (Proc.devRef .tc main_arg1) : FVec Ideal S100000x64 .f32) = A.a1)
    (h2 : (V0 (Proc.devRef .tc main_arg2) : IVec S2000000 32) = A.a2)
    (h3 : (V0 (Proc.devRef .tc main_arg3) : IVec S2000000 32) = A.a3)
    (h4 : (V0 (Proc.devRef .tc main_arg4) : IVec S8192 32) = A.a4)
    (h5 : (V0 (Proc.devRef .tc main_arg5) : IVec S8192 32) = A.a5)
    (h6 : (V0 (Proc.devRef .tc main_arg6) : IVec S8192 32) = A.a6) :
    (val4 V0 (Proc.devRef .tc main_v183) : FVec Ideal S8192x64 .f32) = out2 side A :=
  out2_eq ⟨h0, h1, h2, h3, h4, h5, h6⟩

end Cert.Proof.Bridge

end
-- ==== Proof.lean ====
/-
  The certificate: the kernel and its jnp reference compute the same three results over the extended reals.

  Both programs count the degrees of a bipartite graph's nodes, pass messages along the edges three times with a
  symmetric degree normalisation, normalise every row of the aggregated messages to unit length (with a small floor),
  accumulate the unit rows with weights 1, 1/2 and the float nearest 1/3, and return three batches of rows. The reference
  weighs each edge by (deg u · deg i)^(−1/2); the kernel weighs each node's row by its own deg^(−1/2) (zero where the
  degree is zero) before the gather and again after the sum. Over the extended reals the power is the real power on
  finite values, whose value at zero is zero, so the guard is the identity on degrees and the power of a product of
  nonnegative reals is the product of the powers; and a factor in [0, ⊤) distributes over a finite sum of extended
  reals. Hence each aggregation agrees, row by row, whatever the features hold; the rest of a round is the same
  operations on equal arrays. The frames are the generated ones; the idealization rewrote nothing.
-/
import proofs.«158156_j83751862272173_2_alg».proof.Defs
import proofs.«158156_j83751862272173_2_alg».proof.Proof.Gen.Kernel
import proofs.«158156_j83751862272173_2_alg».proof.Proof.Gen.Kernel.Skeleton
import proofs.«158156_j83751862272173_2_alg».proof.Proof.Gen.Kernel.Launch
import proofs.«158156_j83751862272173_2_alg».proof.Proof.Gen.Kernel.Points
import proofs.«158156_j83751862272173_2_alg».proof.Proof.Gen.Kernel.Frame
import proofs.«158156_j83751862272173_2_alg».proof.Proof.Gen.KernelIdeal
import proofs.«158156_j83751862272173_2_alg».proof.Proof.Gen.KernelIdeal.Skeleton
import proofs.«158156_j83751862272173_2_alg».proof.Proof.Gen.KernelIdeal.Launch
import proofs.«158156_j83751862272173_2_alg».proof.Proof.Gen.KernelIdeal.Points
import proofs.«158156_j83751862272173_2_alg».proof.Proof.Gen.KernelIdeal.Frame
import proofs.«158156_j83751862272173_2_alg».proof.Proof.Gen.ReferenceIdeal
import proofs.«158156_j83751862272173_2_alg».proof.Proof.Gen.ReferenceIdeal.Run
import proofs.«158156_j83751862272173_2_alg».proof.Proof.Gen.Pre_finite_inputs
import proofs.«158156_j83751862272173_2_alg».proof.Proof.RunValues
import proofs.«158156_j83751862272173_2_alg».proof.Proof.Chain
import proofs.«158156_j83751862272173_2_alg».proof.Proof.RefBridge
import Idealize.ShloMosaic.Adequacy
import Idealize.ShloMosaic.Init

noncomputable section

namespace Cert.Proof

open Idealize.ShloMosaic Idealize.SL.Sem Idealize.ShloMosaic.StableHlo

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both idealized programs end at the specification's three results of the (agreeing) arguments. -/
theorem algebraic : Cert.algebraic_KernelIdeal_ReferenceIdeal := by
  intro m ρ m' ρ' _ hagree
  refine ⟨fun c => Cert.KernelIdeal.Spec.out0 Bridge.side (Cert.KernelIdeal.Front.argsOf m c),
    fun c => Cert.KernelIdeal.Spec.out1 Bridge.side (Cert.KernelIdeal.Front.argsOf m c),
    fun c => Cert.KernelIdeal.Spec.out2 Bridge.side (Cert.KernelIdeal.Front.argsOf m c), ?_, ?_⟩
  · refine (θ_run Cert.KernelIdeal.defs _ _).mono (fun r h c => ?_) (Cert.KernelIdeal.RunValues.run (F := Ideal) m ρ)
    obtain ⟨h0, h1, h2, hargs⟩ := h c
    exact ⟨h0.trans (Cert.KernelIdeal.Chain.w17_v93 m ρ Bridge.side c), h1.trans (Cert.KernelIdeal.Chain.w17_v100 m ρ Bridge.side c),
      h2.trans (Cert.KernelIdeal.Chain.w17_v107 m ρ Bridge.side c), hargs⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6⟩ := hagree c
    exact ⟨h0.trans ((Cert.ReferenceIdeal.Value.val4_main_v169 (launchContents m' c)).symm.trans
        (Bridge.ref_out0 (launchContents m' c) (Cert.KernelIdeal.Front.argsOf m c) e0 e1 e2 e3 e4 e5 e6)),
      h1.trans ((Cert.ReferenceIdeal.Value.val4_main_v176 (launchContents m' c)).symm.trans
        (Bridge.ref_out1 (launchContents m' c) (Cert.KernelIdeal.Front.argsOf m c) e0 e1 e2 e3 e4 e5 e6)),
      h2.trans ((Cert.ReferenceIdeal.Value.val4_main_v183 (launchContents m' c)).symm.trans
        (Bridge.ref_out2 (launchContents m' c) (Cert.KernelIdeal.Front.argsOf m c) e0 e1 e2 e3 e4 e5 e6)),
      hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
